-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x256 : Shape := ⟨3, ![2048, 2, 256]⟩
abbrev S2048x80 : Shape := ⟨2, ![2048, 80]⟩
abbrev S_ : Shape := ⟨0, ![]⟩

class Facts : Prop where
  bcast_S_S2048x2x256 : S_.BroadcastsInDim S2048x2x256 (![] : Fin 0 → Fin S2048x2x256.rank)
  reducesTo_S2048x2x256_S_d0_1_2 : S2048x2x256.ReducesTo [0, 1, 2] S_
  h_S_ : 0 < S_.numel

variable [Facts]

def fn {F : FTy → Type} [FloatOps F] (main_arg0 : FVec F S2048x2x256 .f32) (main_arg1 : IVec S2048x80 32) : IVec S_ 1 :=
  let main_v0 : FVec F S2048x2x256 .f32 := Host.absf main_arg0
  let main_cst : FVec F S_ .f32 := constant S_ .f32 0x7F800000#32
  let main_v1 : FVec F S2048x2x256 .f32 := broadcastInDim S2048x2x256 ![] bcast_S_S2048x2x256 main_cst
  let main_v2 : IVec S2048x2x256 1 := cmpf .olt main_v0 main_v1
  let main_c : IVec S_ 1 := constantI S_ 1 1#1
  let main_v3 : IVec S_ 1 := (fun x v => Host.reduce IntOp.andi x v reducesTo_S2048x2x256_S_d0_1_2 h_S_) main_v2 main_c
  main_v3
-- ==== Kernel.lean ====
abbrev S2048x2x256 : Shape := ⟨3, ![2048, 2, 256]⟩
abbrev S2048x80 : Shape := ⟨2, ![2048, 80]⟩
abbrev S2x2048x256 : Shape := ⟨3, ![2, 2048, 256]⟩
abbrev S4096x256 : Shape := ⟨2, ![4096, 256]⟩
abbrev S4096x1 : Shape := ⟨2, ![4096, 1]⟩
abbrev S512x256 : Shape := ⟨2, ![512, 256]⟩
abbrev S512x80 : Shape := ⟨2, ![512, 80]⟩
abbrev S512x1 : Shape := ⟨2, ![512, 1]⟩
abbrev S256x512 : Shape := ⟨2, ![256, 512]⟩
abbrev S512x512 : Shape := ⟨2, ![512, 512]⟩
abbrev S80x512 : Shape := ⟨2, ![80, 512]⟩
abbrev S512 : Shape := ⟨1, ![512]⟩
abbrev S1x80 : Shape := ⟨2, ![1, 80]⟩
abbrev S1x512 : Shape := ⟨2, ![1, 512]⟩
abbrev S4096 : Shape := ⟨1, ![4096]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S2048x2x256, .f32⟩
  | .hbm, ⟨1, _⟩ => ⟨S2048x80, .i32⟩
  | .hbm, ⟨2, _⟩ => ⟨S2x2048x256, .f32⟩
  | .hbm, ⟨3, _⟩ => ⟨S4096x256, .f32⟩
  | .hbm, ⟨4, _⟩ => ⟨S4096x256, .bf16⟩
  | .hbm, ⟨5, _⟩ => ⟨S2048x80, .f32⟩
  | .hbm, ⟨6, _⟩ => ⟨S4096x1, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x80, .f32⟩
  | .local _ .vmem, ⟨5, _⟩ => ⟨S512x80, .f32⟩
  | .local _ .vmem, ⟨6, _⟩ => ⟨S512x80, .f32⟩
  | .local _ .vmem, ⟨7, _⟩ => ⟨S512x80, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S2048x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v96 : BitVec 1 := Scalar.cmpi .eq arg1 c7_i32
  let v97 : BitVec 32 := Scalar.extui v96
  let c0_i32_46 : BitVec 32 := 0#32
  let v98 : BitVec 1 := Scalar.cmpi .ne v97 c0_i32_46
  v98

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S2048x2x256_S2x2048x256_1_0_2 : S2048x2x256.Transposes [1, 0, 2] S2x2048x256
  shapeCasts_S2x2048x256_S4096x256 : S2x2048x256.ShapeCasts S4096x256
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x80_S512x80_0_0 : ∀ a, (![0, 0] : Fin 2 → Nat) a + S512x80.size a ≤ S512x80.size a
  h_S512x80 : 0 < S512x80.numel
  shapeCasts_S512x80_S512x80 : S512x80.ShapeCasts S512x80
  transposes_S512x256_p1_0_S256x512 : S512x256.Transposes [1, 0] S256x512
  transposes_S512x80_p1_0_S80x512 : S512x80.Transposes [1, 0] S80x512
  reduces_S512x80_S512 : S512x80.Reduces [1] S512
  shapeCasts_S512_S512x1 : S512.ShapeCasts S512x1
  broadcasts_S512x1_S512x512 : S512x1.Broadcasts S512x512
  broadcasts_S1x512_S512x512 : S1x512.Broadcasts S512x512
  natLt_1_32 : 1 < 32
  iota_S512x512_d0_w32 : S512x512.Iotas .tc 32 [0]
  iota_S512x512_d1_w32 : S512x512.Iotas .tc 32 [1]
  reduces_S512x512_S512 : S512x512.Reduces [1] S512
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S512x256_S256x512_S512x512_1_0_0_1_n_n_wf : DotDims.WF S512x256 S256x512 S512x512 [1] [0] [0] [1] [] []
  dot_S512x80_S80x512_S512x512_1_0_0_1_n_n_wf : DotDims.WF S512x80 S80x512 S512x512 [1] [0] [0] [1] [] []
  dot_S1x80_S80x512_S1x512_1_0_0_1_n_n_wf : DotDims.WF S1x80 S80x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x80.size a ≤ S2048x80.size a
  hwx0_2 : ∀ i : grid0.Coords, EltTy.bits .f32 = 32 ∨ (Rect.block (s := S2048x80) S512x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x80.size a ≤ S2048x80.size a
  hwx0_3 : ∀ i : grid0.Coords, EltTy.bits .f32 = 32 ∨ (Rect.block (s := S2048x80) S512x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x80_S80x512_S512x512_1_0_0_1_n_n : DotDims S512x80 S80x512 S512x512 where
  lhsContracting := [1]
  rhsContracting := [0]
  lhsNonContracting := [0]
  rhsNonContracting := [1]
  lhsBatch := []
  rhsBatch := []
  wf := dot_S512x80_S80x512_S512x512_1_0_0_1_n_n_wf
def dot_S1x80_S80x512_S1x512_1_0_0_1_n_n : DotDims S1x80 S80x512 S1x512 where
  lhsContracting := [1]
  rhsContracting := [0]
  lhsNonContracting := [0]
  rhsNonContracting := [1]
  lhsBatch := []
  rhsBatch := []
  wf := dot_S1x80_S80x512_S1x512_1_0_0_1_n_n_wf

abbrev win0_0 : Pipeline.Window sig grid0 :=
  Pipeline.Window.ofSpec (Memref.whole main_v2) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x2x256 : Shape := ⟨3, ![2048, 2, 256]⟩
abbrev S2048x80 : Shape := ⟨2, ![2048, 80]⟩
abbrev S2x2048x256 : Shape := ⟨3, ![2, 2048, 256]⟩
abbrev S4096x256 : Shape := ⟨2, ![4096, 256]⟩
abbrev S80x2048 : Shape := ⟨2, ![80, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x2048x1x2048 : Shape := ⟨4, ![1, 2048, 1, 2048]⟩
abbrev S2x2048x2x2048 : Shape := ⟨4, ![2, 2048, 2, 2048]⟩
abbrev S4096x4096 : Shape := ⟨2, ![4096, 4096]⟩
abbrev S256x4096 : Shape := ⟨2, ![256, 4096]⟩
abbrev S4096 : Shape := ⟨1, ![4096]⟩
abbrev S4096x1 : Shape := ⟨2, ![4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x2x256, .f32⟩
  | .hbm, ⟨1, _⟩ => ⟨S2048x80, .i32⟩
  | .hbm, ⟨2, _⟩ => ⟨S2x2048x256, .f32⟩
  | .hbm, ⟨3, _⟩ => ⟨S4096x256, .f32⟩
  | .hbm, ⟨4, _⟩ => ⟨S2048x80, .f32⟩
  | .hbm, ⟨5, _⟩ => ⟨S80x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .i1⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S1x2048x1x2048, .f32⟩
  | .hbm, ⟨27, _⟩ => ⟨S2x2048x2x2048, .f32⟩
  | .hbm, ⟨28, _⟩ => ⟨S4096x4096, .f32⟩
  | .hbm, ⟨29, _⟩ => ⟨S1x2048x1x2048, .f32⟩
  | .hbm, ⟨30, _⟩ => ⟨S2x2048x2x2048, .f32⟩
  | .hbm, ⟨31, _⟩ => ⟨S4096x4096, .f32⟩
  | .hbm, ⟨32, _⟩ => ⟨S256x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x4096, .i32⟩
  | .hbm, ⟨43, _⟩ => ⟨S4096x4096, .i32⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S2048x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]

class Facts₀ : Prop where
  transposes_S2048x2x256_S2x2048x256_1_0_2 : S2048x2x256.Transposes [1, 0, 2] S2x2048x256
  shapeCasts_S2x2048x256_S4096x256 : S2x2048x256.ShapeCasts S4096x256
  transposes_S2048x80_S80x2048_1_0 : S2048x80.Transposes [1, 0] S80x2048
  reducesTo_S2048x80_S2048_d1 : S2048x80.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  shapeCasts_S2048x2048_S1x2048x1x2048 : S2048x2048.ShapeCasts S1x2048x1x2048
  bcast_S1x2048x1x2048_S2x2048x2x2048_0_1_2_3 : S1x2048x1x2048.BroadcastsInDim S2x2048x2x2048 (![0, 1, 2, 3] : Fin 4 → Fin S2x2048x2x2048.rank)
  shapeCasts_S2x2048x2x2048_S4096x4096 : S2x2048x2x2048.ShapeCasts S4096x4096
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x1 : S_.BroadcastsInDim S4096x1 (![] : Fin 0 → Fin S4096x1.rank)
  bcast_S_S4096 : S_.BroadcastsInDim S4096 (![] : Fin 0 → Fin S4096.rank)
  reducesTo_S4096_S_d0 : S4096.ReducesTo [0] S_
  dot_S2048x80_S80x2048_S2048x2048_1_0_0_1_n_n_wf : DotDims.WF S2048x80 S80x2048 S2048x2048 [1] [0] [0] [1] [] []
  dot_S4096x256_S256x4096_S4096x4096_1_0_0_1_n_n_wf : DotDims.WF S4096x256 S256x4096 S4096x4096 [1] [0] [0] [1] [] []

variable [Facts₀]

def dot_S2048x80_S80x2048_S2048x2048_1_0_0_1_n_n : DotDims S2048x80 S80x2048 S2048x2048 where
  lhsContracting := [1]
  rhsContracting := [0]
  lhsNonContracting := [0]
  rhsNonContracting := [1]
  lhsBatch := []
  rhsBatch := []
  wf := dot_S2048x80_S80x2048_S2048x2048_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.WordBodyShared.lean ====
/-
  The grid of the one kernel region is 8 row blocks by 8 column blocks, visited row block by row block. Two conditions of
  the body depend on the column block alone: at the FIRST column block the five per-row accumulators are reset, at the
  LAST one the row's value is written out. This module names the two conditions as the body computes them from the
  column coordinate and decides, over the 64 grid points, at which points each holds (point t is row block t / 8, column
  block t % 8); it also says where the output window is idle (everywhere but the last column block) and names the
  memrefs the body is called with.
-/
import proofs.«178212_j23381801959424_1_alg».proof.Proof.Gen.Kernel.Launch
import proofs.«178212_j23381801959424_1_alg».proof.Proof.Gen.Kernel.Skeleton
import proofs.«178212_j23381801959424_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column block is the first: the body's reset branch is taken. -/
abbrev firstCol (i : grid0.Coords) : Prop :=
  (Scalar.cmpi .ne (Scalar.extui (Scalar.cmpi .eq (BitVec.ofNat 32 (i 1).val) 0#32)) 0#32) = 1#1
/-- The column block is the last: the body's closing branch is taken. -/
abbrev lastCol (i : grid0.Coords) : Prop := k0_cond2 i = 1#1

theorem firstCol_iff : ∀ t : Fin cfg0.N, firstCol (grid0.coords t) ↔ t.val % 8 = 0 :=
  (by decide +kernel : ∀ t : Fin grid0.N, firstCol (grid0.coords t) ↔ t.val % 8 = 0)
theorem lastCol_iff : ∀ t : Fin cfg0.N, lastCol (grid0.coords t) ↔ t.val % 8 = 7 :=
  (by decide +kernel : ∀ t : Fin grid0.N, lastCol (grid0.coords t) ↔ t.val % 8 = 7)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, wherever the column block is not the last; live at the last. -/
theorem idle4 : ∀ t : Fin cfg0.N, ¬lastCol (grid0.coords t) → cfg0.idle 4 (grid0.coords t) = true := by decide +kernel
theorem noFlush4 : ∀ t : Fin cfg0.N, ¬lastCol (grid0.coords t) → (cfg0.win 4).flush t = false := by decide +kernel
theorem live4 : ∀ t : Fin cfg0.N, lastCol (grid0.coords t) → cfg0.idle 4 (grid0.coords t) = false := by decide +kernel

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x80 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The five accumulators: running maximum, partition sum, and the three weighted sums. -/
abbrev acc0 : Memref sig .tc .vmem S512x1 .f32 := Memref.whole cc0_scratch0
abbrev acc1 : Memref sig .tc .vmem S512x1 .f32 := Memref.whole cc0_scratch1
abbrev acc2 : Memref sig .tc .vmem S512x1 .f32 := Memref.whole cc0_scratch2
abbrev acc3 : Memref sig .tc .vmem S512x1 .f32 := Memref.whole cc0_scratch3
abbrev acc4 : Memref sig .tc .vmem S512x1 .f32 := Memref.whole cc0_scratch4
/-- One view of the shape of an accumulator (and of the output block), through which contents are stated. -/
abbrev VA : View sig .tc .vmem S512x1 .f32 := acc0.view

end Cert.Kernel.Body

end
-- ==== Proof.WordBodyMid.lean ====
/-
  The body at a column block that is neither the first nor the last of its row: nothing is reset and nothing is written
  out; each of the five accumulators is read, combined with this block's contribution and stored back whole. The run
  below executes the printed body on whole staging buffers — the four input blocks at given contents, the output block
  left untouched, the accumulators at what the column block before left — and returns, for each accumulator, the list
  of pieces its stores wrote.
-/
import proofs.«178212_j23381801959424_1_alg».proof.Proof.WordBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i)
    (x0 : Vec F S512x256 .bf16) (x1 : Vec F S512x256 .bf16) (x2 : Vec F S512x80 .f32) (x3 : Vec F S512x80 .f32) (xs0 xs1 xs2 xs3 xs4 : Vec F S512x1 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.Kernel.Body

end
-- ==== Proof.WordBodyFirst.lean ====
/-
  The body at the FIRST column block of a row: the five accumulators are reset (the running maximum to -∞, the four sums
  to 0) before anything reads them, so the run needs nothing of what they held; then each is combined with this block's
  contribution and stored back whole. Nothing is written out. The run returns, for each accumulator, the list of pieces
  its stores wrote.
-/
import proofs.«178212_j23381801959424_1_alg».proof.Proof.WordBodyMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i)
    (x0 : Vec F S512x256 .bf16) (x1 : Vec F S512x256 .bf16) (x2 : Vec F S512x80 .f32) (x3 : Vec F S512x80 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.Kernel.Body

end
-- ==== Proof.WordBodyLast.lean ====
/-
  The body at the LAST column block of a row: the accumulators, at what the column block before left, take this block's
  contribution and are stored back; then the row's value (a - t * (m + log (z + ε))) / (n + ε) is computed from them and
  stored over the whole output block, whatever it held. The run returns the pieces written to the output block and to
  each accumulator.
-/
import proofs.«178212_j23381801959424_1_alg».proof.Proof.WordBodyFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i)
    (x0 : Vec F S512x256 .bf16) (x1 : Vec F S512x256 .bf16) (x2 : Vec F S512x80 .f32) (x3 : Vec F S512x80 .f32) (xs0 xs1 xs2 xs3 xs4 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    iexists _; iexact HS4

end Cert.Kernel.Body

end
-- ==== Proof.WordBodyCover.lean ====
/-
  What the five per-row accumulators hold after each grid point, and what the output block holds after the last column
  block of a row. In each of the three cases of the body the pieces its stores wrote tile the buffer, so the buffer's
  contents are those pieces read back. Following the points in order: at the first column block of a row the accumulators
  are what the reset-and-add run leaves (from this point's four input blocks alone); at every later column block they are
  what the run leaves from this point's input blocks and from what the point before left.
-/
import proofs.«178212_j23381801959424_1_alg».proof.Proof.WordBodyLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces cover their buffer -/

theorem coverFirst_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).1 S512x1.size (by sl_kernel_rfl) y
/-- What this case leaves in accumulator 0: its pieces read back. -/
def accFirst_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).1)
theorem coverFirst_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.1 S512x1.size (by sl_kernel_rfl) y
/-- What this case leaves in accumulator 1: its pieces read back. -/
def accFirst_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.1)
theorem coverFirst_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y
/-- What this case leaves in accumulator 2: its pieces read back. -/
def accFirst_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.1)
theorem coverFirst_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y
/-- What this case leaves in accumulator 3: its pieces read back. -/
def accFirst_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.2.1)
theorem coverFirst_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y
/-- What this case leaves in accumulator 4: its pieces read back. -/
def accFirst_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.2.2.1)

theorem coverMid_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1 S512x1.size (by sl_kernel_rfl) y
/-- What this case leaves in accumulator 0: its pieces read back. -/
def accMid_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1)
theorem coverMid_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1 S512x1.size (by sl_kernel_rfl) y
/-- What this case leaves in accumulator 1: its pieces read back. -/
def accMid_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1)
theorem coverMid_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1 S512x1.size (by sl_kernel_rfl) y
/-- What this case leaves in accumulator 2: its pieces read back. -/
def accMid_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1)
theorem coverMid_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1 S512x1.size (by sl_kernel_rfl) y
/-- What this case leaves in accumulator 3: its pieces read back. -/
def accMid_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1)
theorem coverMid_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1 S512x1.size (by sl_kernel_rfl) y
/-- What this case leaves in accumulator 4: its pieces read back. -/
def accMid_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1)

theorem coverLast_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1 S512x1.size (by sl_kernel_rfl) y
/-- What this case leaves in accumulator 0: its pieces read back. -/
def accLast_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1)
theorem coverLast_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1 S512x1.size (by sl_kernel_rfl) y
/-- What this case leaves in accumulator 1: its pieces read back. -/
def accLast_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1)
theorem coverLast_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1 S512x1.size (by sl_kernel_rfl) y
/-- What this case leaves in accumulator 2: its pieces read back. -/
def accLast_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1)
theorem coverLast_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1 S512x1.size (by sl_kernel_rfl) y
/-- What this case leaves in accumulator 3: its pieces read back. -/
def accLast_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1)
theorem coverLast_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1 S512x1.size (by sl_kernel_rfl) y
/-- What this case leaves in accumulator 4: its pieces read back. -/
def accLast_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1)

theorem coverLast_out (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1 S512x1.size (by sl_kernel_rfl) y
/-- What the last column block leaves in the output block: the row values, read back. -/
def outLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1)

end Cert.Kernel.Body

end
-- ==== Proof.WordBodyAcc.lean ====
/-
  The accumulators after each grid point, by recursion on the point. Point `t` is row block `t / 8`, column block `t % 8`:
  at column block 0 the accumulators restart from this point's input blocks alone; at any other column block they are
  obtained from this point's input blocks and from what the point before left. The output block is written at column
  block 7, from the accumulators the point before left and this point's blocks.
-/
import proofs.«178212_j23381801959424_1_alg».proof.Proof.WordBodyCover

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five accumulators' contents. -/
abbrev Acc5 (F : FTy → Type) : Type := Vec F S512x1 .f32 × Vec F S512x1 .f32 × Vec F S512x1 .f32 × Vec F S512x1 .f32 × Vec F S512x1 .f32

/-- After a first column block. -/
def stepFirst (c : Dev nD) (t : Fin cfg0.N) (h0 : firstCol (grid0.coords t)) (h1 : ¬lastCol (grid0.coords t)) : Acc5 F :=
    (accFirst_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t))
/-- After a middle column block, from what the point before left. -/
def stepMid (c : Dev nD) (t : Fin cfg0.N) (h0 : ¬firstCol (grid0.coords t)) (h1 : ¬lastCol (grid0.coords t)) (prev : Acc5 F) : Acc5 F :=
    (accMid_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2)
/-- After a last column block, from what the point before left. -/
def stepLast (c : Dev nD) (t : Fin cfg0.N) (h0 : ¬firstCol (grid0.coords t)) (h1 : lastCol (grid0.coords t)) (prev : Acc5 F) : Acc5 F :=
    (accLast_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2)
/-- The output block a last column block writes. -/
def outBlock (c : Dev nD) (t : Fin cfg0.N) (h0 : ¬firstCol (grid0.coords t)) (h1 : lastCol (grid0.coords t)) (prev : Acc5 F) : Vec F S512x1 .f32 :=
  outLast c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2

/-- THE ACCUMULATION: the accumulators after the body at position `n`. -/
def accAt (c : Dev nD) : (n : ℕ) → n < cfg0.N → Acc5 F
  | 0, hn => stepFirst V c ⟨0, hn⟩ ((firstCol_iff ⟨0, hn⟩).mpr (Nat.zero_mod _)) (fun h => by have := (lastCol_iff ⟨0, hn⟩).mp h; simp at this)
  | n + 1, hn =>
    if h0 : (n + 1) % 8 = 0 then
      if h1 : (n + 1) % 8 = 7 then False.elim (by omega)
      else stepFirst V c ⟨n + 1, hn⟩ ((firstCol_iff ⟨n + 1, hn⟩).mpr h0) (fun h => h1 ((lastCol_iff ⟨n + 1, hn⟩).mp h))
    else
      if h1 : (n + 1) % 8 = 7 then
        stepLast V c ⟨n + 1, hn⟩ (fun h => h0 ((firstCol_iff ⟨n + 1, hn⟩).mp h)) ((lastCol_iff ⟨n + 1, hn⟩).mpr h1) (accAt c n (Nat.lt_of_succ_lt hn))
      else
        stepMid V c ⟨n + 1, hn⟩ (fun h => h0 ((firstCol_iff ⟨n + 1, hn⟩).mp h)) (fun h => h1 ((lastCol_iff ⟨n + 1, hn⟩).mp h)) (accAt c n (Nat.lt_of_succ_lt hn))

/-- What the output block's staging buffer holds after the body at point `t`: the row values at a last column block
    (elsewhere the window is idle and this is not consulted). -/
def outAt (c : Dev nD) (t : Fin cfg0.N) : Vec F S512x1 .f32 :=
  if h1 : t.val % 8 = 7 then
    if h0 : t.val % 8 = 0 then VA.junk
    else outBlock V c t (fun h => h0 ((firstCol_iff t).mp h)) ((lastCol_iff t).mpr h1)
      (accAt V c (t.val - 1) (Nat.lt_of_le_of_lt (Nat.sub_le _ _) t.isLt))
  else VA.junk

theorem accAt_first (c : Dev nD) (t : Fin cfg0.N) (h0 : t.val % 8 = 0) (h1 : ¬t.val % 8 = 7) :
    accAt V c t.val t.isLt = stepFirst V c t ((firstCol_iff t).mpr h0) (fun h => h1 ((lastCol_iff t).mp h)) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = stepMid V c t (fun h => h0 ((firstCol_iff t).mp h)) (fun h => h1 ((lastCol_iff t).mp h))
      (accAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = stepLast V c t (fun h => h0 ((firstCol_iff t).mp h)) ((lastCol_iff t).mpr h1)
      (accAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

theorem outAt_last (c : Dev nD) (t : Fin cfg0.N) (h0 : ¬t.val % 8 = 0) (h1 : t.val % 8 = 7) :
    outAt V c t = outBlock V c t (fun h => h0 ((firstCol_iff t).mp h)) ((lastCol_iff t).mpr h1)
      (accAt V c (t.val - 1) (Nat.lt_of_le_of_lt (Nat.sub_le _ _) t.isLt)) := by
  unfold outAt; rw [dif_pos h1, dif_neg h0]

end Cert.Kernel.Body

end
-- ==== Proof.WordBodyObl.lean ====
/-
  The body's obligation at every grid point. Between points the region keeps the five accumulators at named contents
  (what the point before left), besides the generator register; before the first point they hold anything. At a point
  the four input windows' staging buffers hold their blocks of the arrays as the region found them; which of the three
  cases of the body applies is decided by the column block; the run of that case takes the accumulators from the point
  before (or from anything, at a first column block) to this point's contents, leaves the input blocks in place, and
  leaves the output block alone except at a last column block, where it holds the row values.
-/
import proofs.«178212_j23381801959424_1_alg».proof.Proof.WordBodyAcc

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's invariant before the first point: each accumulator at some contents, the generator register at some state. -/
theorem PhiA_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)
          ∗ (∃ d, owns (c : Thread nD τ) acc3 fullShare d) ∗ (∃ d, owns (c : Thread nD τ) acc4 fullShare d)) ∗ (∃ r, prngReg c r)) := by
  unfold Pipeline.ΦA; rw [scopedRest0_eq]; simp only [acc0, acc1, acc2, acc3, acc4, owns_whole]; try rfl

/-- The invariant before position `n`: before the first point anything; afterwards the accumulators at what the point before left. -/
def PhiS (c : Dev nD) : (n : ℕ) → n ≤ cfg0.N → sProp 𝕄
  | 0, _ => Pipeline.ΦA spec0 c
  | n + 1, hn => iprop(iprop(owns (c : Thread nD τ) acc0 fullShare ((accAt V c n hn).1) ∗ owns (c : Thread nD τ) acc1 fullShare ((accAt V c n hn).2.1) ∗ owns (c : Thread nD τ) acc2 fullShare ((accAt V c n hn).2.2.1) ∗ owns (c : Thread nD τ) acc3 fullShare ((accAt V c n hn).2.2.2.1) ∗ owns (c : Thread nD τ) acc4 fullShare ((accAt V c n hn).2.2.2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) acc0 fullShare ((accAt V c n hn).1) ∗ owns (c : Thread nD τ) acc1 fullShare ((accAt V c n hn).2.1) ∗ owns (c : Thread nD τ) acc2 fullShare ((accAt V c n hn).2.2.1) ∗ owns (c : Thread nD τ) acc3 fullShare ((accAt V c n hn).2.2.2.1) ∗ owns (c : Thread nD τ) acc4 fullShare ((accAt V c n hn).2.2.2.2)) ∗ (∃ r, prngReg c r)) := rfl
theorem PhiS_pos (c : Dev nD) (n : ℕ) (h : n ≤ cfg0.N) (hz : n ≠ 0) :
    PhiS V c n h = iprop(iprop(owns (c : Thread nD τ) acc0 fullShare ((accAt V c (n - 1) (by omega)).1) ∗ owns (c : Thread nD τ) acc1 fullShare ((accAt V c (n - 1) (by omega)).2.1) ∗ owns (c : Thread nD τ) acc2 fullShare ((accAt V c (n - 1) (by omega)).2.2.1) ∗ owns (c : Thread nD τ) acc3 fullShare ((accAt V c (n - 1) (by omega)).2.2.2.1) ∗ owns (c : Thread nD τ) acc4 fullShare ((accAt V c (n - 1) (by omega)).2.2.2.2)) ∗ (∃ r, prngReg c r)) := by
  cases n with
  | zero => exact absurd rfl hz
  | succ n => rfl

/-- The proof data of the region on core `c`: the arrays as the region finds them; after the body each input window's
    buffer at its block and the output's at the row values; the invariant above; the two arrays that two windows read
    are held half each; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin cfg0.N) : (dat V c).after 1 t = iblk V c 1 t := by dsimp only [dat]
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin cfg0.N) : (dat V c).after 2 t = iblk V c 2 t := by dsimp only [dat]
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin cfg0.N) : (dat V c).after 3 t = iblk V c 3 t := by dsimp only [dat]
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem after_4 (c : Dev nD) (t : Fin cfg0.N) : (dat V c).after 4 t = outAt V c t := by dsimp only [dat]

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 8 = 0
  · have h1 : ¬t.val % 8 = 7 := by omega
    rw [Dat.leavesExact_idle (dat V c) 4 t (idle4 t (fun h => h1 ((lastCol_iff t).mp h))) (noFlush4 t (fun h => h1 ((lastCol_iff t).mp h)))]
    rw [accAt_first V c t h0 h1]
    unfold stepFirst accFirst_0 accFirst_1 accFirst_2 accFirst_3 accFirst_4; (try dsimp only)
    by_cases hz : t.val = 0
    · rw [PhiS_castSucc V c t, PhiS_zero V c _ _ hz, PhiA_eq]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ ((firstCol_iff t).mpr h0) (fun h => h1 ((lastCol_iff t).mp h)) (iblk V c 0 t) (iblk V c 1 t) (iblk V c 2 t) (iblk V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst_1 c _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst_2 c _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverFirst_3 c _ _ _ _ _ _ _ _ _ _ _ _ _ _ _ _ _ _ _ _ _ _ _ _ _ _ _)
          unfold owns; iexists _; isplitr
          swap; · iexact HS4
          ipureintro; exact View.read_writes_of_cover _ _ _ _ _ (coverFirst_4 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ ((firstCol_iff t).mpr h0) (fun h => h1 ((lastCol_iff t).mp h)) (iblk V c 0 t) (iblk V c 1 t) (iblk V c 2 t) (iblk V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst_1 c _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst_2 c _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverFirst_3 c _ _ _ _ _ _ _ _ _ _ _ _ _ _ _ _ _ _ _ _ _ _ _ _ _ _ _)
          unfold owns; iexists _; isplitr
          swap; · iexact HS4
          ipureintro; exact View.read_writes_of_cover _ _ _ _ _ (coverFirst_4 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dat V c).leavesExact 4 t = owns (c : Thread nD τ) (ms4 t) fullShare ((dat V c).after 4 t) from by
        unfold Dat.leavesExact; rw [live4 t ((lastCol_iff t).mpr h1)], after_4]
      rw [outAt_last V c t h0 h1, accAt_last V c t h0 h1]
      unfold outBlock outLast stepLast accLast_0 accLast_1 accLast_2 accLast_3 accLast_4; (try dsimp only)
      rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ _ _ (fun h => h0 ((firstCol_iff t).mp h)) ((lastCol_iff t).mpr h1) (iblk V c 0 t) (iblk V c 1 t) (iblk V c 2 t) (iblk V c 3 t) _ _ _ _ _).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverLast_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLast_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverLast_3 c _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (coverLast_4 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_out c _ _ _ _ _ _ _ _ _ _ _ _ _ _ _ _ _ _ _ _ _ _ _ _ _ _ _ _ _ _ _ _)
    · rw [Dat.leavesExact_idle (dat V c) 4 t (idle4 t (fun h => h1 ((lastCol_iff t).mp h))) (noFlush4 t (fun h => h1 ((lastCol_iff t).mp h)))]
      rw [accAt_mid V c t h0 h1]
      unfold stepMid accMid_0 accMid_1 accMid_2 accMid_3 accMid_4; (try dsimp only)
      rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ _ _ _ _ (fun h => h0 ((firstCol_iff t).mp h)) (fun h => h1 ((lastCol_iff t).mp h)) (iblk V c 0 t) (iblk V c 1 t) (iblk V c 2 t) (iblk V c 3 t) _ _ _ _ _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverMid_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMid_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMid_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverMid_3 c _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (coverMid_4 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the accumulators back at some contents. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.Kernel.Body

end
-- ==== Proof.WordRegion.lean ====
/-
  The kernel region inside the whole program, and the program's run.

  @main is: four host operations (the views stacked and narrowed, the labels converted), the kernel region, nine host
  operations (the row values scaled, summed, averaged, negated). The region reads the stacked features through TWO windows
  (row blocks and column blocks) and the labels through two more, so at entry each of those two arrays is split into two
  half shares, one per window, and at exit the halves are put back; the fifth window's array receives the row values.
  Only that array changes across the region.

  The run is stated for every unscoped buffer: at the end each holds the last boundary's contents, which gives both the
  frame (the arguments are as launched) and the value of the result (the host operations after the region applied to
  what the region wrote).
-/
import proofs.«178212_j23381801959424_1_alg».proof.Proof.WordBodyObl

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the row values' array at what the write-backs left, every other buffer as entered. -/
def W2 (c : Dev nD) : Valuation τ sig (Elt F) :=
  Function.update (W1 m ρ c) (Proc.devRef .tc main_v4) ((dat (V1 m ρ) c).arrAt 4 cfg0.N)
abbrev V2 : (c : Dev nD) → (b : Ref sig .tc) → Buf (Elt F) ((c : Thread nD τ).loc b) := fun c b => W2 m ρ c b
/-- After the host operations after the region. -/
abbrev W3 : Dev nD → Valuation τ sig (Elt F) := fun c => StableHlo.after hostOps1 (W2 m ρ c)

theorem W2_out (c : Dev nD) : W2 m ρ c (Proc.devRef .tc main_v4) = (dat (V1 m ρ) c).arrAt 4 cfg0.N := by
  unfold W2; exact Function.update_self _ _ _
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _

/-! ## The arrays two windows share, split and rejoined -/

theorem arrImage : Finset.univ.image (Pipeline.arrRef spec0) = ([main_v2, main_v3, main_v4] : List (Ref sig .tc)).toFinset := by decide

/-- The three buffers behind the five windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v3) ↦{fullShare} Vv main_v3)
          ∗ (((c : Thread nD τ).loc main_v4) ↦{fullShare} Vv main_v4)) := by
  unfold Pipeline.arrBufs
  exact bigSep_eq_bigSepL_of_eq [main_v2, main_v3, main_v4] arrImage (by decide) _

/-- The region's proof data hold window 0's and window 2's arrays at the left half, window 1's and window 3's at the
    right half, the output's whole. -/
theorem share_0 (V : (c : Dev nD) → (b : Ref sig .tc) → Buf (Elt F) ((c : Thread nD τ).loc b)) (c : Dev nD) : (dat V c).share 0 = fullShare.left := rfl
theorem share_1 (V : (c : Dev nD) → (b : Ref sig .tc) → Buf (Elt F) ((c : Thread nD τ).loc b)) (c : Dev nD) : (dat V c).share 1 = fullShare.right := rfl
theorem share_2 (V : (c : Dev nD) → (b : Ref sig .tc) → Buf (Elt F) ((c : Thread nD τ).loc b)) (c : Dev nD) : (dat V c).share 2 = fullShare.left := rfl
theorem share_3 (V : (c : Dev nD) → (b : Ref sig .tc) → Buf (Elt F) ((c : Thread nD τ).loc b)) (c : Dev nD) : (dat V c).share 3 = fullShare.right := rfl
theorem share_4 (V : (c : Dev nD) → (b : Ref sig .tc) → Buf (Elt F) ((c : Thread nD τ).loc b)) (c : Dev nD) : (dat V c).share 4 = fullShare := rfl

/-- The five windows' arrays, one by one, each a whole buffer at its share. -/
theorem arrays_eq5 (V : (c : Dev nD) → (b : Ref sig .tc) → Buf (Elt F) ((c : Thread nD τ).loc b)) (c : Dev nD)
    (Fn : (w : Fin cfg0.W) → Buf (Elt F) ((cfg0.win w).arr.view.loc (c : Thread nD τ))) :
    ((dat V c).arrays Fn : sProp 𝕄)
      = iprop((((c : Thread nD τ).loc (Pipeline.arrRef spec0 0)) ↦{fullShare.left} Fn 0) ∗ (((c : Thread nD τ).loc (Pipeline.arrRef spec0 1)) ↦{fullShare.right} Fn 1)
          ∗ (((c : Thread nD τ).loc (Pipeline.arrRef spec0 2)) ↦{fullShare.left} Fn 2) ∗ (((c : Thread nD τ).loc (Pipeline.arrRef spec0 3)) ↦{fullShare.right} Fn 3)
          ∗ (((c : Thread nD τ).loc (Pipeline.arrRef spec0 4)) ↦{fullShare} Fn 4)) := by
  unfold Dat.arrays
  rw [bigSep_W0, (arr_whole0 0).set_eq_univ, (arr_whole0 2).set_eq_univ, (arr_whole0 4).set_eq_univ,
    share_0, share_1, share_2, share_3, share_4]

/-- ENTRY: the three buffers at contents `Vv` make the five windows' arrays at the same contents, each shared array split
    into its two halves. -/
theorem arrays_of_arrBufs (V : (c : Dev nD) → (b : Ref sig .tc) → Buf (Elt F) ((c : Thread nD τ).loc b)) (c : Dev nD)
    (Vv : (b : Ref sig .tc) → Buf (Elt F) ((c : Thread nD τ).loc b))
    (Fn : (w : Fin cfg0.W) → Buf (Elt F) ((cfg0.win w).arr.view.loc (c : Thread nD τ))) (hF : ∀ w, Fn w = Vv (Pipeline.arrRef spec0 w)) :
    (Pipeline.arrBufs (Ix := Unit) (Name := ℕ) (U := UR sig nD τ) (Lvl := ℕ) spec0 c Vv : sProp 𝕄) ⊢ (dat V c).arrays Fn := by
  rw [arrBufs_eq, arrays_eq5, hF 0, hF 1, hF 2, hF 3, hF 4]
  iintro ⟨H2, H3, H4⟩
  ihave H2' := (pointsTo_share (PosShare.mem_left_op_right fullShare)).1 $$ H2
  icases H2' with ⟨H2l, H2r⟩
  ihave H3' := (pointsTo_share (PosShare.mem_left_op_right fullShare)).1 $$ H3
  icases H3' with ⟨H3l, H3r⟩
  isplitl [H2l]; · iexact H2l
  isplitl [H2r]; · iexact H2r
  isplitl [H3l]; · iexact H3l
  isplitl [H3r]; · iexact H3r
  iexact H4

/-- EXIT: the five windows' arrays at contents read off `Vv` are the three buffers at `Vv`, the halves rejoined. -/
theorem arrBufs_of_arrays (V : (c : Dev nD) → (b : Ref sig .tc) → Buf (Elt F) ((c : Thread nD τ).loc b)) (c : Dev nD)
    (Vv : (b : Ref sig .tc) → Buf (Elt F) ((c : Thread nD τ).loc b))
    (Fn : (w : Fin cfg0.W) → Buf (Elt F) ((cfg0.win w).arr.view.loc (c : Thread nD τ))) (hF : ∀ w, Fn w = Vv (Pipeline.arrRef spec0 w)) :
    ((dat V c).arrays Fn : sProp 𝕄) ⊢ Pipeline.arrBufs (Ix := Unit) (Name := ℕ) (U := UR sig nD τ) (Lvl := ℕ) spec0 c Vv := by
  rw [arrBufs_eq, arrays_eq5, hF 0, hF 1, hF 2, hF 3, hF 4]
  iintro ⟨H2l, H2r, H3l, H3r, H4⟩
  isplitl [H2l H2r]
  · iapply (pointsTo_share (PosShare.mem_left_op_right fullShare)).2
    isplitl [H2l]; · iexact H2l
    iexact H2r
  isplitl [H3l H3r]
  · iapply (pointsTo_share (PosShare.mem_left_op_right fullShare)).2
    isplitl [H3l]; · iexact H3l
    iexact H3r
  iexact H4

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the exit each window's array holds what the exit valuation says. -/
theorem exit_arr (c : Dev nD) (w : Fin cfg0.W) : (dat (V1 m ρ) c).arrAt w cfg0.N = V2 m ρ c (Pipeline.arrRef spec0 w) := by
  match w with
  | ⟨0, _⟩ => exact ((dat (V1 m ρ) c).arrAt_in 0 rfl _).trans ((A_eq (V1 m ρ) c 0).trans (W2_of_ne m ρ c _ (by decide)).symm)
  | ⟨1, _⟩ => exact ((dat (V1 m ρ) c).arrAt_in 1 rfl _).trans ((A_eq (V1 m ρ) c 1).trans (W2_of_ne m ρ c _ (by decide)).symm)
  | ⟨2, _⟩ => exact ((dat (V1 m ρ) c).arrAt_in 2 rfl _).trans ((A_eq (V1 m ρ) c 2).trans (W2_of_ne m ρ c _ (by decide)).symm)
  | ⟨3, _⟩ => exact ((dat (V1 m ρ) c).arrAt_in 3 rfl _).trans ((A_eq (V1 m ρ) c 3).trans (W2_of_ne m ρ c _ (by decide)).symm)
  | ⟨4, _⟩ => exact (W2_out m ρ c).symm

/-- Off the windows' arrays the exit valuation is the entry one. -/
theorem exit_rest (c : Dev nD) : (Pipeline.unscopedRest (Ix := Unit) (Name := ℕ) (U := UR sig nD τ) (Lvl := ℕ) spec0 c (V2 m ρ c) : sProp 𝕄)
    = Pipeline.unscopedRest (Ix := Unit) (Name := ℕ) (U := UR sig nD τ) (Lvl := ℕ) spec0 c (V1 m ρ c) := by
  unfold Pipeline.unscopedRest
  exact bigSep_congr fun b hb => by
    rw [show V2 m ρ c b = V1 m ρ c b from W2_of_ne m ρ c b fun e =>
      (Finset.mem_sdiff.mp hb).2 (Finset.mem_image.mpr ⟨4, Finset.mem_univ _, e.symm⟩)]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) := by
      show (unscopedBufs c (V1 m ρ c) : sProp 𝕄)
        ⊢ iprop((dat (V1 m ρ) c).arrays ((dat (V1 m ρ) c).arrAt · 0) ∗ Pipeline.unscopedRest (Ix := Unit) (Name := ℕ) (U := UR sig nD τ) (Lvl := ℕ) spec0 c (V1 m ρ c))
      rw [Pipeline.unscopedBufs_split₀ cfgs 0 winFacts₀0.arr_unscoped c (V1 m ρ c)]
      exact sep_mono (arrays_of_arrBufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N) ∗ Pipeline.unscopedRest (Ix := Unit) (Name := ℕ) (U := UR sig nD τ) (Lvl := ℕ) spec0 c (V1 m ρ c))
        ⊢ (unscopedBufs c (V2 m ρ c) : sProp 𝕄) := by
      show iprop((dat (V1 m ρ) c).arrays ((dat (V1 m ρ) c).arrAt · cfg0.N) ∗ Pipeline.unscopedRest (Ix := Unit) (Name := ℕ) (U := UR sig nD τ) (Lvl := ℕ) spec0 c (V1 m ρ c))
        ⊢ (unscopedBufs c (V2 m ρ c) : sProp 𝕄)
      rw [Pipeline.unscopedBufs_split₀ cfgs 0 winFacts₀0.arr_unscoped c (V2 m ρ c), exit_rest]
      exact sep_mono (arrBufs_of_arrays (V1 m ρ) c (V2 m ρ c) _ (fun w => exit_arr m ρ c w)) .rfl
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and at
    the end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W3 m ρ c) ∗ ∃ r, prngReg c r))
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Body

end
-- ==== Proof.WordFrame.lean ====
/-
  The frame of the program: neither argument array is written by a host operation, and the region changes only the row
  values' array, so at each boundary both arguments hold what they held at launch; the run ends with every unscoped
  buffer at the last boundary's contents, hence with both arguments as launched.
-/
import proofs.«178212_j23381801959424_1_alg».proof.Proof.WordRegion

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c), (h c _ (mem_uc main_arg1 (by decide))).trans (W3_main_arg1 m ρ c)⟩)
    (run_all m ρ)

end Cert.Kernel.Body

end
-- ==== Proof.IdealBodyShared.lean ====
/-
  The grid of the one kernel region is 8 row blocks by 8 column blocks, visited row block by row block. Two conditions of
  the body depend on the column block alone: at the FIRST column block the five per-row accumulators are reset, at the
  LAST one the row's value is written out. This module names the two conditions as the body computes them from the
  column coordinate and decides, over the 64 grid points, at which points each holds (point t is row block t / 8, column
  block t % 8); it also says where the output window is idle (everywhere but the last column block) and names the
  memrefs the body is called with.
-/
import proofs.«178212_j23381801959424_1_alg».proof.Proof.Gen.KernelIdeal.Launch
import proofs.«178212_j23381801959424_1_alg».proof.Proof.Gen.KernelIdeal.Skeleton
import proofs.«178212_j23381801959424_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The column block is the first: the body's reset branch is taken. -/
abbrev firstCol (i : grid0.Coords) : Prop :=
  (Scalar.cmpi .ne (Scalar.extui (Scalar.cmpi .eq (BitVec.ofNat 32 (i 1).val) 0#32)) 0#32) = 1#1
/-- The column block is the last: the body's closing branch is taken. -/
abbrev lastCol (i : grid0.Coords) : Prop := k0_cond2 i = 1#1

theorem firstCol_iff : ∀ t : Fin cfg0.N, firstCol (grid0.coords t) ↔ t.val % 8 = 0 :=
  (by decide +kernel : ∀ t : Fin grid0.N, firstCol (grid0.coords t) ↔ t.val % 8 = 0)
theorem lastCol_iff : ∀ t : Fin cfg0.N, lastCol (grid0.coords t) ↔ t.val % 8 = 7 :=
  (by decide +kernel : ∀ t : Fin grid0.N, lastCol (grid0.coords t) ↔ t.val % 8 = 7)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, wherever the column block is not the last; live at the last. -/
theorem idle4 : ∀ t : Fin cfg0.N, ¬lastCol (grid0.coords t) → cfg0.idle 4 (grid0.coords t) = true := by decide +kernel
theorem noFlush4 : ∀ t : Fin cfg0.N, ¬lastCol (grid0.coords t) → (cfg0.win 4).flush t = false := by decide +kernel
theorem live4 : ∀ t : Fin cfg0.N, lastCol (grid0.coords t) → cfg0.idle 4 (grid0.coords t) = false := by decide +kernel

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x80 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The five accumulators: running maximum, partition sum, and the three weighted sums. -/
abbrev acc0 : Memref sig .tc .vmem S512x1 .f32 := Memref.whole cc0_scratch0
abbrev acc1 : Memref sig .tc .vmem S512x1 .f32 := Memref.whole cc0_scratch1
abbrev acc2 : Memref sig .tc .vmem S512x1 .f32 := Memref.whole cc0_scratch2
abbrev acc3 : Memref sig .tc .vmem S512x1 .f32 := Memref.whole cc0_scratch3
abbrev acc4 : Memref sig .tc .vmem S512x1 .f32 := Memref.whole cc0_scratch4
/-- One view of the shape of an accumulator (and of the output block), through which contents are stated. -/
abbrev VA : View sig .tc .vmem S512x1 .f32 := acc0.view

end Cert.KernelIdeal.Body

end
-- ==== Proof.IdealBodyMid.lean ====
/-
  The body at a column block that is neither the first nor the last of its row: nothing is reset and nothing is written
  out; each of the five accumulators is read, combined with this block's contribution and stored back whole. The run
  below executes the printed body on whole staging buffers — the four input blocks at given contents, the output block
  left untouched, the accumulators at what the column block before left — and returns, for each accumulator, the list
  of pieces its stores wrote.
-/
import proofs.«178212_j23381801959424_1_alg».proof.Proof.IdealBodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runMid (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i)
    (x0 : Vec F S512x256 .bf16) (x1 : Vec F S512x256 .bf16) (x2 : Vec F S512x80 .f32) (x3 : Vec F S512x80 .f32) (xs0 xs1 xs2 xs3 xs4 : Vec F S512x1 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.IdealBodyFirst.lean ====
/-
  The body at the FIRST column block of a row: the five accumulators are reset (the running maximum to -∞, the four sums
  to 0) before anything reads them, so the run needs nothing of what they held; then each is combined with this block's
  contribution and stored back whole. Nothing is written out. The run returns, for each accumulator, the list of pieces
  its stores wrote.
-/
import proofs.«178212_j23381801959424_1_alg».proof.Proof.IdealBodyMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i)
    (x0 : Vec F S512x256 .bf16) (x1 : Vec F S512x256 .bf16) (x2 : Vec F S512x80 .f32) (x3 : Vec F S512x80 .f32) :
    Σ' (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.IdealBodyLast.lean ====
/-
  The body at the LAST column block of a row: the accumulators, at what the column block before left, take this block's
  contribution and are stored back; then the row's value (a - t * (m + log (z + ε))) / (n + ε) is computed from them and
  stored over the whole output block, whatever it held. The run returns the pieces written to the output block and to
  each accumulator.
-/
import proofs.«178212_j23381801959424_1_alg».proof.Proof.IdealBodyFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i)
    (x0 : Vec F S512x256 .bf16) (x1 : Vec F S512x256 .bf16) (x2 : Vec F S512x80 .f32) (x3 : Vec F S512x80 .f32) (xs0 xs1 xs2 xs3 xs4 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.IdealBodyCover.lean ====
/-
  What the five per-row accumulators hold after each grid point, and what the output block holds after the last column
  block of a row. In each of the three cases of the body the pieces its stores wrote tile the buffer, so the buffer's
  contents are those pieces read back. Following the points in order: at the first column block of a row the accumulators
  are what the reset-and-add run leaves (from this point's four input blocks alone); at every later column block they are
  what the run leaves from this point's input blocks and from what the point before left.
-/
import proofs.«178212_j23381801959424_1_alg».proof.Proof.IdealBodyLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Each case's pieces cover their buffer -/

theorem coverFirst_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).1 S512x1.size (by sl_kernel_rfl) y
/-- What this case leaves in accumulator 0: its pieces read back. -/
def accFirst_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).1)
theorem coverFirst_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.1 S512x1.size (by sl_kernel_rfl) y
/-- What this case leaves in accumulator 1: its pieces read back. -/
def accFirst_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.1)
theorem coverFirst_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y
/-- What this case leaves in accumulator 2: its pieces read back. -/
def accFirst_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.1)
theorem coverFirst_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y
/-- What this case leaves in accumulator 3: its pieces read back. -/
def accFirst_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.2.1)
theorem coverFirst_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) (y : S512x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y
/-- What this case leaves in accumulator 4: its pieces read back. -/
def accFirst_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) : Vec F S512x1 .f32 :=
  VA.read (Elt F) (VA.writes (Elt F) VA.junk (runFirst c i arg2 harg2 arg3 harg3 arg4 harg4 arg5 harg5 arg6 harg6 arg7 harg7 arg8 harg8 arg9 harg9 arg10 harg10 arg11 harg11 hc0 hc1 x0 x1 x2 x3).2.2.2.2.1)

theorem coverMid_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1 S512x1.size (by sl_kernel_rfl) y
/-- What this case leaves in accumulator 0: its pieces read back. -/
def accMid_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).1)
theorem coverMid_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1 S512x1.size (by sl_kernel_rfl) y
/-- What this case leaves in accumulator 1: its pieces read back. -/
def accMid_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1)
theorem coverMid_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1 S512x1.size (by sl_kernel_rfl) y
/-- What this case leaves in accumulator 2: its pieces read back. -/
def accMid_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1)
theorem coverMid_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1 S512x1.size (by sl_kernel_rfl) y
/-- What this case leaves in accumulator 3: its pieces read back. -/
def accMid_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1)
theorem coverMid_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1 S512x1.size (by sl_kernel_rfl) y
/-- What this case leaves in accumulator 4: its pieces read back. -/
def accMid_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runMid c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1)

theorem coverLast_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1 S512x1.size (by sl_kernel_rfl) y
/-- What this case leaves in accumulator 0: its pieces read back. -/
def accLast_0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.1)
theorem coverLast_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1 S512x1.size (by sl_kernel_rfl) y
/-- What this case leaves in accumulator 1: its pieces read back. -/
def accLast_1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.1)
theorem coverLast_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1 S512x1.size (by sl_kernel_rfl) y
/-- What this case leaves in accumulator 2: its pieces read back. -/
def accLast_2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.1)
theorem coverLast_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1 S512x1.size (by sl_kernel_rfl) y
/-- What this case leaves in accumulator 3: its pieces read back. -/
def accLast_3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.1)
theorem coverLast_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1 S512x1.size (by sl_kernel_rfl) y
/-- What this case leaves in accumulator 4: its pieces read back. -/
def accLast_4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).2.2.2.2.2.1)

theorem coverLast_out (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1 S512x1.size (by sl_kernel_rfl) y
/-- What the last column block leaves in the output block: the row values, read back. -/
def outLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) : Vec F S512x1 .f32 :=
  VA.read (Elt F) (VA.writes (Elt F) VA.junk (runLast c i arg2 harg2 arg3 harg3 arg4 harg4 arg5 harg5 arg6 harg6 arg7 harg7 arg8 harg8 arg9 harg9 arg10 harg10 arg11 harg11 hc0 hc1 x0 x1 x2 x3 xs0 xs1 xs2 xs3 xs4).1)

end Cert.KernelIdeal.Body

end
-- ==== Proof.IdealBodyAcc.lean ====
/-
  The accumulators after each grid point, by recursion on the point. Point `t` is row block `t / 8`, column block `t % 8`:
  at column block 0 the accumulators restart from this point's input blocks alone; at any other column block they are
  obtained from this point's input blocks and from what the point before left. The output block is written at column
  block 7, from the accumulators the point before left and this point's blocks.
-/
import proofs.«178212_j23381801959424_1_alg».proof.Proof.IdealBodyCover

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five accumulators' contents. -/
abbrev Acc5 (F : FTy → Type) : Type := Vec F S512x1 .f32 × Vec F S512x1 .f32 × Vec F S512x1 .f32 × Vec F S512x1 .f32 × Vec F S512x1 .f32

/-- After a first column block. -/
def stepFirst (c : Dev nD) (t : Fin cfg0.N) (h0 : firstCol (grid0.coords t)) (h1 : ¬lastCol (grid0.coords t)) : Acc5 F :=
    (accFirst_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t),
     accFirst_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t))
/-- After a middle column block, from what the point before left. -/
def stepMid (c : Dev nD) (t : Fin cfg0.N) (h0 : ¬firstCol (grid0.coords t)) (h1 : ¬lastCol (grid0.coords t)) (prev : Acc5 F) : Acc5 F :=
    (accMid_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accMid_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2)
/-- After a last column block, from what the point before left. -/
def stepLast (c : Dev nD) (t : Fin cfg0.N) (h0 : ¬firstCol (grid0.coords t)) (h1 : lastCol (grid0.coords t)) (prev : Acc5 F) : Acc5 F :=
    (accLast_0 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_1 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_2 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_3 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2,
     accLast_4 c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2)
/-- The output block a last column block writes. -/
def outBlock (c : Dev nD) (t : Fin cfg0.N) (h0 : ¬firstCol (grid0.coords t)) (h1 : lastCol (grid0.coords t)) (prev : Acc5 F) : Vec F S512x1 .f32 :=
  outLast c (grid0.coords t) (ms0 t) (hs0 t) (ms1 t) (hs1 t) (ms2 t) (hs2 t) (ms3 t) (hs3 t) (ms4 t) (hs4 t) acc0 (Memref.isWhole_whole _) acc1 (Memref.isWhole_whole _) acc2 (Memref.isWhole_whole _) acc3 (Memref.isWhole_whole _) acc4 (Memref.isWhole_whole _) h0 h1 (iblk V c 0 t) (iblk V c 1 t) (iblk V c 2 t) (iblk V c 3 t) prev.1 prev.2.1 prev.2.2.1 prev.2.2.2.1 prev.2.2.2.2

/-- THE ACCUMULATION: the accumulators after the body at position `n`. -/
def accAt (c : Dev nD) : (n : ℕ) → n < cfg0.N → Acc5 F
  | 0, hn => stepFirst V c ⟨0, hn⟩ ((firstCol_iff ⟨0, hn⟩).mpr (Nat.zero_mod _)) (fun h => by have := (lastCol_iff ⟨0, hn⟩).mp h; simp at this)
  | n + 1, hn =>
    if h0 : (n + 1) % 8 = 0 then
      if h1 : (n + 1) % 8 = 7 then False.elim (by omega)
      else stepFirst V c ⟨n + 1, hn⟩ ((firstCol_iff ⟨n + 1, hn⟩).mpr h0) (fun h => h1 ((lastCol_iff ⟨n + 1, hn⟩).mp h))
    else
      if h1 : (n + 1) % 8 = 7 then
        stepLast V c ⟨n + 1, hn⟩ (fun h => h0 ((firstCol_iff ⟨n + 1, hn⟩).mp h)) ((lastCol_iff ⟨n + 1, hn⟩).mpr h1) (accAt c n (Nat.lt_of_succ_lt hn))
      else
        stepMid V c ⟨n + 1, hn⟩ (fun h => h0 ((firstCol_iff ⟨n + 1, hn⟩).mp h)) (fun h => h1 ((lastCol_iff ⟨n + 1, hn⟩).mp h)) (accAt c n (Nat.lt_of_succ_lt hn))

/-- What the output block's staging buffer holds after the body at point `t`: the row values at a last column block
    (elsewhere the window is idle and this is not consulted). -/
def outAt (c : Dev nD) (t : Fin cfg0.N) : Vec F S512x1 .f32 :=
  if h1 : t.val % 8 = 7 then
    if h0 : t.val % 8 = 0 then VA.junk
    else outBlock V c t (fun h => h0 ((firstCol_iff t).mp h)) ((lastCol_iff t).mpr h1)
      (accAt V c (t.val - 1) (Nat.lt_of_le_of_lt (Nat.sub_le _ _) t.isLt))
  else VA.junk

theorem accAt_first (c : Dev nD) (t : Fin cfg0.N) (h0 : t.val % 8 = 0) (h1 : ¬t.val % 8 = 7) :
    accAt V c t.val t.isLt = stepFirst V c t ((firstCol_iff t).mpr h0) (fun h => h1 ((lastCol_iff t).mp h)) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = stepMid V c t (fun h => h0 ((firstCol_iff t).mp h)) (fun h => h1 ((lastCol_iff t).mp h))
      (accAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = stepLast V c t (fun h => h0 ((firstCol_iff t).mp h)) ((lastCol_iff t).mpr h1)
      (accAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

theorem outAt_last (c : Dev nD) (t : Fin cfg0.N) (h0 : ¬t.val % 8 = 0) (h1 : t.val % 8 = 7) :
    outAt V c t = outBlock V c t (fun h => h0 ((firstCol_iff t).mp h)) ((lastCol_iff t).mpr h1)
      (accAt V c (t.val - 1) (Nat.lt_of_le_of_lt (Nat.sub_le _ _) t.isLt)) := by
  unfold outAt; rw [dif_pos h1, dif_neg h0]

end Cert.KernelIdeal.Body

end
-- ==== Proof.IdealBodyObl.lean ====
/-
  The body's obligation at every grid point. Between points the region keeps the five accumulators at named contents
  (what the point before left), besides the generator register; before the first point they hold anything. At a point
  the four input windows' staging buffers hold their blocks of the arrays as the region found them; which of the three
  cases of the body applies is decided by the column block; the run of that case takes the accumulators from the point
  before (or from anything, at a first column block) to this point's contents, leaves the input blocks in place, and
  leaves the output block alone except at a last column block, where it holds the row values.
-/
import proofs.«178212_j23381801959424_1_alg».proof.Proof.IdealBodyAcc

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The region's invariant before the first point: each accumulator at some contents, the generator register at some state. -/
theorem PhiA_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)
          ∗ (∃ d, owns (c : Thread nD τ) acc3 fullShare d) ∗ (∃ d, owns (c : Thread nD τ) acc4 fullShare d)) ∗ (∃ r, prngReg c r)) := by
  unfold Pipeline.ΦA; rw [scopedRest0_eq]; simp only [acc0, acc1, acc2, acc3, acc4, owns_whole]; try rfl

/-- The invariant before position `n`: before the first point anything; afterwards the accumulators at what the point before left. -/
def PhiS (c : Dev nD) : (n : ℕ) → n ≤ cfg0.N → sProp 𝕄
  | 0, _ => Pipeline.ΦA spec0 c
  | n + 1, hn => iprop(iprop(owns (c : Thread nD τ) acc0 fullShare ((accAt V c n hn).1) ∗ owns (c : Thread nD τ) acc1 fullShare ((accAt V c n hn).2.1) ∗ owns (c : Thread nD τ) acc2 fullShare ((accAt V c n hn).2.2.1) ∗ owns (c : Thread nD τ) acc3 fullShare ((accAt V c n hn).2.2.2.1) ∗ owns (c : Thread nD τ) acc4 fullShare ((accAt V c n hn).2.2.2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) acc0 fullShare ((accAt V c n hn).1) ∗ owns (c : Thread nD τ) acc1 fullShare ((accAt V c n hn).2.1) ∗ owns (c : Thread nD τ) acc2 fullShare ((accAt V c n hn).2.2.1) ∗ owns (c : Thread nD τ) acc3 fullShare ((accAt V c n hn).2.2.2.1) ∗ owns (c : Thread nD τ) acc4 fullShare ((accAt V c n hn).2.2.2.2)) ∗ (∃ r, prngReg c r)) := rfl
theorem PhiS_pos (c : Dev nD) (n : ℕ) (h : n ≤ cfg0.N) (hz : n ≠ 0) :
    PhiS V c n h = iprop(iprop(owns (c : Thread nD τ) acc0 fullShare ((accAt V c (n - 1) (by omega)).1) ∗ owns (c : Thread nD τ) acc1 fullShare ((accAt V c (n - 1) (by omega)).2.1) ∗ owns (c : Thread nD τ) acc2 fullShare ((accAt V c (n - 1) (by omega)).2.2.1) ∗ owns (c : Thread nD τ) acc3 fullShare ((accAt V c (n - 1) (by omega)).2.2.2.1) ∗ owns (c : Thread nD τ) acc4 fullShare ((accAt V c (n - 1) (by omega)).2.2.2.2)) ∗ (∃ r, prngReg c r)) := by
  cases n with
  | zero => exact absurd rfl hz
  | succ n => rfl

/-- The proof data of the region on core `c`: the arrays as the region finds them; after the body each input window's
    buffer at its block and the output's at the row values; the invariant above; the two arrays that two windows read
    are held half each; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin cfg0.N) : (dat V c).after 1 t = iblk V c 1 t := by dsimp only [dat]
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin cfg0.N) : (dat V c).after 2 t = iblk V c 2 t := by dsimp only [dat]
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin cfg0.N) : (dat V c).after 3 t = iblk V c 3 t := by dsimp only [dat]
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem after_4 (c : Dev nD) (t : Fin cfg0.N) : (dat V c).after 4 t = outAt V c t := by dsimp only [dat]

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 8 = 0
  · have h1 : ¬t.val % 8 = 7 := by omega
    rw [Dat.leavesExact_idle (dat V c) 4 t (idle4 t (fun h => h1 ((lastCol_iff t).mp h))) (noFlush4 t (fun h => h1 ((lastCol_iff t).mp h)))]
    rw [accAt_first V c t h0 h1]
    unfold stepFirst accFirst_0 accFirst_1 accFirst_2 accFirst_3 accFirst_4; (try dsimp only)
    by_cases hz : t.val = 0
    · rw [PhiS_castSucc V c t, PhiS_zero V c _ _ hz, PhiA_eq]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ ((firstCol_iff t).mpr h0) (fun h => h1 ((lastCol_iff t).mp h)) (iblk V c 0 t) (iblk V c 1 t) (iblk V c 2 t) (iblk V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst_1 c _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst_2 c _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverFirst_3 c _ _ _ _ _ _ _ _ _ _ _ _ _ _ _ _ _ _ _ _ _ _ _ _ _ _ _)
          unfold owns; iexists _; isplitr
          swap; · iexact HS4
          ipureintro; exact View.read_writes_of_cover _ _ _ _ _ (coverFirst_4 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ ((firstCol_iff t).mpr h0) (fun h => h1 ((lastCol_iff t).mp h)) (iblk V c 0 t) (iblk V c 1 t) (iblk V c 2 t) (iblk V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst_1 c _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirst_2 c _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverFirst_3 c _ _ _ _ _ _ _ _ _ _ _ _ _ _ _ _ _ _ _ _ _ _ _ _ _ _ _)
          unfold owns; iexists _; isplitr
          swap; · iexact HS4
          ipureintro; exact View.read_writes_of_cover _ _ _ _ _ (coverFirst_4 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dat V c).leavesExact 4 t = owns (c : Thread nD τ) (ms4 t) fullShare ((dat V c).after 4 t) from by
        unfold Dat.leavesExact; rw [live4 t ((lastCol_iff t).mpr h1)], after_4]
      rw [outAt_last V c t h0 h1, accAt_last V c t h0 h1]
      unfold outBlock outLast stepLast accLast_0 accLast_1 accLast_2 accLast_3 accLast_4; (try dsimp only)
      rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ _ _ (fun h => h0 ((firstCol_iff t).mp h)) ((lastCol_iff t).mpr h1) (iblk V c 0 t) (iblk V c 1 t) (iblk V c 2 t) (iblk V c 3 t) _ _ _ _ _).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverLast_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLast_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLast_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverLast_3 c _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (coverLast_4 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast_out c _ _ _ _ _ _ _ _ _ _ _ _ _ _ _ _ _ _ _ _ _ _ _ _ _ _ _ _ _ _ _ _)
    · rw [Dat.leavesExact_idle (dat V c) 4 t (idle4 t (fun h => h1 ((lastCol_iff t).mp h))) (noFlush4 t (fun h => h1 ((lastCol_iff t).mp h)))]
      rw [accAt_mid V c t h0 h1]
      unfold stepMid accMid_0 accMid_1 accMid_2 accMid_3 accMid_4; (try dsimp only)
      rw [PhiS_castSucc V c t, PhiS_pos V c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ _ _ _ _ (fun h => h0 ((firstCol_iff t).mp h)) (fun h => h1 ((lastCol_iff t).mp h)) (iblk V c 0 t) (iblk V c 1 t) (iblk V c 2 t) (iblk V c 3 t) _ _ _ _ _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (coverMid_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMid_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMid_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverMid_3 c _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (coverMid_4 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the accumulators back at some contents. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.KernelIdeal.Body

end
-- ==== Proof.IdealRegion.lean ====
/-
  The kernel region inside the whole program, and the program's run.

  @main is: four host operations (the views stacked and narrowed, the labels converted), the kernel region, nine host
  operations (the row values scaled, summed, averaged, negated). The region reads the stacked features through TWO windows
  (row blocks and column blocks) and the labels through two more, so at entry each of those two arrays is split into two
  half shares, one per window, and at exit the halves are put back; the fifth window's array receives the row values.
  Only that array changes across the region.

  The run is stated for every unscoped buffer: at the end each holds the last boundary's contents, which gives both the
  frame (the arguments are as launched) and the value of the result (the host operations after the region applied to
  what the region wrote).
-/
import proofs.«178212_j23381801959424_1_alg».proof.Proof.IdealBodyObl

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the row values' array at what the write-backs left, every other buffer as entered. -/
def W2 (c : Dev nD) : Valuation τ sig (Elt F) :=
  Function.update (W1 m ρ c) (Proc.devRef .tc main_v4) ((dat (V1 m ρ) c).arrAt 4 cfg0.N)
abbrev V2 : (c : Dev nD) → (b : Ref sig .tc) → Buf (Elt F) ((c : Thread nD τ).loc b) := fun c b => W2 m ρ c b
/-- After the host operations after the region. -/
abbrev W3 : Dev nD → Valuation τ sig (Elt F) := fun c => StableHlo.after hostOps1 (W2 m ρ c)

theorem W2_out (c : Dev nD) : W2 m ρ c (Proc.devRef .tc main_v4) = (dat (V1 m ρ) c).arrAt 4 cfg0.N := by
  unfold W2; exact Function.update_self _ _ _
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _

/-! ## The arrays two windows share, split and rejoined -/

theorem arrImage : Finset.univ.image (Pipeline.arrRef spec0) = ([main_v2, main_v3, main_v4] : List (Ref sig .tc)).toFinset := by decide

/-- The three buffers behind the five windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v3) ↦{fullShare} Vv main_v3)
          ∗ (((c : Thread nD τ).loc main_v4) ↦{fullShare} Vv main_v4)) := by
  unfold Pipeline.arrBufs
  exact bigSep_eq_bigSepL_of_eq [main_v2, main_v3, main_v4] arrImage (by decide) _

/-- The region's proof data hold window 0's and window 2's arrays at the left half, window 1's and window 3's at the
    right half, the output's whole. -/
theorem share_0 (V : (c : Dev nD) → (b : Ref sig .tc) → Buf (Elt F) ((c : Thread nD τ).loc b)) (c : Dev nD) : (dat V c).share 0 = fullShare.left := rfl
theorem share_1 (V : (c : Dev nD) → (b : Ref sig .tc) → Buf (Elt F) ((c : Thread nD τ).loc b)) (c : Dev nD) : (dat V c).share 1 = fullShare.right := rfl
theorem share_2 (V : (c : Dev nD) → (b : Ref sig .tc) → Buf (Elt F) ((c : Thread nD τ).loc b)) (c : Dev nD) : (dat V c).share 2 = fullShare.left := rfl
theorem share_3 (V : (c : Dev nD) → (b : Ref sig .tc) → Buf (Elt F) ((c : Thread nD τ).loc b)) (c : Dev nD) : (dat V c).share 3 = fullShare.right := rfl
theorem share_4 (V : (c : Dev nD) → (b : Ref sig .tc) → Buf (Elt F) ((c : Thread nD τ).loc b)) (c : Dev nD) : (dat V c).share 4 = fullShare := rfl

/-- The five windows' arrays, one by one, each a whole buffer at its share. -/
theorem arrays_eq5 (V : (c : Dev nD) → (b : Ref sig .tc) → Buf (Elt F) ((c : Thread nD τ).loc b)) (c : Dev nD)
    (Fn : (w : Fin cfg0.W) → Buf (Elt F) ((cfg0.win w).arr.view.loc (c : Thread nD τ))) :
    ((dat V c).arrays Fn : sProp 𝕄)
      = iprop((((c : Thread nD τ).loc (Pipeline.arrRef spec0 0)) ↦{fullShare.left} Fn 0) ∗ (((c : Thread nD τ).loc (Pipeline.arrRef spec0 1)) ↦{fullShare.right} Fn 1)
          ∗ (((c : Thread nD τ).loc (Pipeline.arrRef spec0 2)) ↦{fullShare.left} Fn 2) ∗ (((c : Thread nD τ).loc (Pipeline.arrRef spec0 3)) ↦{fullShare.right} Fn 3)
          ∗ (((c : Thread nD τ).loc (Pipeline.arrRef spec0 4)) ↦{fullShare} Fn 4)) := by
  unfold Dat.arrays
  rw [bigSep_W0, (arr_whole0 0).set_eq_univ, (arr_whole0 2).set_eq_univ, (arr_whole0 4).set_eq_univ,
    share_0, share_1, share_2, share_3, share_4]

/-- ENTRY: the three buffers at contents `Vv` make the five windows' arrays at the same contents, each shared array split
    into its two halves. -/
theorem arrays_of_arrBufs (V : (c : Dev nD) → (b : Ref sig .tc) → Buf (Elt F) ((c : Thread nD τ).loc b)) (c : Dev nD)
    (Vv : (b : Ref sig .tc) → Buf (Elt F) ((c : Thread nD τ).loc b))
    (Fn : (w : Fin cfg0.W) → Buf (Elt F) ((cfg0.win w).arr.view.loc (c : Thread nD τ))) (hF : ∀ w, Fn w = Vv (Pipeline.arrRef spec0 w)) :
    (Pipeline.arrBufs (Ix := Unit) (Name := ℕ) (U := UR sig nD τ) (Lvl := ℕ) spec0 c Vv : sProp 𝕄) ⊢ (dat V c).arrays Fn := by
  rw [arrBufs_eq, arrays_eq5, hF 0, hF 1, hF 2, hF 3, hF 4]
  iintro ⟨H2, H3, H4⟩
  ihave H2' := (pointsTo_share (PosShare.mem_left_op_right fullShare)).1 $$ H2
  icases H2' with ⟨H2l, H2r⟩
  ihave H3' := (pointsTo_share (PosShare.mem_left_op_right fullShare)).1 $$ H3
  icases H3' with ⟨H3l, H3r⟩
  isplitl [H2l]; · iexact H2l
  isplitl [H2r]; · iexact H2r
  isplitl [H3l]; · iexact H3l
  isplitl [H3r]; · iexact H3r
  iexact H4

/-- EXIT: the five windows' arrays at contents read off `Vv` are the three buffers at `Vv`, the halves rejoined. -/
theorem arrBufs_of_arrays (V : (c : Dev nD) → (b : Ref sig .tc) → Buf (Elt F) ((c : Thread nD τ).loc b)) (c : Dev nD)
    (Vv : (b : Ref sig .tc) → Buf (Elt F) ((c : Thread nD τ).loc b))
    (Fn : (w : Fin cfg0.W) → Buf (Elt F) ((cfg0.win w).arr.view.loc (c : Thread nD τ))) (hF : ∀ w, Fn w = Vv (Pipeline.arrRef spec0 w)) :
    ((dat V c).arrays Fn : sProp 𝕄) ⊢ Pipeline.arrBufs (Ix := Unit) (Name := ℕ) (U := UR sig nD τ) (Lvl := ℕ) spec0 c Vv := by
  rw [arrBufs_eq, arrays_eq5, hF 0, hF 1, hF 2, hF 3, hF 4]
  iintro ⟨H2l, H2r, H3l, H3r, H4⟩
  isplitl [H2l H2r]
  · iapply (pointsTo_share (PosShare.mem_left_op_right fullShare)).2
    isplitl [H2l]; · iexact H2l
    iexact H2r
  isplitl [H3l H3r]
  · iapply (pointsTo_share (PosShare.mem_left_op_right fullShare)).2
    isplitl [H3l]; · iexact H3l
    iexact H3r
  iexact H4

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the exit each window's array holds what the exit valuation says. -/
theorem exit_arr (c : Dev nD) (w : Fin cfg0.W) : (dat (V1 m ρ) c).arrAt w cfg0.N = V2 m ρ c (Pipeline.arrRef spec0 w) := by
  match w with
  | ⟨0, _⟩ => exact ((dat (V1 m ρ) c).arrAt_in 0 rfl _).trans ((A_eq (V1 m ρ) c 0).trans (W2_of_ne m ρ c _ (by decide)).symm)
  | ⟨1, _⟩ => exact ((dat (V1 m ρ) c).arrAt_in 1 rfl _).trans ((A_eq (V1 m ρ) c 1).trans (W2_of_ne m ρ c _ (by decide)).symm)
  | ⟨2, _⟩ => exact ((dat (V1 m ρ) c).arrAt_in 2 rfl _).trans ((A_eq (V1 m ρ) c 2).trans (W2_of_ne m ρ c _ (by decide)).symm)
  | ⟨3, _⟩ => exact ((dat (V1 m ρ) c).arrAt_in 3 rfl _).trans ((A_eq (V1 m ρ) c 3).trans (W2_of_ne m ρ c _ (by decide)).symm)
  | ⟨4, _⟩ => exact (W2_out m ρ c).symm

/-- Off the windows' arrays the exit valuation is the entry one. -/
theorem exit_rest (c : Dev nD) : (Pipeline.unscopedRest (Ix := Unit) (Name := ℕ) (U := UR sig nD τ) (Lvl := ℕ) spec0 c (V2 m ρ c) : sProp 𝕄)
    = Pipeline.unscopedRest (Ix := Unit) (Name := ℕ) (U := UR sig nD τ) (Lvl := ℕ) spec0 c (V1 m ρ c) := by
  unfold Pipeline.unscopedRest
  exact bigSep_congr fun b hb => by
    rw [show V2 m ρ c b = V1 m ρ c b from W2_of_ne m ρ c b fun e =>
      (Finset.mem_sdiff.mp hb).2 (Finset.mem_image.mpr ⟨4, Finset.mem_univ _, e.symm⟩)]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) := by
      show (unscopedBufs c (V1 m ρ c) : sProp 𝕄)
        ⊢ iprop((dat (V1 m ρ) c).arrays ((dat (V1 m ρ) c).arrAt · 0) ∗ Pipeline.unscopedRest (Ix := Unit) (Name := ℕ) (U := UR sig nD τ) (Lvl := ℕ) spec0 c (V1 m ρ c))
      rw [Pipeline.unscopedBufs_split₀ cfgs 0 winFacts₀0.arr_unscoped c (V1 m ρ c)]
      exact sep_mono (arrays_of_arrBufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N) ∗ Pipeline.unscopedRest (Ix := Unit) (Name := ℕ) (U := UR sig nD τ) (Lvl := ℕ) spec0 c (V1 m ρ c))
        ⊢ (unscopedBufs c (V2 m ρ c) : sProp 𝕄) := by
      show iprop((dat (V1 m ρ) c).arrays ((dat (V1 m ρ) c).arrAt · cfg0.N) ∗ Pipeline.unscopedRest (Ix := Unit) (Name := ℕ) (U := UR sig nD τ) (Lvl := ℕ) spec0 c (V1 m ρ c))
        ⊢ (unscopedBufs c (V2 m ρ c) : sProp 𝕄)
      rw [Pipeline.unscopedBufs_split₀ cfgs 0 winFacts₀0.arr_unscoped c (V2 m ρ c), exit_rest]
      exact sep_mono (arrBufs_of_arrays (V1 m ρ) c (V2 m ρ c) _ (fun w => exit_arr m ρ c w)) .rfl
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and at
    the end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W3 m ρ c) ∗ ∃ r, prngReg c r))
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Body

end
-- ==== Proof.IdealFrame.lean ====
/-
  The frame of the program: neither argument array is written by a host operation, and the region changes only the row
  values' array, so at each boundary both arguments hold what they held at launch; the run ends with every unscoped
  buffer at the last boundary's contents, hence with both arguments as launched.
-/
import proofs.«178212_j23381801959424_1_alg».proof.Proof.IdealRegion

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c), (h c _ (mem_uc main_arg1 (by decide))).trans (W3_main_arg1 m ρ c)⟩)
    (run_all m ρ)

end Cert.KernelIdeal.Body

end
-- ==== Proof.RowLaw.lean ====
/-
  One row of the supervised-contrastive loss, computed two ways over the extended reals.

  A row has similarities `s j`, an off-diagonal indicator `l j`, a positive-pair indicator `p j` (already multiplied by
  `l j`) and weights `w j`, over columns `j`. The whole-row form takes the row maximum `mx`, the partition sum
  `Z = Σ exp (s j − mx) · l j`, and returns `(Σ (p j · ((s j − mx) − log (Z + ε))) · w j) / (Σ p j + ε)`.

  The streamed form visits the columns block by block, keeping a running maximum `m`, the partition sum relative to it
  (rescaled by `exp (m_old − m_new)` when the maximum moves), and three sums that do not depend on the maximum:
  `a = Σ (p·w)·s`, `t = Σ p·w`, `n = Σ p`; it closes with `(a − t · (m + log (z + ε))) / (n + ε)`.

  For real data the two agree: `exp (s − m₁) · exp (m₁ − m₂) = exp (s − m₂)` carries the partition sum across a move of the
  maximum, and `Σ (p · ((s − mx) − c)) · w = Σ (p·w)·s − (Σ p·w) · (mx + c)` is distributivity, which holds because every
  term is a real number. That needs the logarithm to be a real number too: the logarithm of a non-positive number is `⊥`,
  and then the two sides split the sum differently (`Σ (p · ⊤) · w` against `(Σ p·w) · ⊥`), which is no longer real
  arithmetic and can disagree. So `ε` is taken positive and the indicator `l` non-negative, which makes `Z + ε` positive.
-/
import Mathlib
import Idealize.ShloMosaic.PureOps.Ideal

noncomputable section

namespace Cert.RowLaw

open Idealize.ShloMosaic

variable {C : Type} [Fintype C]

/-- What is kept for one row between column blocks. -/
structure Acc where
  /-- the largest similarity seen so far (`⊥` before the first block) -/
  m : EReal
  /-- `Σ exp (s − m) · l` over the columns seen so far -/
  z : EReal
  /-- `Σ (p · w) · s` -/
  a : EReal
  /-- `Σ p · w` -/
  t : EReal
  /-- `Σ p` -/
  n : EReal

/-- Before any column. -/
def Acc.init : Acc := ⟨⊥, 0, 0, 0, 0⟩

/-- One block of columns folded in. -/
def Acc.step (st : Acc) (s l p w : C → EReal) : Acc :=
  { m := max st.m (Finset.univ.fold max ⊥ s)
    z := st.z * Ideal.exp (st.m - max st.m (Finset.univ.fold max ⊥ s))
          + ∑ c, Ideal.exp (s c - max st.m (Finset.univ.fold max ⊥ s)) * l c
    a := st.a + ∑ c, p c * w c * s c
    t := st.t + ∑ c, p c * w c
    n := st.n + ∑ c, p c }

/-- The row's value once every block is in. -/
def Acc.close (st : Acc) (ε : EReal) : EReal :=
  Ideal.div (st.a - st.t * (st.m + Ideal.log (st.z + ε))) (st.n + ε)

/-- The first `k` blocks folded in, in order. -/
def streamed (s l p w : ℕ → C → EReal) : ℕ → Acc
  | 0 => Acc.init
  | k + 1 => (streamed s l p w k).step (s k) (l k) (p k) (w k)

/-- The whole row at once. -/
def whole {J : Type} [Fintype J] (s l p w : J → EReal) (ε : EReal) : EReal :=
  Ideal.div
    (0 + ∑ j, p j * (s j - Finset.univ.fold max ⊥ s
        - Ideal.log (0 + ∑ i, Ideal.exp (s i - Finset.univ.fold max ⊥ s) * l i + ε)) * w j)
    (0 + ∑ j, p j + ε)

/-! ### Reals inside the extended reals -/

theorem coe_sum' {ι : Type} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

theorem coe_max' (a b : ℝ) : max (a : EReal) (b : EReal) = ((max a b : ℝ) : EReal) :=
  (Monotone.map_max (fun _ _ h => EReal.coe_le_coe_iff.2 h)).symm

/-! ### The largest entry of a nonempty finite family of reals -/

section RowMax
variable {ι : Type} [Fintype ι] [Nonempty ι]

/-- The largest entry. -/
def rowMax (f : ι → ℝ) : ℝ := Finset.univ.sup' Finset.univ_nonempty f

theorem le_rowMax (f : ι → ℝ) (i : ι) : f i ≤ rowMax f := Finset.le_sup' f (Finset.mem_univ i)

theorem exists_eq_rowMax (f : ι → ℝ) : ∃ i, rowMax f = f i := by
  obtain ⟨i, _, h⟩ := Finset.exists_mem_eq_sup' Finset.univ_nonempty f
  exact ⟨i, h⟩

/-- The fold of `max` from `⊥` over the coerced entries is the coerced largest entry. -/
theorem fold_coe (f : ι → ℝ) :
    Finset.univ.fold max ⊥ (fun i => ((f i : ℝ) : EReal)) = ((rowMax f : ℝ) : EReal) := by
  apply le_antisymm
  · exact (Finset.fold_max_le _).2 ⟨bot_le, fun i _ => EReal.coe_le_coe_iff.2 (le_rowMax f i)⟩
  · obtain ⟨i, hi⟩ := exists_eq_rowMax f
    exact (Finset.le_fold_max _).2 (Or.inr ⟨i, Finset.mem_univ i, by rw [hi]⟩)

end RowMax

/-! ### The streamed state, in real numbers -/

section Real
variable [Nonempty C]

/-- The running maximum after blocks `0, …, k`. -/
def runMax (s : ℕ → C → ℝ) : ℕ → ℝ
  | 0 => rowMax (s 0)
  | k + 1 => max (runMax s k) (rowMax (s (k + 1)))

theorem le_runMax (s : ℕ → C → ℝ) (k b : ℕ) (hb : b ≤ k) (c : C) : s b c ≤ runMax s k := by
  induction k with
  | zero =>
    obtain rfl : b = 0 := Nat.le_zero.1 hb
    exact le_rowMax (s 0) c
  | succ k ih =>
    rcases Nat.of_le_succ hb with h | h
    · exact le_trans (ih h) (le_max_left _ _)
    · rw [h]; exact le_trans (le_rowMax (s (k + 1)) c) (le_max_right _ _)

theorem exists_eq_runMax (s : ℕ → C → ℝ) (k : ℕ) : ∃ b, b ≤ k ∧ ∃ c, runMax s k = s b c := by
  induction k with
  | zero =>
    obtain ⟨c, hc⟩ := exists_eq_rowMax (s 0)
    exact ⟨0, le_rfl, c, hc⟩
  | succ k ih =>
    rcases max_choice (runMax s k) (rowMax (s (k + 1))) with h | h
    · obtain ⟨b, hb, c, hc⟩ := ih
      exact ⟨b, Nat.le_succ_of_le hb, c, by rw [runMax, h, hc]⟩
    · obtain ⟨c, hc⟩ := exists_eq_rowMax (s (k + 1))
      exact ⟨k + 1, le_rfl, c, by rw [runMax, h, hc]⟩

/-- The first block, from the empty state: `exp (⊥ − m) = 0` kills the (zero) partition sum carried in. -/
theorem step_init (s l p w : C → ℝ) :
    Acc.init.step (fun c => ((s c : ℝ) : EReal)) (fun c => ((l c : ℝ) : EReal))
        (fun c => ((p c : ℝ) : EReal)) (fun c => ((w c : ℝ) : EReal))
      = ⟨((rowMax s : ℝ) : EReal),
         ((∑ c, Real.exp (s c - rowMax s) * l c : ℝ) : EReal),
         ((∑ c, p c * w c * s c : ℝ) : EReal),
         ((∑ c, p c * w c : ℝ) : EReal),
         ((∑ c, p c : ℝ) : EReal)⟩ := by
  simp only [Acc.init, Acc.step, fold_coe, max_bot_left, EReal.bot_sub, Ideal.exp_bot, mul_zero, zero_add,
    ← EReal.coe_sub, Ideal.exp_coe, ← EReal.coe_mul, ← coe_sum']

/-- A later block, from a real state. -/
theorem step_coe (m z a t n : ℝ) (s l p w : C → ℝ) :
    (Acc.mk (m : EReal) (z : EReal) (a : EReal) (t : EReal) (n : EReal)).step
        (fun c => ((s c : ℝ) : EReal)) (fun c => ((l c : ℝ) : EReal))
        (fun c => ((p c : ℝ) : EReal)) (fun c => ((w c : ℝ) : EReal))
      = ⟨((max m (rowMax s) : ℝ) : EReal),
         ((z * Real.exp (m - max m (rowMax s)) + ∑ c, Real.exp (s c - max m (rowMax s)) * l c : ℝ) : EReal),
         ((a + ∑ c, p c * w c * s c : ℝ) : EReal),
         ((t + ∑ c, p c * w c : ℝ) : EReal),
         ((n + ∑ c, p c : ℝ) : EReal)⟩ := by
  simp only [Acc.step, fold_coe, coe_max', ← EReal.coe_sub, Ideal.exp_coe, ← EReal.coe_mul, ← coe_sum',
    ← EReal.coe_add]

/-- Moving the maximum rescales every term of the partition sum. -/
theorem rescale (s l : ℕ → C → ℝ) (k : ℕ) (m m' : ℝ) :
    (∑ b ∈ Finset.range k, ∑ c, Real.exp (s b c - m) * l b c) * Real.exp (m - m')
      = ∑ b ∈ Finset.range k, ∑ c, Real.exp (s b c - m') * l b c := by
  rw [Finset.sum_mul]
  refine Finset.sum_congr rfl fun b _ => ?_
  rw [Finset.sum_mul]
  refine Finset.sum_congr rfl fun c _ => ?_
  rw [mul_right_comm, ← Real.exp_add, sub_add_sub_cancel]

/-- After `k + 1` blocks of real data the state is real, with the running maximum and the four sums. -/
theorem streamed_succ (s l p w : ℕ → C → ℝ) (k : ℕ) :
    streamed (fun b c => ((s b c : ℝ) : EReal)) (fun b c => ((l b c : ℝ) : EReal))
        (fun b c => ((p b c : ℝ) : EReal)) (fun b c => ((w b c : ℝ) : EReal)) (k + 1)
      = ⟨((runMax s k : ℝ) : EReal),
         ((∑ b ∈ Finset.range (k + 1), ∑ c, Real.exp (s b c - runMax s k) * l b c : ℝ) : EReal),
         ((∑ b ∈ Finset.range (k + 1), ∑ c, p b c * w b c * s b c : ℝ) : EReal),
         ((∑ b ∈ Finset.range (k + 1), ∑ c, p b c * w b c : ℝ) : EReal),
         ((∑ b ∈ Finset.range (k + 1), ∑ c, p b c : ℝ) : EReal)⟩ := by
  induction k with
  | zero =>
    rw [streamed, streamed, step_init]
    simp only [zero_add, Finset.sum_range_one, runMax]
  | succ k ih =>
    rw [streamed, ih, step_coe, rescale]
    simp only [runMax, Finset.sum_range_succ]

end Real

/-! ### Columns in blocks -/

/-- A sum over the columns, block by block. -/
theorem sum_blocks {J : Type} [Fintype J] (n : ℕ) (e : Fin n × C ≃ J) (g : J → ℝ) (G : ℕ → C → ℝ)
    (hG : ∀ b (h : b < n) c, G b c = g (e (⟨b, h⟩, c))) :
    ∑ b ∈ Finset.range n, ∑ c, G b c = ∑ j, g j := by
  rw [← e.sum_comp, Fintype.sum_prod_type, Finset.sum_fin_eq_sum_range]
  refine Finset.sum_congr rfl fun b hb => ?_
  rw [dif_pos (Finset.mem_range.1 hb)]
  exact Finset.sum_congr rfl fun c _ => hG b (Finset.mem_range.1 hb) c

/-- The running maximum over all the blocks is the largest entry of the row. -/
theorem runMax_eq_rowMax {J : Type} [Fintype J] [Nonempty J] [Nonempty C] (k : ℕ) (e : Fin (k + 1) × C ≃ J)
    (S : J → ℝ) (s : ℕ → C → ℝ) (hs : ∀ b (h : b < k + 1) c, s b c = S (e (⟨b, h⟩, c))) :
    runMax s k = rowMax S := by
  apply le_antisymm
  · obtain ⟨b, hb, c, hc⟩ := exists_eq_runMax s k
    rw [hc, hs b (Nat.lt_succ_of_le hb) c]
    exact le_rowMax S _
  · refine Finset.sup'_le _ _ fun j _ => ?_
    obtain ⟨⟨b, c⟩, rfl⟩ := e.surjective j
    rw [← hs b.1 b.2 c]
    exact le_runMax s k b.1 (Nat.le_of_lt_succ b.2) c

/-- The same, for any real blocks `s l p w` that list the row's columns through `e`. -/
theorem close_eq_whole {J : Type} [Fintype J] [Nonempty C] (k : ℕ) (e : Fin (k + 1) × C ≃ J)
    (S L P W : J → ℝ) (ε : ℝ) (hε : 0 < ε) (hL : ∀ j, 0 ≤ L j) (s l p w : ℕ → C → ℝ)
    (hs : ∀ b (h : b < k + 1) c, s b c = S (e (⟨b, h⟩, c))) (hl : ∀ b (h : b < k + 1) c, l b c = L (e (⟨b, h⟩, c)))
    (hp : ∀ b (h : b < k + 1) c, p b c = P (e (⟨b, h⟩, c))) (hw : ∀ b (h : b < k + 1) c, w b c = W (e (⟨b, h⟩, c))) :
    (streamed (fun b c => ((s b c : ℝ) : EReal)) (fun b c => ((l b c : ℝ) : EReal))
        (fun b c => ((p b c : ℝ) : EReal)) (fun b c => ((w b c : ℝ) : EReal)) (k + 1)).close (ε : EReal)
      = whole (fun j => ((S j : ℝ) : EReal)) (fun j => ((L j : ℝ) : EReal)) (fun j => ((P j : ℝ) : EReal))
          (fun j => ((W j : ℝ) : EReal)) (ε : EReal) := by
  haveI : Nonempty J := ⟨e (⟨0, k.succ_pos⟩, Classical.arbitrary C)⟩
  -- the four sums, block by block and over the row
  have hZ : ∑ b ∈ Finset.range (k + 1), ∑ c, Real.exp (s b c - rowMax S) * l b c
      = ∑ j, Real.exp (S j - rowMax S) * L j :=
    sum_blocks (k + 1) e (fun j => Real.exp (S j - rowMax S) * L j) _ (fun b h c => by rw [hs b h c, hl b h c])
  have hA : ∑ b ∈ Finset.range (k + 1), ∑ c, p b c * w b c * s b c = ∑ j, P j * W j * S j :=
    sum_blocks (k + 1) e (fun j => P j * W j * S j) _ (fun b h c => by rw [hs b h c, hp b h c, hw b h c])
  have hT : ∑ b ∈ Finset.range (k + 1), ∑ c, p b c * w b c = ∑ j, P j * W j :=
    sum_blocks (k + 1) e (fun j => P j * W j) _ (fun b h c => by rw [hp b h c, hw b h c])
  have hN : ∑ b ∈ Finset.range (k + 1), ∑ c, p b c = ∑ j, P j :=
    sum_blocks (k + 1) e (fun j => P j) _ (fun b h c => hp b h c)
  rw [streamed_succ, runMax_eq_rowMax k e S s hs, hZ, hA, hT, hN]
  -- the logarithm is a real number
  have hpos : 0 < ∑ j, Real.exp (S j - rowMax S) * L j + ε :=
    add_pos_of_nonneg_of_pos (Finset.sum_nonneg fun j _ => mul_nonneg (Real.exp_pos _).le (hL j)) hε
  have hlog : Ideal.log (((∑ j, Real.exp (S j - rowMax S) * L j + ε : ℝ)) : EReal)
      = ((Real.log (∑ j, Real.exp (S j - rowMax S) * L j + ε) : ℝ) : EReal) := by
    rw [Ideal.log_coe, if_neg (not_le.2 hpos)]
  -- distributivity, in the reals
  have hdist : ∑ j, P j * W j * S j
        - (∑ j, P j * W j) * (rowMax S + Real.log (∑ j, Real.exp (S j - rowMax S) * L j + ε))
      = ∑ j, P j * (S j - rowMax S - Real.log (∑ j, Real.exp (S j - rowMax S) * L j + ε)) * W j := by
    rw [Finset.sum_mul, ← Finset.sum_sub_distrib]
    exact Finset.sum_congr rfl fun j _ => by ring
  simp only [Acc.close, whole, fold_coe, zero_add, ← EReal.coe_sub, Ideal.exp_coe, ← EReal.coe_mul, ← coe_sum',
    ← EReal.coe_add, hlog, hdist]

/-- Streaming the columns block by block gives the whole-row value, for real data: `J` is cut into `n` blocks of
    columns `C` by `e`. -/
theorem streamed_close_eq_whole {J : Type} [Fintype J] [Nonempty C] (n : ℕ) (hn : 0 < n) (e : Fin n × C ≃ J)
    (S L P W : J → ℝ) (ε : ℝ) (hε : 0 < ε) (hL : ∀ j, 0 ≤ L j) :
    (streamed (fun b c => if h : b < n then ((S (e (⟨b, h⟩, c)) : ℝ) : EReal) else 0)
              (fun b c => if h : b < n then ((L (e (⟨b, h⟩, c)) : ℝ) : EReal) else 0)
              (fun b c => if h : b < n then ((P (e (⟨b, h⟩, c)) : ℝ) : EReal) else 0)
              (fun b c => if h : b < n then ((W (e (⟨b, h⟩, c)) : ℝ) : EReal) else 0) n).close (ε : EReal)
      = whole (fun j => ((S j : ℝ) : EReal)) (fun j => ((L j : ℝ) : EReal)) (fun j => ((P j : ℝ) : EReal))
          (fun j => ((W j : ℝ) : EReal)) (ε : EReal) := by
  obtain ⟨k, rfl⟩ : ∃ k, n = k + 1 := ⟨n - 1, (Nat.sub_add_cancel hn).symm⟩
  -- the blocks are real data: the value outside the row, `0`, is a real number too
  have hcoe : ∀ X : J → ℝ,
      (fun (b : ℕ) (c : C) => if h : b < k + 1 then ((X (e (⟨b, h⟩, c)) : ℝ) : EReal) else 0)
        = fun b c => (((if h : b < k + 1 then X (e (⟨b, h⟩, c)) else 0 : ℝ)) : EReal) := by
    intro X
    funext b c
    split_ifs
    · rfl
    · exact EReal.coe_zero.symm
  rw [hcoe S, hcoe L, hcoe P, hcoe W]
  exact close_eq_whole k e S L P W ε hε hL _ _ _ _ (fun _ h _ => dif_pos h) (fun _ h _ => dif_pos h)
    (fun _ h _ => dif_pos h) (fun _ h _ => dif_pos h)

end Cert.RowLaw

end
-- ==== Proof.Spec.lean ====
/-
  The supervised-contrastive loss with Jaccard-weighted positives, as ONE function of the two inputs, over the extended
  reals.

  Inputs: features `x0[b, v, d]` (2048 samples, 2 views, 256 coordinates) and integer labels `x1[b, l]` (80 per sample).
  The 4096 rows are the views stacked view-major: row `i` is view `i / 2048` of sample `i % 2048`.
  * two samples' label overlap: `inter a b = Σ_l lab a l · lab b l`, `count a = Σ_l lab a l`,
    `jaccard a b = inter a b / (count a + count b − inter a b + ε)`;
  * a pair of samples is positive when `jaccard ≥ θ` (`mask`, 0 or 1), and weighs `jaccard / θ`;
  * two rows' similarity: `sim i j = (Σ_d feat i d · feat j d) / τ`;
  * a row's value is RowLaw's whole-row form over its 4096 columns, with the diagonal excluded (`offDiag`) and the
    positives and weights taken from the rows' samples;
  * the loss is `−((Σ_i τ · row i) / 4096)`.
  The three literals are kept as the f32 words the programs carry: ε = 0x322BCC77 (about 1e-8), θ = 0x3E99999A (about 0.3),
  τ = 0x3D8F5C29 (about 0.07).
-/
import proofs.«178212_j23381801959424_1_alg».proof.Proof.RowLaw
import Idealize.ShloMosaic.Lib.ValueIdx

noncomputable section

namespace Cert.Spec

open Idealize.ShloMosaic Idealize.ShloMosaic.ValueIdx

/-- The features, one extended real per (sample, view, coordinate). -/
abbrev Feat : Type := (⟨3, ![2048, 2, 256]⟩ : Shape).Idx → EReal
/-- The labels, one 32-bit integer per (sample, label). -/
abbrev Lab : Type := (⟨2, ![2048, 80]⟩ : Shape).Idx → BitVec 32

/-- The sample a row belongs to. -/
def sampleOf (i : Fin 4096) : Fin 2048 := ⟨i.val % 2048, Nat.mod_lt _ (by norm_num)⟩
/-- The view a row belongs to. -/
def viewOf (i : Fin 4096) : Fin 2 := ⟨i.val / 2048, by have := i.isLt; omega⟩

/-- Row `i`'s coordinate `d`. -/
def feat (x0 : Feat) (i : Fin 4096) (d : Fin 256) : EReal := x0 (ix3 (sampleOf i) (viewOf i) d)
/-- Sample `a`'s label `l`, the integer read exactly. -/
def lab (x1 : Lab) (a : Fin 2048) (l : Fin 80) : EReal := (((x1 (ix2 a l)).toInt : ℝ) : EReal)

def ε : EReal := Ideal.ofBits .f32 0x322BCC77#32
def θ : EReal := Ideal.ofBits .f32 0x3E99999A#32
def τ : EReal := Ideal.ofBits .f32 0x3D8F5C29#32

def inter (x1 : Lab) (a b : Fin 2048) : EReal := ∑ l : Fin 80, lab x1 a l * lab x1 b l
def count (x1 : Lab) (a : Fin 2048) : EReal := ∑ l : Fin 80, lab x1 a l
def jaccard (x1 : Lab) (a b : Fin 2048) : EReal :=
  Ideal.div (inter x1 a b) (count x1 a + count x1 b - inter x1 a b + ε)
/-- 1 when the pair of samples is positive, else 0. -/
def mask (x1 : Lab) (a b : Fin 2048) : EReal := (((Ideal.cmp .oge (jaccard x1 a b) θ).toNat : ℝ) : EReal)
def weight (x1 : Lab) (a b : Fin 2048) : EReal := Ideal.div (jaccard x1 a b) θ
def sim (x0 : Feat) (i j : Fin 4096) : EReal := Ideal.div (∑ d : Fin 256, feat x0 i d * feat x0 j d) τ
/-- 0 on the diagonal, 1 off it. -/
def offDiag (i j : Fin 4096) : EReal := if i = j then 0 else 1

/-- One row's value: the masked, weighted mean of its log-probabilities. -/
def row (x0 : Feat) (x1 : Lab) (i : Fin 4096) : EReal :=
  RowLaw.whole (fun j : Fin 4096 => sim x0 i j) (fun j => offDiag i j)
    (fun j => mask x1 (sampleOf i) (sampleOf j) * offDiag i j) (fun j => weight x1 (sampleOf i) (sampleOf j)) ε

/-- The loss. -/
def loss (x0 : Feat) (x1 : Lab) : EReal :=
  -(Ideal.div (0 + ∑ i : Fin 4096, τ * row x0 x1 i) (Ideal.ofBits .f32 0x45800000#32))

/-! ## The same row, column block by column block (8 blocks of 512 columns) -/

/-- Column `c` of column block `b`. -/
def colOf (b : Fin 8) (c : Fin 512) : Fin 4096 := ⟨512 * b.val + c.val, by have := b.isLt; have := c.isLt; omega⟩

/-- Row `i`'s data in column block `b` (blocks indexed by `ℕ`; nothing past the eighth). -/
def simBlk (x0 : Feat) (i : Fin 4096) (b : ℕ) (c : Fin 512) : EReal :=
  if h : b < 8 then sim x0 i (colOf ⟨b, h⟩ c) else 0
def offBlk (i : Fin 4096) (b : ℕ) (c : Fin 512) : EReal :=
  if h : b < 8 then offDiag i (colOf ⟨b, h⟩ c) else 0
def posBlk (x1 : Lab) (i : Fin 4096) (b : ℕ) (c : Fin 512) : EReal :=
  if h : b < 8 then mask x1 (sampleOf i) (sampleOf (colOf ⟨b, h⟩ c)) * offDiag i (colOf ⟨b, h⟩ c) else 0
def wgtBlk (x1 : Lab) (i : Fin 4096) (b : ℕ) (c : Fin 512) : EReal :=
  if h : b < 8 then weight x1 (sampleOf i) (sampleOf (colOf ⟨b, h⟩ c)) else 0

/-- What is kept for row `i` after its first `k` column blocks. -/
def rowAcc (x0 : Feat) (x1 : Lab) (i : Fin 4096) (k : ℕ) : RowLaw.Acc :=
  RowLaw.streamed (simBlk x0 i) (offBlk i) (posBlk x1 i) (wgtBlk x1 i) k

end Cert.Spec

end
-- ==== Proof.IdealBlocksAt.lean ====
/-
  The kernel region's blocks, read at an index. The grid is 8 row blocks by 8 column blocks, point `t` being row block
  `t / 8`, column block `t % 8`. Window 0 is the row block's 512 rows of the stacked features, window 1 the column
  block's; windows 2 and 3 are the same rows' labels (the labels have 2048 rows, so the block index is taken mod 4: rows
  `i` and `i + 2048` are two views of one sample). The output's 512 rows of a row block are written back once, at its
  last column block, so the output array ends holding, on those rows, what that point wrote.
-/
import proofs.«178212_j23381801959424_1_alg».proof.Proof.IdealBodyObl
import Idealize.ShloMosaic.Lib.Pipeline.Value
import Idealize.ShloMosaic.Lib.ValueIdx
import proofs.«178212_j23381801959424_1_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

/-! ## The grid's points and the windows' block indices -/

/-- The row block of a grid point. -/
def rowBlk (t : Fin cfg0.N) : Fin 8 := ⟨t.val / 8, by have h := t.isLt; have e : cfg0.N = 64 := N_0; omega⟩
/-- The column block of a grid point. -/
def colBlk (t : Fin cfg0.N) : Fin 8 := ⟨t.val % 8, Nat.mod_lt _ (by norm_num)⟩

/-- The five index maps, decided over the 64 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 % 4 ∧ win0_2.index t (1 : Fin 2) = 0
    ∧ win0_3.index t (0 : Fin 2) = t.val % 8 % 4 ∧ win0_3.index t (1 : Fin 2) = 0
    ∧ win0_4.index t (0 : Fin 2) = t.val / 8 ∧ win0_4.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 % 4 ∧ win0_2.index t (1 : Fin 2) = 0
    ∧ win0_3.index t (0 : Fin 2) = t.val % 8 % 4 ∧ win0_3.index t (1 : Fin 2) = 0
    ∧ win0_4.index t (0 : Fin 2) = t.val / 8 ∧ win0_4.index t (1 : Fin 2) = 0)

/-! ## The input blocks at an index: a block's coordinate is the block index times the block size plus the coordinate inside -/

theorem iblk0_at (c : Dev nD) (t : Fin cfg0.N) (p : Fin 512) (d : Fin 256) (i : Fin 4096)
    (hi : i.val = 512 * (t.val / 8) + p.val) :
    iblk V c 0 t (ix2 p d) = V c main_v2 (ix2 i d) := by
  obtain ⟨h0, h1, -⟩ := idx_facts t
  unfold iblk
  rw [View.read_apply]
  show V c main_v2 (((cfg0.win 0).blk t).view.emb (ix2 p d)) = V c main_v2 (ix2 i d)
  refine congrArg (V c main_v2) (funext fun a => Fin.ext ?_)
  match a with
  | ⟨0, _⟩ =>
    show win0_0.index t (0 : Fin 2) * 512 + 1 * p.val = i.val
    rw [h0]; omega
  | ⟨1, _⟩ =>
    show win0_0.index t (1 : Fin 2) * 256 + 1 * d.val = d.val
    rw [h1]; omega

theorem iblk1_at (c : Dev nD) (t : Fin cfg0.N) (q : Fin 512) (d : Fin 256) (j : Fin 4096)
    (hj : j.val = 512 * (t.val % 8) + q.val) :
    iblk V c 1 t (ix2 q d) = V c main_v2 (ix2 j d) := by
  obtain ⟨-, -, h0, h1, -⟩ := idx_facts t
  unfold iblk
  rw [View.read_apply]
  show V c main_v2 (((cfg0.win 1).blk t).view.emb (ix2 q d)) = V c main_v2 (ix2 j d)
  refine congrArg (V c main_v2) (funext fun a => Fin.ext ?_)
  match a with
  | ⟨0, _⟩ =>
    show win0_1.index t (0 : Fin 2) * 512 + 1 * q.val = j.val
    rw [h0]; omega
  | ⟨1, _⟩ =>
    show win0_1.index t (1 : Fin 2) * 256 + 1 * d.val = d.val
    rw [h1]; omega

theorem iblk2_at (c : Dev nD) (t : Fin cfg0.N) (p : Fin 512) (l : Fin 80) (a : Fin 2048)
    (ha : a.val = 512 * (t.val / 8 % 4) + p.val) :
    iblk V c 2 t (ix2 p l) = V c main_v3 (ix2 a l) := by
  obtain ⟨-, -, -, -, h0, h1, -⟩ := idx_facts t
  unfold iblk
  rw [View.read_apply]
  show V c main_v3 (((cfg0.win 2).blk t).view.emb (ix2 p l)) = V c main_v3 (ix2 a l)
  refine congrArg (V c main_v3) (funext fun x => Fin.ext ?_)
  match x with
  | ⟨0, _⟩ =>
    show win0_2.index t (0 : Fin 2) * 512 + 1 * p.val = a.val
    rw [h0]; omega
  | ⟨1, _⟩ =>
    show win0_2.index t (1 : Fin 2) * 80 + 1 * l.val = l.val
    rw [h1]; omega

theorem iblk3_at (c : Dev nD) (t : Fin cfg0.N) (q : Fin 512) (l : Fin 80) (b : Fin 2048)
    (hb : b.val = 512 * (t.val % 8 % 4) + q.val) :
    iblk V c 3 t (ix2 q l) = V c main_v3 (ix2 b l) := by
  obtain ⟨-, -, -, -, -, -, h0, h1, -⟩ := idx_facts t
  unfold iblk
  rw [View.read_apply]
  show V c main_v3 (((cfg0.win 3).blk t).view.emb (ix2 q l)) = V c main_v3 (ix2 b l)
  refine congrArg (V c main_v3) (funext fun x => Fin.ext ?_)
  match x with
  | ⟨0, _⟩ =>
    show win0_3.index t (0 : Fin 2) * 512 + 1 * q.val = b.val
    rw [h0]; omega
  | ⟨1, _⟩ =>
    show win0_3.index t (1 : Fin 2) * 80 + 1 * l.val = l.val
    rw [h1]; omega

/-- Window 0 at point `t`: the rows of the row block. -/
theorem iblk0_eq (c : Dev nD) (t : Fin cfg0.N) (p : Fin 512) (d : Fin 256) :
    iblk V c 0 t (ix2 p d) = V c main_v2 (ix2 (Spec.colOf (rowBlk t) p) d) :=
  iblk0_at V c t p d _ rfl

/-- Window 1 at point `t`: the rows of the column block. -/
theorem iblk1_eq (c : Dev nD) (t : Fin cfg0.N) (q : Fin 512) (d : Fin 256) :
    iblk V c 1 t (ix2 q d) = V c main_v2 (ix2 (Spec.colOf (colBlk t) q) d) :=
  iblk1_at V c t q d _ rfl

/-- Window 2 at point `t`: the labels of the row block's samples. -/
theorem iblk2_eq (c : Dev nD) (t : Fin cfg0.N) (p : Fin 512) (l : Fin 80) :
    iblk V c 2 t (ix2 p l) = V c main_v3 (ix2 (Spec.sampleOf (Spec.colOf (rowBlk t) p)) l) :=
  iblk2_at V c t p l _ (by
    have hp := p.isLt
    have ht : t.val / 8 < 8 := (rowBlk t).isLt
    show (512 * (t.val / 8) + p.val) % 2048 = 512 * (t.val / 8 % 4) + p.val
    omega)

/-- Window 3 at point `t`: the labels of the column block's samples. -/
theorem iblk3_eq (c : Dev nD) (t : Fin cfg0.N) (q : Fin 512) (l : Fin 80) :
    iblk V c 3 t (ix2 q l) = V c main_v3 (ix2 (Spec.sampleOf (Spec.colOf (colBlk t) q)) l) :=
  iblk3_at V c t q l _ (by
    have hq := q.isLt
    have ht : t.val % 8 < 8 := (colBlk t).isLt
    show (512 * (t.val % 8) + q.val) % 2048 = 512 * (t.val % 8 % 4) + q.val
    omega)

/-! ## The output array after the region -/

/-- The row block of a row. -/
def rowOf (i : Fin 4096) : Fin 8 := ⟨i.val / 512, by have h := i.isLt; omega⟩
/-- A row's place inside its row block. -/
def inBlk (i : Fin 4096) : Fin 512 := ⟨i.val % 512, Nat.mod_lt _ (by norm_num)⟩
/-- The last column block's point of a row block: the one point that writes the row block's output back. -/
def lastPt (r : Fin 8) : Fin cfg0.N := ⟨8 * r.val + 7, by have h := r.isLt; have e : cfg0.N = 64 := N_0; omega⟩

theorem flush_lastPt (r : Fin 8) : (cfg0.win 4).flush (lastPt r) = true :=
  (flush0_4 (lastPt r)).2 (by show (8 * r.val + 7) % 8 = 7; omega)

/-- An output block's element sits in the array at row `512 · (t / 8)` plus its row inside the block. -/
theorem out_emb (t : Fin cfg0.N) (y : ((cfg0.win 4).xblock (cfg0.grid.coords t)).Idx) (i : Fin 4096)
    (hi : i.val = 512 * (t.val / 8) + (y (0 : Fin 2)).val) :
    ((cfg0.win 4).blk t).view.emb y = ix2 i (0 : Fin 1) := by
  obtain ⟨-, -, -, -, -, -, -, -, h0, h1⟩ := idx_facts t
  refine funext fun a => Fin.ext ?_
  match a with
  | ⟨0, _⟩ =>
    show win0_4.index t (0 : Fin 2) * 512 + 1 * (y (0 : Fin 2)).val = i.val
    rw [h0]; omega
  | ⟨1, _⟩ =>
    have hy : (y (1 : Fin 2)).val < 1 := (y (1 : Fin 2)).isLt
    show win0_4.index t (1 : Fin 2) * 1 + 1 * (y (1 : Fin 2)).val = 0
    rw [h1]; omega

/-- Two points that write the output back write different rows. -/
theorem out_disjoint (t t' : Fin cfg0.N) (hf : (cfg0.win 4).flush t = true) (hf' : (cfg0.win 4).flush t' = true)
    (hne : t ≠ t') : Disjoint ((cfg0.win 4).blk t).view.set ((cfg0.win 4).blk t').view.set := by
  refine Finset.disjoint_left.mpr fun x hx hx' => hne (Fin.ext ?_)
  obtain ⟨y, rfl⟩ := View.exists_emb_of_mem_set _ hx
  obtain ⟨y', hy'⟩ := View.exists_emb_of_mem_set _ hx'
  have h7 := (flush0_4 t).1 hf
  have h7' := (flush0_4 t').1 hf'
  have hN : cfg0.N = 64 := N_0
  have ht := t.isLt
  have ht' := t'.isLt
  have hy0 : (y (0 : Fin 2)).val < 512 := (y (0 : Fin 2)).isLt
  have hy0' : (y' (0 : Fin 2)).val < 512 := (y' (0 : Fin 2)).isLt
  have e := out_emb t y ⟨512 * (t.val / 8) + (y (0 : Fin 2)).val, by omega⟩ rfl
  have e' := out_emb t' y' ⟨512 * (t'.val / 8) + (y' (0 : Fin 2)).val, by omega⟩ rfl
  rw [e] at hy'
  rw [e'] at hy'
  have := congrArg (fun z : (⟨2, ![4096, 1]⟩ : Shape).Idx => (z (0 : Fin 2)).val) hy'
  simp only at this
  omega

/-- THE OUTPUT ARRAY: row `i` ends holding what the last column block's point of its row block wrote there. -/
theorem arrAt_out (c : Dev nD) (i : Fin 4096) :
    (dat V c).arrAt 4 cfg0.N (ix2 i (0 : Fin 1)) = outAt V c (lastPt (rowOf i)) (ix2 (inBlk i) (0 : Fin 1)) := by
  have hi := i.isLt
  have h := (dat V c).arrAt_emb_eq_flushed 4 out_disjoint (lastPt (rowOf i)) (flush_lastPt (rowOf i))
    (ix2 (inBlk i) (0 : Fin 1))
  rw [out_emb (lastPt (rowOf i)) (ix2 (inBlk i) (0 : Fin 1)) i (by
    show i.val = 512 * ((8 * (i.val / 512) + 7) / 8) + i.val % 512
    omega)] at h
  rw [h, cast_eq]
  show (dat V c).after 4 (lastPt (rowOf i)) _ = _
  rw [after_4]
  exact congrArg _ (funext fun a => Fin.ext (by match a with | ⟨0, _⟩ => rfl | ⟨1, _⟩ => rfl))

end Cert.KernelIdeal.Body

end
-- ==== Proof.SpecFacts.lean ====
/-
  Facts about the one-function form of the loss: its three literals as real numbers, the real-number form of every
  quantity of a row when the features are real (labels are integers, so the Jaccard denominator is an integer plus a
  number strictly between 0 and 1, never zero), and the row's value as what its eight streamed column blocks close to.
-/
import proofs.«178212_j23381801959424_1_alg».proof.Proof.Spec

noncomputable section

namespace Cert.Spec

open Idealize.ShloMosaic Idealize.ShloMosaic.ValueIdx

/-! ## The literals, as real numbers -/

/-- `ε` as a real number: `11258999 · 2⁻⁵⁰`, about `1e-8`. -/
def epsR : ℝ := 11258999 / 1125899906842624
/-- `θ` as a real number: `10066330 · 2⁻²⁵`, about `0.3`. -/
def thetaR : ℝ := 10066330 / 33554432
/-- `τ` as a real number: `9395241 · 2⁻²⁷`, about `0.07`. -/
def tauR : ℝ := 9395241 / 134217728

theorem tau_val : τ = ((9395241 / 134217728 : ℝ) : EReal) := by
  simp [τ, Ideal.ofBits, Ideal.ieee, -EReal.coe_mul]; norm_num

theorem eps_val : ε = ((11258999 / 1125899906842624 : ℝ) : EReal) := by
  simp [ε, Ideal.ofBits, Ideal.ieee, -EReal.coe_mul]; norm_num

theorem theta_val : θ = ((10066330 / 33554432 : ℝ) : EReal) := by
  simp [θ, Ideal.ofBits, Ideal.ieee, -EReal.coe_mul]; norm_num

theorem one_val : Ideal.ofBits .f32 0x3F800000#32 = 1 := by
  rw [show (1 : EReal) = ((1 : ℝ) : EReal) by norm_cast]
  simp [Ideal.ofBits, Ideal.ieee, -EReal.coe_mul]; norm_num

theorem negInf_val : Ideal.ofBits .f32 0xFF800000#32 = ⊥ := by
  simp [Ideal.ofBits, Ideal.ieee]

theorem n4096_val : Ideal.ofBits .f32 0x45800000#32 = ((4096 : ℝ) : EReal) := by
  simp [Ideal.ofBits, Ideal.ieee, -EReal.coe_mul]; norm_num

theorem zero_val : Ideal.ofBits .f32 0x00000000#32 = 0 := by
  simp [Ideal.ofBits, Ideal.ieee]

theorem epsR_pos : 0 < epsR := by unfold epsR; norm_num
theorem epsR_lt_one : epsR < 1 := by unfold epsR; norm_num
theorem thetaR_pos : 0 < thetaR := by unfold thetaR; norm_num
theorem tauR_pos : 0 < tauR := by unfold tauR; norm_num
theorem eps_coe : ε = ((epsR : ℝ) : EReal) := eps_val
theorem theta_coe : θ = ((thetaR : ℝ) : EReal) := theta_val
theorem tau_coe : τ = ((tauR : ℝ) : EReal) := tau_val

/-! ## With real features, every quantity of a row is a real number -/

/-- A similarity is a real number: a finite sum of products of reals, divided by the nonzero real `τ`. -/
theorem sim_real (x0 : Feat) (hx : ∀ k, ∃ r : ℝ, x0 k = (r : EReal)) (i j : Fin 4096) :
    ∃ r : ℝ, sim x0 i j = (r : EReal) := by
  choose f hf using hx
  refine ⟨(∑ d : Fin 256, f (ix3 (sampleOf i) (viewOf i) d) * f (ix3 (sampleOf j) (viewOf j) d)) * (1 / tauR), ?_⟩
  rw [sim, tau_coe, Ideal.div_coe tauR_pos.ne', EReal.coe_mul, RowLaw.coe_sum']
  simp only [feat, hf, EReal.coe_mul]

/-- A label, as the integer it is. -/
def labZ (x1 : Lab) (a : Fin 2048) (l : Fin 80) : ℤ := (x1 (ix2 a l)).toInt
/-- The overlap of two samples' labels, as an integer. -/
def interZ (x1 : Lab) (a b : Fin 2048) : ℤ := ∑ l : Fin 80, labZ x1 a l * labZ x1 b l
/-- A sample's label count, as an integer. -/
def countZ (x1 : Lab) (a : Fin 2048) : ℤ := ∑ l : Fin 80, labZ x1 a l

theorem lab_int (x1 : Lab) (a : Fin 2048) (l : Fin 80) : lab x1 a l = (((labZ x1 a l : ℤ) : ℝ) : EReal) := rfl

theorem inter_int (x1 : Lab) (a b : Fin 2048) : inter x1 a b = (((interZ x1 a b : ℤ) : ℝ) : EReal) := by
  simp only [inter, interZ, lab_int, Int.cast_sum, Int.cast_mul, RowLaw.coe_sum', EReal.coe_mul]

theorem count_int (x1 : Lab) (a : Fin 2048) : count x1 a = (((countZ x1 a : ℤ) : ℝ) : EReal) := by
  simp only [count, countZ, lab_int, Int.cast_sum, RowLaw.coe_sum']

/-- An integer plus `ε` is never zero: `ε` lies strictly between 0 and 1. -/
theorem int_add_eps_ne_zero (n : ℤ) : (n : ℝ) + epsR ≠ 0 := by
  intro h
  have h1 : (n : ℝ) < 0 := by linarith [epsR_pos]
  have h2 : (-1 : ℝ) < n := by linarith [epsR_lt_one]
  have h1' : n < 0 := by exact_mod_cast h1
  have h2' : -1 < n := by exact_mod_cast h2
  omega

/-- The Jaccard denominator, as a real number. -/
def denR (x1 : Lab) (a b : Fin 2048) : ℝ := ((countZ x1 a + countZ x1 b - interZ x1 a b : ℤ) : ℝ) + epsR

theorem denR_ne_zero (x1 : Lab) (a b : Fin 2048) : denR x1 a b ≠ 0 := int_add_eps_ne_zero _

theorem den_coe (x1 : Lab) (a b : Fin 2048) :
    count x1 a + count x1 b - inter x1 a b + ε = ((denR x1 a b : ℝ) : EReal) := by
  rw [count_int, count_int, inter_int, eps_coe, denR, Int.cast_sub, Int.cast_add, EReal.coe_add, EReal.coe_sub,
    EReal.coe_add]

/-- The Jaccard index, as a real number. -/
def jacR (x1 : Lab) (a b : Fin 2048) : ℝ := (interZ x1 a b : ℝ) * (1 / denR x1 a b)

theorem jaccard_coe (x1 : Lab) (a b : Fin 2048) : jaccard x1 a b = ((jacR x1 a b : ℝ) : EReal) := by
  rw [jaccard, den_coe, Ideal.div_coe (denR_ne_zero x1 a b), inter_int, jacR, EReal.coe_mul]

/-- The weight of a pair, as a real number. -/
def weightR (x1 : Lab) (a b : Fin 2048) : ℝ := jacR x1 a b * (1 / thetaR)

theorem weight_coe (x1 : Lab) (a b : Fin 2048) : weight x1 a b = ((weightR x1 a b : ℝ) : EReal) := by
  rw [weight, jaccard_coe, theta_coe, Ideal.div_coe thetaR_pos.ne', weightR, EReal.coe_mul]

/-- The mask of a pair, as a real number. -/
def maskR (x1 : Lab) (a b : Fin 2048) : ℝ := ((Ideal.cmp .oge (jaccard x1 a b) θ).toNat : ℝ)

theorem mask_coe (x1 : Lab) (a b : Fin 2048) : mask x1 a b = ((maskR x1 a b : ℝ) : EReal) := rfl

theorem maskR_cases (x1 : Lab) (a b : Fin 2048) : maskR x1 a b = 0 ∨ maskR x1 a b = 1 := by
  unfold maskR Ideal.cmp
  by_cases h : θ ≤ jaccard x1 a b <;> simp [h]

theorem mask_cases (x1 : Lab) (a b : Fin 2048) : mask x1 a b = 0 ∨ mask x1 a b = 1 := by
  rw [mask_coe]
  rcases maskR_cases x1 a b with h | h <;> rw [h]
  · exact Or.inl EReal.coe_zero
  · exact Or.inr EReal.coe_one

/-- Off the diagonal, as a real number. -/
def offR (i j : Fin 4096) : ℝ := if i = j then 0 else 1

theorem offDiag_coe (i j : Fin 4096) : offDiag i j = ((offR i j : ℝ) : EReal) := by
  unfold offDiag offR
  split_ifs
  · exact EReal.coe_zero.symm
  · exact EReal.coe_one.symm

theorem offR_nonneg (i j : Fin 4096) : 0 ≤ offR i j := by
  unfold offR
  split_ifs <;> norm_num

theorem offDiag_cases (i j : Fin 4096) : offDiag i j = 0 ∨ offDiag i j = 1 := by
  unfold offDiag
  split_ifs
  · exact Or.inl rfl
  · exact Or.inr rfl

theorem offDiag_nonneg (i j : Fin 4096) : 0 ≤ offDiag i j := by
  rcases offDiag_cases i j with h | h <;> rw [h]
  exact zero_le_one

/-! ## The row, block by block -/

/-- The 4096 columns as 8 blocks of 512. -/
def blockEquiv : Fin 8 × Fin 512 ≃ Fin 4096 where
  toFun p := colOf p.1 p.2
  invFun j := (⟨j.val / 512, by have := j.isLt; omega⟩, ⟨j.val % 512, Nat.mod_lt _ (by norm_num)⟩)
  left_inv := by
    rintro ⟨⟨b, hb⟩, ⟨c, hc⟩⟩
    simp only [colOf, Prod.mk.injEq, Fin.mk.injEq]
    constructor <;> omega
  right_inv := by
    rintro ⟨j, hj⟩
    simp only [colOf, Fin.mk.injEq]
    omega

theorem blockEquiv_apply (b : Fin 8) (c : Fin 512) : blockEquiv (b, c) = colOf b c := rfl

/-- A row's value is what its eight column blocks, streamed, close to. -/
theorem row_eq_rowAcc (x0 : Feat) (x1 : Lab) (hx : ∀ k, ∃ r : ℝ, x0 k = (r : EReal)) (i : Fin 4096) :
    row x0 x1 i = (rowAcc x0 x1 i 8).close ε := by
  choose S hS using fun j => sim_real x0 hx i j
  have h := RowLaw.streamed_close_eq_whole 8 (by norm_num) blockEquiv S (offR i)
    (fun j => maskR x1 (sampleOf i) (sampleOf j) * offR i j) (fun j => weightR x1 (sampleOf i) (sampleOf j))
    epsR epsR_pos (fun j => offR_nonneg i j)
  simp only [blockEquiv_apply] at h
  -- each block function is the coercion of its real witness
  have b1 : simBlk x0 i = fun b c => if h : b < 8 then ((S (colOf ⟨b, h⟩ c) : ℝ) : EReal) else 0 := by
    funext b c
    simp only [simBlk, hS]
  have b2 : offBlk i = fun b c => if h : b < 8 then ((offR i (colOf ⟨b, h⟩ c) : ℝ) : EReal) else 0 := by
    funext b c
    simp only [offBlk, offDiag_coe]
  have b3 : posBlk x1 i = fun b c => if h : b < 8 then
      ((maskR x1 (sampleOf i) (sampleOf (colOf ⟨b, h⟩ c)) * offR i (colOf ⟨b, h⟩ c) : ℝ) : EReal) else 0 := by
    funext b c
    simp only [posBlk, mask_coe, offDiag_coe, ← EReal.coe_mul]
  have b4 : wgtBlk x1 i = fun b c => if h : b < 8 then
      ((weightR x1 (sampleOf i) (sampleOf (colOf ⟨b, h⟩ c)) : ℝ) : EReal) else 0 := by
    funext b c
    simp only [wgtBlk, weight_coe]
  rw [rowAcc, b1, b2, b3, b4, eps_coe, h]
  simp only [row, hS, offDiag_coe, mask_coe, weight_coe, eps_coe, ← EReal.coe_mul]

end Cert.Spec

end
-- ==== Proof.KernelHostRead.lean ====
/-
  The kernel program's own host operations, read at an index: before the kernel region the features are stacked
  view-major and the labels converted; after it the per-row values are scaled by `τ`, summed, divided by 4096 and
  negated. None of them writes either argument.
-/
import proofs.«178212_j23381801959424_1_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws
import proofs.«178212_j23381801959424_1_alg».proof.Proof.SpecFacts

noncomputable section

namespace Cert.KernelIdeal.HostRead

open Cert.KernelIdeal Cert.KernelIdeal.Gen
open Idealize.ShloMosaic Idealize.ShloMosaic.TcCoe Idealize.SL.Sem Idealize.ShloMosaic.StableHlo
  Idealize.ShloMosaic.ValueIdx

/-! ## Before the kernel region -/

/-- The stacked features: row `i` is view `i / 2048` of sample `i % 2048`. -/
theorem stacked_apply (W : Valuation τ sig (Elt Ideal)) (i : Fin 4096) (d : Fin 256) :
    StableHlo.after (hostOps0 (F := Ideal)) W (Proc.devRef .tc main_v2) (ix2 i d)
      = Spec.feat (W (Proc.devRef .tc main_arg0)) i d := by
  have hx : StableHlo.after (hostOps0 (F := Ideal)) W (Proc.devRef .tc main_v2)
      = shapeCast S4096x256 (transpose S2x2048x256 [1, 0, 2] (W (Proc.devRef .tc main_arg0))
          transposes_S2048x2x256_S2x2048x256_1_0_2) shapeCasts_S2x2048x256_S4096x256 := by
    after_results
    rfl
  have hi := i.isLt
  have hd := d.isLt
  rw [hx, shapeCast_apply _ shapeCasts_S2x2048x256_S4096x256 (ix2 i d) (ix3 (Spec.viewOf i) (Spec.sampleOf i) d)
      (by
        rewrite [Shape.rowMajor_val_three, Shape.rowMajor_val_two]
        show (i.val / 2048 * 2048 + i.val % 2048) * 256 + d.val = i.val * 256 + d.val
        omega),
    transpose_apply [1, 0, 2] _ transposes_S2048x2x256_S2x2048x256_1_0_2 (ix3 (Spec.viewOf i) (Spec.sampleOf i) d)
      (ix3 (Spec.sampleOf i) (Spec.viewOf i) d) (fun b => match b with
        | ⟨0, _⟩ => rfl
        | ⟨1, _⟩ => rfl
        | ⟨2, _⟩ => rfl)]
  rfl

/-- The labels, converted exactly. -/
theorem labels_apply (W : Valuation τ sig (Elt Ideal)) (a : Fin 2048) (l : Fin 80) :
    StableHlo.after (hostOps0 (F := Ideal)) W (Proc.devRef .tc main_v3) (ix2 a l)
      = Spec.lab (W (Proc.devRef .tc main_arg1)) a l := by
  have hx : StableHlo.after (hostOps0 (F := Ideal)) W (Proc.devRef .tc main_v3)
      = sitofp (F := Ideal) .f32 (W (Proc.devRef .tc main_arg1)) := by
    after_results
  rw [hx]
  rfl

/-! ## Neither stretch writes an argument -/

theorem hostOps0_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem hostOps0_arg1 (W : Valuation τ sig (Elt Ideal)) :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem hostOps1_arg0 (W : Valuation τ sig (Elt Ideal)) :
    StableHlo.after (hostOps1 (F := Ideal)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem hostOps1_arg1 (W : Valuation τ sig (Elt Ideal)) :
    StableHlo.after (hostOps1 (F := Ideal)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-! ## After the kernel region -/

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- The result: the per-row values scaled by `τ`, summed from 0, divided by 4096, negated. -/
theorem result_apply (W : Valuation τ sig (Elt Ideal)) :
    StableHlo.after (hostOps1 (F := Ideal)) W (Proc.devRef .tc main_v10)
      = fun _ => -(Ideal.div (0 + ∑ i : Fin 4096, Spec.τ * (W (Proc.devRef .tc main_v4)) (ix2 i (0 : Fin 1)))
          (Ideal.ofBits .f32 0x45800000#32)) := by
  have hx : StableHlo.after (hostOps1 (F := Ideal)) W (Proc.devRef .tc main_v10)
      = Host.negf (F := Ideal) (Host.divf (Host.reduceAdd (mulf (broadcastInDim S4096 ![] bcast_S_S4096
          (constant S_ .f32 0x3D8F5C29#32)) (shapeCast S4096 (W (Proc.devRef .tc main_v4)) shapeCasts_S4096x1_S4096))
          (constant S_ .f32 0x00000000#32) reducesTo_S4096_S_d0 h_S_) (constant S_ .f32 0x45800000#32)) := by
    after_results
    rfl
  rw [hx]
  funext idx
  show -(Ideal.div (Host.reduceAdd (mulf (broadcastInDim S4096 ![] bcast_S_S4096
      (constant (F := Ideal) S_ .f32 0x3D8F5C29#32)) (shapeCast S4096 (W (Proc.devRef .tc main_v4)) shapeCasts_S4096x1_S4096))
      (constant S_ .f32 0x00000000#32) reducesTo_S4096_S_d0 h_S_ idx) (Ideal.ofBits .f32 0x45800000#32)) = _
  simp only [Host.reduceAdd, Ideal.hostReduceAdd_def]
  rw [Ideal.hostReduceAdd_total reducesTo_S4096_S_d0 (fun b => b.elim0) _ _ idx, sum_idx1]
  have e : ∀ a : Fin 4096, mulf (broadcastInDim S4096 ![] bcast_S_S4096 (constant (F := Ideal) S_ .f32 0x3D8F5C29#32))
      (shapeCast S4096 (W (Proc.devRef .tc main_v4)) shapeCasts_S4096x1_S4096) (ix1 a)
        = Spec.τ * (W (Proc.devRef .tc main_v4)) (ix2 a (0 : Fin 1)) := by
    intro a
    rw [mulf_apply, shapeCast_apply _ shapeCasts_S4096x1_S4096 (ix1 a) (ix2 a (0 : Fin 1))
      (by rewrite [Shape.rowMajor_val_two, Shape.rowMajor_val_one]; show a.val * 1 + 0 = a.val; omega)]
    rfl
  simp only [e]
  rw [constant_apply, Ideal.ofBits_zero_f32]

/-- If the region leaves every row's value, the result is the loss. -/
theorem result_eq_loss (W : Valuation τ sig (Elt Ideal)) (x0 : Spec.Feat) (x1 : Spec.Lab)
    (h : ∀ i : Fin 4096, (W (Proc.devRef .tc main_v4)) (ix2 i (0 : Fin 1)) = Spec.row x0 x1 i) :
    StableHlo.after (hostOps1 (F := Ideal)) W (Proc.devRef .tc main_v10) = fun _ => Spec.loss x0 x1 := by
  rw [result_apply]
  simp only [h]
  rfl

end Cert.KernelIdeal.HostRead

end
-- ==== Proof.IdealPieces.lean ====
/-
  What each case of the body leaves in each accumulator, and in the output block, as a pure term of the values it loaded:
  the pieces the run found are single whole-buffer stores, so the contents are the stored payloads, with every load of an
  input block reading the block and every load of an accumulator reading what the store before it (or the point before)
  left. With S the block's similarities, M its mask, W its weights and P = M times the off-diagonal indicator:
  the new maximum is max(old, row maximum of S); the new partition sum rescales the old one and adds the row sums of
  exp(S - new maximum) off the diagonal; the three weighted sums add the row sums of P*W*S, P*W and P. At a first column
  block the old values are the reset values; at a last one the output block is the closing value of the new accumulators.
-/
import proofs.«178212_j23381801959424_1_alg».proof.Proof.IdealBodyCover
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin S512x1.rank → ℕ) = fun _ => 0 := by
  funext a; fin_cases a <;> rfl
theorem hz2' : (![0, 0] : Fin S512x256.rank → ℕ) = fun _ => 0 := by
  funext a; fin_cases a <;> rfl
theorem hz2'' : (![0, 0] : Fin S512x80.rank → ℕ) = fun _ => 0 := by
  funext a; fin_cases a <;> rfl

theorem accFirst_0_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) :
    accFirst_0 c i arg2 harg2 arg3 harg3 arg4 harg4 arg5 harg5 arg6 harg6 arg7 harg7 arg8 harg8 arg9 harg9 arg10 harg10 arg11 harg11 hc0 hc1 x0 x1 x2 x3 = k0_pay18 (k0_pay10 x0 x1) (k0_pay5 (F := F)) := by
  unfold accFirst_0
  rw [View.read_writes_eq_canon _ _ _ (coverFirst_0 c i arg2 harg2 arg3 harg3 arg4 harg4 arg5 harg5 arg6 harg6 arg7 harg7 arg8 harg8 arg9 harg9 arg10 harg10 arg11 harg11 hc0 hc1 x0 x1 x2 x3)]
  unfold runFirst
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accFirst_1_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) :
    accFirst_1 c i arg2 harg2 arg3 harg3 arg4 harg4 arg5 harg5 arg6 harg6 arg7 harg7 arg8 harg8 arg9 harg9 arg10 harg10 arg11 harg11 hc0 hc1 x0 x1 x2 x3 = k0_pay17 (BitVec.ofNat 32 (i 0).val) (BitVec.ofNat 32 (i 1).val) (k0_pay10 x0 x1) (iota .tc S512x512 32 [0] iota_S512x512_d0_w32) (k0_pay5 (F := F)) (k0_pay6 (F := F)) (k0_pay5 (F := F)) := by
  unfold accFirst_1
  rw [View.read_writes_eq_canon _ _ _ (coverFirst_1 c i arg2 harg2 arg3 harg3 arg4 harg4 arg5 harg5 arg6 harg6 arg7 harg7 arg8 harg8 arg9 harg9 arg10 harg10 arg11 harg11 hc0 hc1 x0 x1 x2 x3)]
  unfold runFirst
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accFirst_2_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) :
    accFirst_2 c i arg2 harg2 arg3 harg3 arg4 harg4 arg5 harg5 arg6 harg6 arg7 harg7 arg8 harg8 arg9 harg9 arg10 harg10 arg11 harg11 hc0 hc1 x0 x1 x2 x3 = k0_pay1 (k0_pay7 (F := F)) (k0_pay19 (BitVec.ofNat 32 (i 0).val) (BitVec.ofNat 32 (i 1).val) (k0_pay10 x0 x1) (k0_pay12 x2 x3) (k0_pay13 x2 x3) (iota .tc S512x512 32 [0] iota_S512x512_d0_w32)) := by
  unfold accFirst_2
  rw [View.read_writes_eq_canon _ _ _ (coverFirst_2 c i arg2 harg2 arg3 harg3 arg4 harg4 arg5 harg5 arg6 harg6 arg7 harg7 arg8 harg8 arg9 harg9 arg10 harg10 arg11 harg11 hc0 hc1 x0 x1 x2 x3)]
  unfold runFirst
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accFirst_3_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) :
    accFirst_3 c i arg2 harg2 arg3 harg3 arg4 harg4 arg5 harg5 arg6 harg6 arg7 harg7 arg8 harg8 arg9 harg9 arg10 harg10 arg11 harg11 hc0 hc1 x0 x1 x2 x3 = k0_pay2 (k0_pay13 x2 x3) (k0_pay15 (BitVec.ofNat 32 (i 0).val) (BitVec.ofNat 32 (i 1).val) (k0_pay12 x2 x3) (iota .tc S512x512 32 [0] iota_S512x512_d0_w32)) (k0_pay8 (F := F)) := by
  unfold accFirst_3
  rw [View.read_writes_eq_canon _ _ _ (coverFirst_3 c i arg2 harg2 arg3 harg3 arg4 harg4 arg5 harg5 arg6 harg6 arg7 harg7 arg8 harg8 arg9 harg9 arg10 harg10 arg11 harg11 hc0 hc1 x0 x1 x2 x3)]
  unfold runFirst
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accFirst_4_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : firstCol i) (hc1 : ¬lastCol i) (x0 : Vec F S512x256 .bf16) (x1 : Vec F S512x256 .bf16) (x2 : Vec F S512x80 .f32) (x3 : Vec F S512x80 .f32) :
    accFirst_4 c i arg2 harg2 arg3 harg3 arg4 harg4 arg5 harg5 arg6 harg6 arg7 harg7 arg8 harg8 arg9 harg9 arg10 harg10 arg11 harg11 hc0 hc1 x0 x1 x2 x3 = k0_pay3 (k0_pay15 (BitVec.ofNat 32 (i 0).val) (BitVec.ofNat 32 (i 1).val) (k0_pay12 x2 x3) (iota .tc S512x512 32 [0] iota_S512x512_d0_w32)) (k0_pay9 (F := F)) := by
  unfold accFirst_4
  rw [View.read_writes_eq_canon _ _ _ (coverFirst_4 c i arg2 harg2 arg3 harg3 arg4 harg4 arg5 harg5 arg6 harg6 arg7 harg7 arg8 harg8 arg9 harg9 arg10 harg10 arg11 harg11 hc0 hc1 x0 x1 x2 x3)]
  unfold runFirst
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accMid_0_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) :
    accMid_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay18 (k0_pay10 x0 x1) xs0 := by
  unfold accMid_0
  rw [View.read_writes_eq_canon _ _ _ (coverMid_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runMid
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accMid_1_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) :
    accMid_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay17 (BitVec.ofNat 32 (i 0).val) (BitVec.ofNat 32 (i 1).val) (k0_pay10 x0 x1) (iota .tc S512x512 32 [0] iota_S512x512_d0_w32) xs0 xs1 xs0 := by
  unfold accMid_1
  rw [View.read_writes_eq_canon _ _ _ (coverMid_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runMid
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accMid_2_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) :
    accMid_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 xs2 (k0_pay19 (BitVec.ofNat 32 (i 0).val) (BitVec.ofNat 32 (i 1).val) (k0_pay10 x0 x1) (k0_pay12 x2 x3) (k0_pay13 x2 x3) (iota .tc S512x512 32 [0] iota_S512x512_d0_w32)) := by
  unfold accMid_2
  rw [View.read_writes_eq_canon _ _ _ (coverMid_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runMid
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accMid_3_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) :
    accMid_3 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay13 x2 x3) (k0_pay15 (BitVec.ofNat 32 (i 0).val) (BitVec.ofNat 32 (i 1).val) (k0_pay12 x2 x3) (iota .tc S512x512 32 [0] iota_S512x512_d0_w32)) xs3 := by
  unfold accMid_3
  rw [View.read_writes_eq_canon _ _ _ (coverMid_3 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runMid
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accMid_4_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : ¬lastCol i) (x0 : Vec F S512x256 .bf16) (x1 : Vec F S512x256 .bf16) (x2 : Vec F S512x80 .f32) (x3 : Vec F S512x80 .f32) (xs0 xs1 xs2 xs3 xs4 : Vec F S512x1 .f32) :
    accMid_4 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay3 (k0_pay15 (BitVec.ofNat 32 (i 0).val) (BitVec.ofNat 32 (i 1).val) (k0_pay12 x2 x3) (iota .tc S512x512 32 [0] iota_S512x512_d0_w32)) xs4 := by
  unfold accMid_4
  rw [View.read_writes_eq_canon _ _ _ (coverMid_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runMid
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accLast_0_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    accLast_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay18 (k0_pay10 x0 x1) xs0 := by
  unfold accLast_0
  rw [View.read_writes_eq_canon _ _ _ (coverLast_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accLast_1_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    accLast_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay17 (BitVec.ofNat 32 (i 0).val) (BitVec.ofNat 32 (i 1).val) (k0_pay10 x0 x1) (iota .tc S512x512 32 [0] iota_S512x512_d0_w32) xs0 xs1 xs0 := by
  unfold accLast_1
  rw [View.read_writes_eq_canon _ _ _ (coverLast_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accLast_2_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    accLast_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 xs2 (k0_pay19 (BitVec.ofNat 32 (i 0).val) (BitVec.ofNat 32 (i 1).val) (k0_pay10 x0 x1) (k0_pay12 x2 x3) (k0_pay13 x2 x3) (iota .tc S512x512 32 [0] iota_S512x512_d0_w32)) := by
  unfold accLast_2
  rw [View.read_writes_eq_canon _ _ _ (coverLast_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accLast_3_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    accLast_3 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay13 x2 x3) (k0_pay15 (BitVec.ofNat 32 (i 0).val) (BitVec.ofNat 32 (i 1).val) (k0_pay12 x2 x3) (iota .tc S512x512 32 [0] iota_S512x512_d0_w32)) xs3 := by
  unfold accLast_3
  rw [View.read_writes_eq_canon _ _ _ (coverLast_3 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem accLast_4_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    accLast_4 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay3 (k0_pay15 (BitVec.ofNat 32 (i 0).val) (BitVec.ofNat 32 (i 1).val) (k0_pay12 x2 x3) (iota .tc S512x512 32 [0] iota_S512x512_d0_w32)) xs4 := by
  unfold accLast_4
  rw [View.read_writes_eq_canon _ _ _ (coverLast_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

theorem outLast_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x80 .f32) (harg4 : arg4.IsWhole) (arg5 : Memref sig .tc .vmem S512x80 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬firstCol i) (hc1 : lastCol i) (x0 : Vec F S512x256 .bf16) (x1 : Vec F S512x256 .bf16) (x2 : Vec F S512x80 .f32) (x3 : Vec F S512x80 .f32) (xs0 xs1 xs2 xs3 xs4 : Vec F S512x1 .f32) :
    outLast c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay4 (k0_pay17 (BitVec.ofNat 32 (i 0).val) (BitVec.ofNat 32 (i 1).val) (k0_pay10 x0 x1) (iota .tc S512x512 32 [0] iota_S512x512_d0_w32) xs0 xs1 xs0) (k0_pay1 xs2 (k0_pay19 (BitVec.ofNat 32 (i 0).val) (BitVec.ofNat 32 (i 1).val) (k0_pay10 x0 x1) (k0_pay12 x2 x3) (k0_pay13 x2 x3) (iota .tc S512x512 32 [0] iota_S512x512_d0_w32))) (k0_pay2 (k0_pay13 x2 x3) (k0_pay15 (BitVec.ofNat 32 (i 0).val) (BitVec.ofNat 32 (i 1).val) (k0_pay12 x2 x3) (iota .tc S512x512 32 [0] iota_S512x512_d0_w32)) xs3) (k0_pay18 (k0_pay10 x0 x1) xs0) (k0_pay3 (k0_pay15 (BitVec.ofNat 32 (i 0).val) (BitVec.ofNat 32 (i 1).val) (k0_pay12 x2 x3) (iota .tc S512x512 32 [0] iota_S512x512_d0_w32)) xs4) := by
  unfold outLast
  rw [View.read_writes_eq_canon _ _ _ (coverLast_out c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold runLast
  dsimp only
  sl_unfold_words
  first | rw [View.canon_unit_zero hz2] | rw [View.canon_cons_unit_zero hz2]
  simp only [View.readAt_eq_ld, View.readCov_unit_zero (S := S512x1) _ hz2, harg2.read_unread, harg3.read_unread, harg4.read_unread, harg5.read_unread, harg6.read_unread,
    harg7.read_unread, harg8.read_unread, harg9.read_unread, harg10.read_unread, harg11.read_unread,
    View.ld_unit_zero (S := S512x1) hz2, View.ld_unit_zero (S := S512x256) hz2', View.ld_unit_zero (S := S512x80) hz2'']
  rfl

end Cert.KernelIdeal.Body

end
-- ==== Proof.KernelStep.lean ====
/-
  The kernel body's arithmetic read at an index, over the extended reals. For a block of 512 rows against a block of 512
  columns: the similarity of row p and column c is the sum over the 256 coordinates of the products, times the named
  scale; the Jaccard ratio is the label overlap over (row count + column count - overlap + eps); the mask is its 0/1
  threshold, the weight its quotient by the threshold; the off-diagonal indicator compares the global row and column
  numbers. One block folded into a row's five accumulators is RowLaw's step on that row's data, the closing value is
  RowLaw's close, and the reset values are the empty accumulator.
-/
import proofs.«178212_j23381801959424_1_alg».proof.Proof.Gen.KernelIdeal.Skeleton
import proofs.«178212_j23381801959424_1_alg».proof.Proof.RowLaw
import Idealize.ShloMosaic.PureOps.Ideal.Laws
import Idealize.ShloMosaic.Lib.ValueIdx
import Idealize.ShloMosaic.Lib.ValueLayout
import Idealize.ShloMosaic.Lib.Pipeline.Value

namespace Cert.KernelIdeal.StepRead
open Cert.KernelIdeal Cert.KernelIdeal.Gen Idealize.ShloMosaic Idealize.ShloMosaic.ValueIdx
noncomputable section
set_option maxRecDepth 16384

/-! ## Bit patterns as extended reals -/

/-- The f32 pattern of minus infinity is the bottom of the extended reals. -/
theorem ofBits_negInf_f32 : Ideal.ofBits .f32 0xFF800000#32 = ⊥ := by simp [Ideal.ofBits, Ideal.ieee]

/-- The f32 pattern `0x3F800000` is one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-! ## Layout operations between a vector, a column and a matrix, read at an index -/

section Layout
variable {α : Type}

/-- A vector of length `a` cast to an `a × 1` column reads, at `(i, 0)`, the vector at `i`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its rows: the source index over row `p` with column `k` inserted is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

end Layout

/-- A row sum stored as a column: at row `p` it is the sum of the row's entries. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (hc : (⟨1, ![a]⟩ : Shape).ShapeCasts ⟨2, ![a, 1]⟩)
    (p : Fin a) (u : Fin 1) :
    shapeCast ⟨2, ![a, 1]⟩ (multiReduction .add [1] ⟨1, ![a]⟩ src acc h hφ hacc) hc (ix2 p u)
      = ∑ c : Fin b, src (ix2 p c) := by
  refine (shapeCast_col_apply _ hc p u).trans
    ((Ideal.multiReduction_add_single src acc h hφ hacc (ix1 p)).trans ?_)
  exact Finset.sum_congr rfl fun k _ => congrArg src (lift_row h p k)

/-- A row maximum stored as a column: at row `p` it is the fold of `max`, from the accumulator's value, over the
    row's entries. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (hc : (⟨1, ![a]⟩ : Shape).ShapeCasts ⟨2, ![a, 1]⟩)
    (p : Fin a) (u : Fin 1) :
    shapeCast ⟨2, ![a, 1]⟩ (multiReduction .maximumf [1] ⟨1, ![a]⟩ src acc h hφ hacc) hc (ix2 p u)
      = (Finset.univ : Finset (Fin b)).fold max (Ideal.ofBits .f32 acc) (fun c => src (ix2 p c)) := by
  refine (shapeCast_col_apply _ hc p u).trans
    ((Ideal.multiReduction_maximumf_single src acc h hφ hacc (ix1 p)).trans ?_)
  exact congrArg (fun f => (Finset.univ : Finset (Fin b)).fold max (Ideal.ofBits .f32 acc) f)
    (funext fun k => congrArg src (lift_row h p k))

/-! ## The closing value and the reset values -/

/-- The row's closing value is the streamed form's: `(a − t · (m + log (z + ε))) / (n + ε)`. -/
theorem close_apply (z a t m n : Vec Ideal S512x1 .f32) (p : Fin 512) :
    k0_pay4 (F := Ideal) z a t m n (ix2 p (0 : Fin 1))
      = Cert.RowLaw.Acc.close
          ⟨m (ix2 p (0 : Fin 1)), z (ix2 p (0 : Fin 1)), a (ix2 p (0 : Fin 1)), t (ix2 p (0 : Fin 1)),
            n (ix2 p (0 : Fin 1))⟩
          (Ideal.ofBits .f32 0x322BCC77#32) := rfl

/-- The running maximum is reset to minus infinity. -/
theorem reset_m (p : Fin 512) : k0_pay5 (F := Ideal) (ix2 p (0 : Fin 1)) = ⊥ := by
  unfold k0_pay5
  simp only [shapeCast_self]
  exact ofBits_negInf_f32

/-- The partition sum is reset to zero. -/
theorem reset_z (p : Fin 512) : k0_pay6 (F := Ideal) (ix2 p (0 : Fin 1)) = 0 := by
  unfold k0_pay6
  simp only [shapeCast_self]
  exact Ideal.ofBits_zero_f32

/-- The sum of `p · w · s` is reset to zero. -/
theorem reset_a (p : Fin 512) : k0_pay7 (F := Ideal) (ix2 p (0 : Fin 1)) = 0 := by
  unfold k0_pay7
  simp only [shapeCast_self]
  exact Ideal.ofBits_zero_f32

/-- The sum of `p · w` is reset to zero. -/
theorem reset_t (p : Fin 512) : k0_pay8 (F := Ideal) (ix2 p (0 : Fin 1)) = 0 := by
  unfold k0_pay8
  simp only [shapeCast_self]
  exact Ideal.ofBits_zero_f32

/-- The sum of `p` is reset to zero. -/
theorem reset_n (p : Fin 512) : k0_pay9 (F := Ideal) (ix2 p (0 : Fin 1)) = 0 := by
  unfold k0_pay9
  simp only [shapeCast_self]
  exact Ideal.ofBits_zero_f32

/-- So the reset values are the streamed form's initial state. -/
theorem reset_eq_init (p : Fin 512) :
    (⟨k0_pay5 (F := Ideal) (ix2 p (0 : Fin 1)), k0_pay6 (F := Ideal) (ix2 p (0 : Fin 1)),
      k0_pay7 (F := Ideal) (ix2 p (0 : Fin 1)), k0_pay8 (F := Ideal) (ix2 p (0 : Fin 1)),
      k0_pay9 (F := Ideal) (ix2 p (0 : Fin 1))⟩ : Cert.RowLaw.Acc) = Cert.RowLaw.Acc.init := by
  rw [reset_m, reset_z, reset_a, reset_t, reset_n]
  rfl

/-! ## One block of columns folded in -/

/-- Row `p` of the five accumulators, as the streamed form's state. -/
abbrev rowAcc (pm pz pa pt pn : Vec Ideal S512x1 .f32) (p : Fin 512) : Cert.RowLaw.Acc :=
  ⟨pm (ix2 p (0 : Fin 1)), pz (ix2 p (0 : Fin 1)), pa (ix2 p (0 : Fin 1)), pt (ix2 p (0 : Fin 1)),
    pn (ix2 p (0 : Fin 1))⟩

/-- Row `p` after one block: similarities `S`, the off-diagonal indicator, the mask times it, the weights `WT`. -/
abbrev rowStep (arg0 arg1 : BitVec 32) (v37 : IVec S512x512 32) (S MK WT : FVec Ideal S512x512 .f32)
    (pm pz pa pt pn : Vec Ideal S512x1 .f32) (p : Fin 512) : Cert.RowLaw.Acc :=
  (rowAcc pm pz pa pt pn p).step (fun c : Fin 512 => S (ix2 p c))
    (fun c : Fin 512 => k0_pay14 (F := Ideal) arg0 arg1 v37 (ix2 p c))
    (fun c : Fin 512 => MK (ix2 p c) * k0_pay14 (F := Ideal) arg0 arg1 v37 (ix2 p c))
    (fun c : Fin 512 => WT (ix2 p c))

section Step
variable (arg0 arg1 : BitVec 32) (v37 : IVec S512x512 32) (S MK WT : FVec Ideal S512x512 .f32)
  (pm pz pa pt pn : Vec Ideal S512x1 .f32) (p : Fin 512)

/-- The new running maximum at row `p`: the old one against the row's largest similarity. -/
theorem newMax_apply :
    k0_pay16 (F := Ideal) S pm (ix2 p (0 : Fin 1))
      = max (pm (ix2 p (0 : Fin 1))) ((Finset.univ : Finset (Fin 512)).fold max ⊥ fun c => S (ix2 p c)) := by
  unfold k0_pay16
  refine (maximumf_apply _ _ _).trans ?_
  refine congrArg (max (pm (ix2 p (0 : Fin 1)))) ((rowMax_apply _ _ _ _ _ _ p 0).trans ?_)
  exact congrArg (fun b : EReal => (Finset.univ : Finset (Fin 512)).fold max b fun c => S (ix2 p c))
    ofBits_negInf_f32

/-- Field `m`. -/
theorem step_m :
    k0_pay18 (F := Ideal) S pm (ix2 p (0 : Fin 1)) = (rowStep arg0 arg1 v37 S MK WT pm pz pa pt pn p).m := by
  unfold k0_pay18
  simp only [shapeCast_self]
  exact newMax_apply S pm p

/-- Field `z`: the old partition sum rescaled to the new maximum, plus the block's. -/
theorem step_z :
    k0_pay17 (F := Ideal) arg0 arg1 S v37 pm pz pm (ix2 p (0 : Fin 1))
      = (rowStep arg0 arg1 v37 S MK WT pm pz pa pt pn p).z := by
  have hM := newMax_apply S pm p
  unfold k0_pay17
  simp only [shapeCast_self]
  refine (addf_apply _ _ _).trans ?_
  refine congrArg₂ (· + ·) ?_ ((rowSum_apply _ _ _ _ _ _ p 0).trans (Finset.sum_congr rfl fun c _ => ?_))
  · show pz (ix2 p (0 : Fin 1)) * Ideal.exp (pm (ix2 p (0 : Fin 1)) - k0_pay16 (F := Ideal) S pm (ix2 p (0 : Fin 1))) = _
    rw [hM]
  · show Ideal.exp (S (ix2 p c) - broadcastTo S512x512 (k0_pay16 (F := Ideal) S pm) broadcasts_S512x1_S512x512 (ix2 p c))
        * k0_pay14 (F := Ideal) arg0 arg1 v37 (ix2 p c) = _
    rw [broadcastTo_col_apply, hM]

/-- Field `a`. -/
theorem step_a :
    k0_pay1 (F := Ideal) pa (k0_pay19 (F := Ideal) arg0 arg1 S MK WT v37) (ix2 p (0 : Fin 1))
      = (rowStep arg0 arg1 v37 S MK WT pm pz pa pt pn p).a := by
  unfold k0_pay1 k0_pay19 k0_pay15
  simp only [shapeCast_self]
  refine (addf_apply _ _ _).trans ?_
  exact congrArg (pa (ix2 p (0 : Fin 1)) + ·) (rowSum_apply _ _ _ _ _ _ p 0)

/-- Field `t`. -/
theorem step_t :
    k0_pay2 (F := Ideal) WT (k0_pay15 (F := Ideal) arg0 arg1 MK v37) pt (ix2 p (0 : Fin 1))
      = (rowStep arg0 arg1 v37 S MK WT pm pz pa pt pn p).t := by
  unfold k0_pay2 k0_pay15
  simp only [shapeCast_self]
  refine (addf_apply _ _ _).trans ?_
  exact congrArg (pt (ix2 p (0 : Fin 1)) + ·) (rowSum_apply _ _ _ _ _ _ p 0)

/-- Field `n`. -/
theorem step_n :
    k0_pay3 (F := Ideal) (k0_pay15 (F := Ideal) arg0 arg1 MK v37) pn (ix2 p (0 : Fin 1))
      = (rowStep arg0 arg1 v37 S MK WT pm pz pa pt pn p).n := by
  unfold k0_pay3 k0_pay15
  simp only [shapeCast_self]
  refine (addf_apply _ _ _).trans ?_
  exact congrArg (pn (ix2 p (0 : Fin 1)) + ·) (rowSum_apply _ _ _ _ _ _ p 0)

end Step

/-! ## The off-diagonal indicator -/

/-- A select on a word equality is the `if` on the equality. -/
theorem select_cmpi_eq {α : Type} {w : ℕ} (x y : BitVec w) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- Block number times the block length plus the place in the block, as 32-bit words. -/
theorem blockWord (b i : ℕ) : BitVec.ofNat 32 b * 512#32 + BitVec.ofNat 32 i = BitVec.ofNat 32 (b * 512 + i) := by
  rw [BitVec.ofNat_add, BitVec.ofNat_mul]

/-- Numbers below `2 ^ 32` are equal when their 32-bit words are. -/
theorem ofNat32_inj {a b : ℕ} (ha : a < 4294967296) (hb : b < 4294967296)
    (h : BitVec.ofNat 32 a = BitVec.ofNat 32 b) : a = b := by
  have h' := congrArg BitVec.toNat h
  simp only [BitVec.toNat_ofNat] at h'
  omega

/-- The off-diagonal indicator at local `(p, c)` of block `(r, cb)`: zero where the global row number is the global
    column number, one elsewhere. -/
theorem offDiag_apply (r cb : Fin 8) (p c : Fin 512) :
    k0_pay14 (F := Ideal) (BitVec.ofNat 32 r.val) (BitVec.ofNat 32 cb.val)
        (iota .tc S512x512 32 [0] iota_S512x512_d0_w32 : IVec S512x512 32) (ix2 p c)
      = if 512 * r.val + p.val = 512 * cb.val + c.val then 0 else 1 := by
  have hr := r.isLt
  have hcb := cb.isLt
  have hp := p.isLt
  have hc := c.isLt
  unfold k0_pay14
  show Scalar.select
      (IntOp.cmpi .eq
        (BitVec.ofNat 32 r.val * 512#32 + iota .tc S512x512 32 [0] iota_S512x512_d0_w32 (ix2 p c))
        (BitVec.ofNat 32 cb.val * 512#32 + iota .tc S512x512 32 [1] iota_S512x512_d1_w32 (ix2 p c)))
      (Ideal.ofBits .f32 0x00000000#32) (Ideal.ofBits .f32 0x3F800000#32) = _
  rw [select_cmpi_eq, iota_single_apply, iota_single_apply, Ideal.ofBits_zero_f32, ofBits_one_f32]
  show (if BitVec.ofNat 32 r.val * 512#32 + BitVec.ofNat 32 p.val
        = BitVec.ofNat 32 cb.val * 512#32 + BitVec.ofNat 32 c.val then (0 : EReal) else 1) = _
  rw [blockWord, blockWord]
  by_cases h : 512 * r.val + p.val = 512 * cb.val + c.val
  · rw [if_pos h, if_pos (congrArg (BitVec.ofNat 32) (by omega))]
  · rw [if_neg h, if_neg fun h' => h (by have := ofNat32_inj (by omega) (by omega) h'; omega)]

/-! ## The threshold mask and the weight -/

/-- A one-bit word widened to 32 bits and read signed is the bit. -/
theorem bit_setWidth_toInt (b : BitVec 1) : (b.setWidth 32).toInt = (b.toNat : ℤ) := by
  rcases BitVec.eq_zero_or_eq_one b with rfl | rfl <;> decide

/-- The mask at `(p, c)`: one where the Jaccard ratio reaches the threshold, zero elsewhere. -/
theorem mask_apply (x2b x3b : Vec Ideal S512x80 .f32) (p c : Fin 512) :
    k0_pay12 (F := Ideal) x2b x3b (ix2 p c)
      = (((Ideal.cmp .oge (k0_pay11 (F := Ideal) x2b x3b (ix2 p c)) (Ideal.ofBits .f32 0x3E99999A#32)).toNat : ℝ) : EReal) := by
  unfold k0_pay12
  show ((((Ideal.cmp .oge (k0_pay11 (F := Ideal) x2b x3b (ix2 p c)) (Ideal.ofBits .f32 0x3E99999A#32)).setWidth 32).toInt : ℝ) : EReal) = _
  rw [bit_setWidth_toInt, Int.cast_natCast]

/-- The weight at `(p, c)`: the Jaccard ratio over the threshold. -/
theorem weight_apply (x2b x3b : Vec Ideal S512x80 .f32) (p c : Fin 512) :
    k0_pay13 (F := Ideal) x2b x3b (ix2 p c)
      = Ideal.div (k0_pay11 (F := Ideal) x2b x3b (ix2 p c)) (Ideal.ofBits .f32 0x3E99999A#32) := rfl

/-! ## A matrix product into zero, read at an index -/

/-- An `m × k` by `k × n` product accumulated into zero reads, at `(a, b)`, the sum over the contracted coordinate of
    the products of the entries. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1
      (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax
    apply Fin.ext
    match ax with
    | ⟨0, _⟩ => rfl
    | ⟨1, _⟩ => exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax
    apply Fin.ext
    match ax with
    | ⟨0, _⟩ => exact c2
    | ⟨1, _⟩ => rfl
  rw [l2, r2]

/-- A matrix against the transpose of another, into zero: at `(a, b)` the dot product of row `a` of the first with
    row `b` of the second. -/
theorem matmul_transpose_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![n, k]⟩ φ₂)
    (ht : (⟨2, ![n, k]⟩ : Shape).Transposes [1, 0] ⟨2, ![k, n]⟩) (a : Fin m) (b : Fin n) :
    FloatOps.matmul (⟨[1], [0], [0], [1], [], [], w⟩ : DotDims ⟨2, ![m, k]⟩ ⟨2, ![k, n]⟩ ⟨2, ![m, n]⟩) prec A
        (transpose ⟨2, ![k, n]⟩ [1, 0] B ht) (constant ⟨2, ![m, n]⟩ .f32 0x00000000#32) (ix2 a b)
      = ∑ c : Fin k, A (ix2 a c) * B (ix2 b c) :=
  (matmul_plain_apply w prec A _ a b).trans
    (Finset.sum_congr rfl fun c _ => congrArg (A (ix2 a c) * ·) (transpose_ix2_apply B ht c b))

/-! ## The similarities -/

/-- The named scale is the rational the certificate's table gives it. -/
theorem inv_temperature :
    Named.named (F := Ideal) κ "inv_temperature" (φ := .f32) 0x41649249#32 = ((134217728 / 9395241 : ℝ) : EReal) :=
  IdealRules.named_const.ideal_named_scalar _ _ _ _ rfl

/-- The similarity of local row `p` and local column `c`: the dot product of the two feature rows, times the scale. -/
theorem sims_apply (x0b x1b : Vec Ideal S512x256 .bf16) (p c : Fin 512) :
    k0_pay10 (F := Ideal) x0b x1b (ix2 p c)
      = (∑ d : Fin 256, x0b (ix2 p d) * x1b (ix2 c d)) * ((134217728 / 9395241 : ℝ) : EReal) := by
  unfold k0_pay10
  simp only [shapeCast_self]
  refine (mulf_apply _ _ _).trans ?_
  exact congrArg₂ (· * ·)
    (matmul_transpose_apply dot_S512x256_S256x512_S512x512_1_0_0_1_n_n_wf none x0b x1b
      transposes_S512x256_p1_0_S256x512 p c)
    inv_temperature

/-! ## The Jaccard ratio -/

/-- The Jaccard ratio of the label rows of local row `p` and local column `c`: the intersection over the union plus
    the small constant. -/
theorem jaccard_apply (x2b x3b : Vec Ideal S512x80 .f32) (p c : Fin 512) :
    k0_pay11 (F := Ideal) x2b x3b (ix2 p c)
      = Ideal.div (∑ l : Fin 80, x2b (ix2 p l) * x3b (ix2 c l))
          ((∑ l : Fin 80, x2b (ix2 p l)) + (∑ l : Fin 80, x3b (ix2 c l))
            - (∑ l : Fin 80, x2b (ix2 p l) * x3b (ix2 c l)) + Ideal.ofBits .f32 0x322BCC77#32) := by
  have hI := matmul_transpose_apply dot_S512x80_S80x512_S512x512_1_0_0_1_n_n_wf none
    (truncf .bf16 x2b bitsLt_bf16_f32 : FVec Ideal S512x80 .bf16) (truncf .bf16 x3b bitsLt_bf16_f32 : FVec Ideal S512x80 .bf16)
    transposes_S512x80_p1_0_S80x512 p c
  have hK := matmul_transpose_apply dot_S1x80_S80x512_S1x512_1_0_0_1_n_n_wf none
    (broadcast S1x80 (Scalar.ofBits (F := Ideal) .bf16 0x3F80#16) : FVec Ideal S1x80 .bf16)
    (truncf .bf16 x3b bitsLt_bf16_f32 : FVec Ideal S512x80 .bf16)
    transposes_S512x80_p1_0_S80x512 (0 : Fin 1) c
  unfold k0_pay11
  simp only [shapeCast_self]
  refine (divf_apply _ _ _).trans ?_
  refine congrArg₂ Ideal.div hI ?_
  refine (addf_apply _ _ _).trans ?_
  refine congrArg₂ (· + ·) ?_ rfl
  refine (subf_apply _ _ _).trans ?_
  refine congrArg₂ (· - ·) ?_ hI
  refine (addf_apply _ _ _).trans ?_
  refine congrArg₂ (· + ·) ?_ ?_
  · exact (broadcastTo_col_apply _ _ p c).trans (rowSum_apply _ _ _ _ _ _ p 0)
  · refine (broadcastTo_1b_ab_apply _ _ p c).trans (hK.trans ?_)
    refine Finset.sum_congr rfl fun l _ => ?_
    show Ideal.ofBits .bf16 0x3F80#16 * x3b (ix2 c l) = x3b (ix2 c l)
    rw [ofBits_one_bf16, one_mul]

end
end Cert.KernelIdeal.StepRead
-- ==== Proof.KernelBlocks.lean ====
/-
  When the four input blocks of a grid point are the corresponding slices of the stacked features and of the labels, the
  block's similarities, Jaccard ratios, masks, weights and off-diagonal indicators are the specification's at the global
  row and column, so folding the block in takes the specification's accumulator of that row after cb blocks to the one
  after cb + 1 blocks (from the empty one, at the first column block), and the closing value of the accumulator after all
  eight blocks is the specification's closing value.
-/
import proofs.«178212_j23381801959424_1_alg».proof.Proof.KernelStep
import proofs.«178212_j23381801959424_1_alg».proof.Proof.SpecFacts

namespace Cert.KernelIdeal.Blocks
open Cert Cert.KernelIdeal Cert.KernelIdeal.Gen Cert.KernelIdeal.StepRead Idealize.ShloMosaic Idealize.ShloMosaic.ValueIdx
noncomputable section
set_option maxRecDepth 16384

/-! ## The block data are the specification's

Local row `p` of row block `r` is row `512 r + p`; local column `c` of column block `cb` is column `512 cb + c`. -/

/-- The similarity of the two rows: dividing by the temperature is multiplying by its reciprocal. -/
theorem sims_spec (X0 : Spec.Feat) (r cb : Fin 8) (x0b x1b : Vec Ideal S512x256 .bf16)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (p c : Fin 512) :
    k0_pay10 (F := Ideal) x0b x1b (ix2 p c) = Spec.sim X0 (Spec.colOf r p) (Spec.colOf cb c) := by
  rw [sims_apply]
  unfold Spec.sim
  rw [Spec.tau_val, Ideal.div_coe (by norm_num : (9395241 / 134217728 : ℝ) ≠ 0)]
  refine congrArg₂ (· * ·) (Finset.sum_congr rfl fun d _ => by rw [hx0, hx1]) ?_
  refine congrArg (fun x : ℝ => (x : EReal)) ?_
  norm_num

/-- The Jaccard ratio of the two rows' samples. -/
theorem jaccard_spec (X1 : Spec.Lab) (r cb : Fin 8) (x2b x3b : Vec Ideal S512x80 .f32)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (p c : Fin 512) :
    k0_pay11 (F := Ideal) x2b x3b (ix2 p c)
      = Spec.jaccard X1 (Spec.sampleOf (Spec.colOf r p)) (Spec.sampleOf (Spec.colOf cb c)) := by
  rw [jaccard_apply]
  unfold Spec.jaccard Spec.inter Spec.count Spec.ε
  simp only [hx2, hx3]

/-- The positive-pair mask of the two rows' samples. -/
theorem mask_spec (X1 : Spec.Lab) (r cb : Fin 8) (x2b x3b : Vec Ideal S512x80 .f32)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (p c : Fin 512) :
    k0_pay12 (F := Ideal) x2b x3b (ix2 p c)
      = Spec.mask X1 (Spec.sampleOf (Spec.colOf r p)) (Spec.sampleOf (Spec.colOf cb c)) :=
  (mask_apply x2b x3b p c).trans
    (congrArg (fun J : EReal => (((Ideal.cmp .oge J Spec.θ).toNat : ℝ) : EReal))
      (jaccard_spec X1 r cb x2b x3b hx2 hx3 p c))

/-- The weight of the two rows' samples. -/
theorem weight_spec (X1 : Spec.Lab) (r cb : Fin 8) (x2b x3b : Vec Ideal S512x80 .f32)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (p c : Fin 512) :
    k0_pay13 (F := Ideal) x2b x3b (ix2 p c)
      = Spec.weight X1 (Spec.sampleOf (Spec.colOf r p)) (Spec.sampleOf (Spec.colOf cb c)) :=
  (weight_apply x2b x3b p c).trans
    (congrArg (fun J : EReal => Ideal.div J Spec.θ) (jaccard_spec X1 r cb x2b x3b hx2 hx3 p c))

/-- The off-diagonal indicator of the two rows. -/
theorem offDiag_spec (r cb : Fin 8) (p c : Fin 512) :
    k0_pay14 (F := Ideal) (BitVec.ofNat 32 r.val) (BitVec.ofNat 32 cb.val) (iota .tc S512x512 32 [0] iota_S512x512_d0_w32 : IVec S512x512 32) (ix2 p c)
      = Spec.offDiag (Spec.colOf r p) (Spec.colOf cb c) := by
  rw [offDiag_apply]
  unfold Spec.offDiag
  by_cases h : 512 * r.val + p.val = 512 * cb.val + c.val
  · rw [if_pos h, if_pos (Fin.ext h)]
  · rw [if_neg h, if_neg fun h' => h (Fin.ext_iff.mp h')]

/-! ### Row `p`'s data over the block's columns, as the specification's column block `cb` -/

theorem simBlk_eq (X0 : Spec.Feat) (r cb : Fin 8) (x0b x1b : Vec Ideal S512x256 .bf16)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (p : Fin 512) :
    (fun c : Fin 512 => k0_pay10 (F := Ideal) x0b x1b (ix2 p c)) = Spec.simBlk X0 (Spec.colOf r p) cb.val := by
  funext c
  rw [sims_spec X0 r cb x0b x1b hx0 hx1 p c]
  unfold Spec.simBlk
  rw [dif_pos cb.isLt]

theorem offBlk_eq (r cb : Fin 8) (p : Fin 512) :
    (fun c : Fin 512 => k0_pay14 (F := Ideal) (BitVec.ofNat 32 r.val) (BitVec.ofNat 32 cb.val) (iota .tc S512x512 32 [0] iota_S512x512_d0_w32 : IVec S512x512 32) (ix2 p c))
      = Spec.offBlk (Spec.colOf r p) cb.val := by
  funext c
  rw [offDiag_spec r cb p c]
  unfold Spec.offBlk
  rw [dif_pos cb.isLt]

theorem posBlk_eq (X1 : Spec.Lab) (r cb : Fin 8) (x2b x3b : Vec Ideal S512x80 .f32)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (p : Fin 512) :
    (fun c : Fin 512 => k0_pay12 (F := Ideal) x2b x3b (ix2 p c)
        * k0_pay14 (F := Ideal) (BitVec.ofNat 32 r.val) (BitVec.ofNat 32 cb.val) (iota .tc S512x512 32 [0] iota_S512x512_d0_w32 : IVec S512x512 32) (ix2 p c))
      = Spec.posBlk X1 (Spec.colOf r p) cb.val := by
  funext c
  rw [mask_spec X1 r cb x2b x3b hx2 hx3 p c, offDiag_spec r cb p c]
  unfold Spec.posBlk
  rw [dif_pos cb.isLt]

theorem wgtBlk_eq (X1 : Spec.Lab) (r cb : Fin 8) (x2b x3b : Vec Ideal S512x80 .f32)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (p : Fin 512) :
    (fun c : Fin 512 => k0_pay13 (F := Ideal) x2b x3b (ix2 p c)) = Spec.wgtBlk X1 (Spec.colOf r p) cb.val := by
  funext c
  rw [weight_spec X1 r cb x2b x3b hx2 hx3 p c]
  unfold Spec.wgtBlk
  rw [dif_pos cb.isLt]

/-! ## One column block advances the row's state -/

/-- A state is the one with the given fields. -/
theorem acc_eq_of_fields {A : RowLaw.Acc} {m z a t n : EReal} (hm : m = A.m) (hz : z = A.z) (ha : a = A.a)
    (ht : t = A.t) (hn : n = A.n) : (⟨m, z, a, t, n⟩ : RowLaw.Acc) = A := by
  subst hm hz ha ht hn
  rfl

/-- If the old accumulators at row `p` are the row's state after `cb` column blocks, the five new values are its state
    after `cb + 1`. -/
theorem advance (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    (⟨k0_pay18 (F := Ideal) (k0_pay10 (F := Ideal) x0b x1b) pm (ix2 p (0 : Fin 1)),
      k0_pay17 (F := Ideal) (BitVec.ofNat 32 r.val) (BitVec.ofNat 32 cb.val) (k0_pay10 (F := Ideal) x0b x1b) (iota .tc S512x512 32 [0] iota_S512x512_d0_w32 : IVec S512x512 32) pm pz pm (ix2 p (0 : Fin 1)),
      k0_pay1 (F := Ideal) pa (k0_pay19 (F := Ideal) (BitVec.ofNat 32 r.val) (BitVec.ofNat 32 cb.val) (k0_pay10 (F := Ideal) x0b x1b) (k0_pay12 (F := Ideal) x2b x3b) (k0_pay13 (F := Ideal) x2b x3b) (iota .tc S512x512 32 [0] iota_S512x512_d0_w32 : IVec S512x512 32)) (ix2 p (0 : Fin 1)),
      k0_pay2 (F := Ideal) (k0_pay13 (F := Ideal) x2b x3b) (k0_pay15 (F := Ideal) (BitVec.ofNat 32 r.val) (BitVec.ofNat 32 cb.val) (k0_pay12 (F := Ideal) x2b x3b) (iota .tc S512x512 32 [0] iota_S512x512_d0_w32 : IVec S512x512 32)) pt (ix2 p (0 : Fin 1)),
      k0_pay3 (F := Ideal) (k0_pay15 (F := Ideal) (BitVec.ofNat 32 r.val) (BitVec.ofNat 32 cb.val) (k0_pay12 (F := Ideal) x2b x3b) (iota .tc S512x512 32 [0] iota_S512x512_d0_w32 : IVec S512x512 32)) pn (ix2 p (0 : Fin 1))⟩ : RowLaw.Acc)
      = Spec.rowAcc X0 X1 (Spec.colOf r p) (cb.val + 1) := by
  have hstep : rowStep (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p = Spec.rowAcc X0 X1 (Spec.colOf r p) (cb.val + 1) :=
    congr (congr (congr (congr (congrArg (RowLaw.Acc.step (C := Fin 512)) hold)
      (simBlk_eq X0 r cb x0b x1b hx0 hx1 p)) (offBlk_eq r cb p))
      (posBlk_eq X1 r cb x2b x3b hx2 hx3 p)) (wgtBlk_eq X1 r cb x2b x3b hx2 hx3 p)
  exact (acc_eq_of_fields (step_m (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p) (step_z (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p) (step_a (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p)
    (step_t (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p) (step_n (BitVec.ofNat 32 r.val) (BitVec.ofNat 32 cb.val) (iota .tc S512x512 32 [0] iota_S512x512_d0_w32 : IVec S512x512 32) (k0_pay10 (F := Ideal) x0b x1b) (k0_pay12 (F := Ideal) x2b x3b) (k0_pay13 (F := Ideal) x2b x3b) pm pz pa pt pn p)).trans hstep

/-- Field `m` of the advanced state. -/
theorem advance_m (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    k0_pay18 (F := Ideal) (k0_pay10 (F := Ideal) x0b x1b) pm (ix2 p (0 : Fin 1)) = (Spec.rowAcc X0 X1 (Spec.colOf r p) (cb.val + 1)).m :=
  congrArg RowLaw.Acc.m (advance X0 X1 r cb x0b x1b x2b x3b hx0 hx1 hx2 hx3 pm pz pa pt pn p hold)

/-- Field `z` of the advanced state. -/
theorem advance_z (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    k0_pay17 (F := Ideal) (BitVec.ofNat 32 r.val) (BitVec.ofNat 32 cb.val) (k0_pay10 (F := Ideal) x0b x1b) (iota .tc S512x512 32 [0] iota_S512x512_d0_w32 : IVec S512x512 32) pm pz pm (ix2 p (0 : Fin 1)) = (Spec.rowAcc X0 X1 (Spec.colOf r p) (cb.val + 1)).z :=
  congrArg RowLaw.Acc.z (advance X0 X1 r cb x0b x1b x2b x3b hx0 hx1 hx2 hx3 pm pz pa pt pn p hold)

/-- Field `a` of the advanced state. -/
theorem advance_a (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    k0_pay1 (F := Ideal) pa (k0_pay19 (F := Ideal) (BitVec.ofNat 32 r.val) (BitVec.ofNat 32 cb.val) (k0_pay10 (F := Ideal) x0b x1b) (k0_pay12 (F := Ideal) x2b x3b) (k0_pay13 (F := Ideal) x2b x3b) (iota .tc S512x512 32 [0] iota_S512x512_d0_w32 : IVec S512x512 32)) (ix2 p (0 : Fin 1)) = (Spec.rowAcc X0 X1 (Spec.colOf r p) (cb.val + 1)).a :=
  congrArg RowLaw.Acc.a (advance X0 X1 r cb x0b x1b x2b x3b hx0 hx1 hx2 hx3 pm pz pa pt pn p hold)

/-- Field `t` of the advanced state. -/
theorem advance_t (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    k0_pay2 (F := Ideal) (k0_pay13 (F := Ideal) x2b x3b) (k0_pay15 (F := Ideal) (BitVec.ofNat 32 r.val) (BitVec.ofNat 32 cb.val) (k0_pay12 (F := Ideal) x2b x3b) (iota .tc S512x512 32 [0] iota_S512x512_d0_w32 : IVec S512x512 32)) pt (ix2 p (0 : Fin 1)) = (Spec.rowAcc X0 X1 (Spec.colOf r p) (cb.val + 1)).t :=
  congrArg RowLaw.Acc.t (advance X0 X1 r cb x0b x1b x2b x3b hx0 hx1 hx2 hx3 pm pz pa pt pn p hold)

/-- Field `n` of the advanced state. -/
theorem advance_n (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (pm pz pa pt pn : Vec Ideal S512x1 .f32) (p : Fin 512)
    (hold : (⟨pm (ix2 p (0 : Fin 1)), pz (ix2 p (0 : Fin 1)), pa (ix2 p (0 : Fin 1)), pt (ix2 p (0 : Fin 1)), pn (ix2 p (0 : Fin 1))⟩ : RowLaw.Acc) = Spec.rowAcc X0 X1 (Spec.colOf r p) cb.val) :
    k0_pay3 (F := Ideal) (k0_pay15 (F := Ideal) (BitVec.ofNat 32 r.val) (BitVec.ofNat 32 cb.val) (k0_pay12 (F := Ideal) x2b x3b) (iota .tc S512x512 32 [0] iota_S512x512_d0_w32 : IVec S512x512 32)) pn (ix2 p (0 : Fin 1)) = (Spec.rowAcc X0 X1 (Spec.colOf r p) (cb.val + 1)).n :=
  congrArg RowLaw.Acc.n (advance X0 X1 r cb x0b x1b x2b x3b hx0 hx1 hx2 hx3 pm pz pa pt pn p hold)

/-! ## The first column block starts from the reset values -/

/-- From the reset values, the first column block (`cb = 0`) leaves the row's state after one block. -/
theorem start (X0 : Spec.Feat) (X1 : Spec.Lab) (r cb : Fin 8) (x0b x1b : Vec Ideal S512x256 .bf16) (x2b x3b : Vec Ideal S512x80 .f32)
    (hx0 : ∀ (p : Fin 512) (d : Fin 256), x0b (ix2 p d) = Spec.feat X0 (Spec.colOf r p) d)
    (hx1 : ∀ (c : Fin 512) (d : Fin 256), x1b (ix2 c d) = Spec.feat X0 (Spec.colOf cb c) d)
    (hx2 : ∀ (p : Fin 512) (l : Fin 80), x2b (ix2 p l) = Spec.lab X1 (Spec.sampleOf (Spec.colOf r p)) l)
    (hx3 : ∀ (c : Fin 512) (l : Fin 80), x3b (ix2 c l) = Spec.lab X1 (Spec.sampleOf (Spec.colOf cb c)) l)
    (hcb : cb.val = 0) (p : Fin 512) :
    (⟨k0_pay18 (F := Ideal) (k0_pay10 (F := Ideal) x0b x1b) (k0_pay5 (F := Ideal)) (ix2 p (0 : Fin 1)),
      k0_pay17 (F := Ideal) (BitVec.ofNat 32 r.val) (BitVec.ofNat 32 cb.val) (k0_pay10 (F := Ideal) x0b x1b) (iota .tc S512x512 32 [0] iota_S512x512_d0_w32 : IVec S512x512 32) (k0_pay5 (F := Ideal)) (k0_pay6 (F := Ideal)) (k0_pay5 (F := Ideal)) (ix2 p (0 : Fin 1)),
      k0_pay1 (F := Ideal) (k0_pay7 (F := Ideal)) (k0_pay19 (F := Ideal) (BitVec.ofNat 32 r.val) (BitVec.ofNat 32 cb.val) (k0_pay10 (F := Ideal) x0b x1b) (k0_pay12 (F := Ideal) x2b x3b) (k0_pay13 (F := Ideal) x2b x3b) (iota .tc S512x512 32 [0] iota_S512x512_d0_w32 : IVec S512x512 32)) (ix2 p (0 : Fin 1)),
      k0_pay2 (F := Ideal) (k0_pay13 (F := Ideal) x2b x3b) (k0_pay15 (F := Ideal) (BitVec.ofNat 32 r.val) (BitVec.ofNat 32 cb.val) (k0_pay12 (F := Ideal) x2b x3b) (iota .tc S512x512 32 [0] iota_S512x512_d0_w32 : IVec S512x512 32)) (k0_pay8 (F := Ideal)) (ix2 p (0 : Fin 1)),
      k0_pay3 (F := Ideal) (k0_pay15 (F := Ideal) (BitVec.ofNat 32 r.val) (BitVec.ofNat 32 cb.val) (k0_pay12 (F := Ideal) x2b x3b) (iota .tc S512x512 32 [0] iota_S512x512_d0_w32 : IVec S512x512 32)) (k0_pay9 (F := Ideal)) (ix2 p (0 : Fin 1))⟩ : RowLaw.Acc)
      = Spec.rowAcc X0 X1 (Spec.colOf r p) 1 := by
  have hold : (⟨(k0_pay5 (F := Ideal)) (ix2 p (0 : Fin 1)), (k0_pay6 (F := Ideal)) (ix2 p (0 : Fin 1)), (k0_pay7 (F := Ideal)) (ix2 p (0 : Fin 1)), (k0_pay8 (F := Ideal)) (ix2 p (0 : Fin 1)), (k0_pay9 (F := Ideal)) (ix2 p (0 : Fin 1))⟩ : RowLaw.Acc) = Spec.rowAcc X0 X1 (Spec.colOf r p) cb.val := by
    rw [hcb]
    exact reset_eq_init p
  exact (advance X0 X1 r cb x0b x1b x2b x3b hx0 hx1 hx2 hx3 (k0_pay5 (F := Ideal)) (k0_pay6 (F := Ideal)) (k0_pay7 (F := Ideal))
    (k0_pay8 (F := Ideal)) (k0_pay9 (F := Ideal)) p hold).trans
    (congrArg (Spec.rowAcc X0 X1 (Spec.colOf r p)) (by omega))

/-! ## After the last column block the row closes to the specification's value -/

/-- If the five accumulators at row `p` are row `i`'s state after all eight column blocks, the stored value is the
    state's closing value. -/
theorem close_spec (X0 : Spec.Feat) (X1 : Spec.Lab) (i : Fin 4096) (z a t m n : Vec Ideal S512x1 .f32) (p : Fin 512)
    (h : (⟨m (ix2 p (0 : Fin 1)), z (ix2 p (0 : Fin 1)), a (ix2 p (0 : Fin 1)), t (ix2 p (0 : Fin 1)), n (ix2 p (0 : Fin 1))⟩ : RowLaw.Acc) = Spec.rowAcc X0 X1 i 8) :
    k0_pay4 (F := Ideal) z a t m n (ix2 p (0 : Fin 1)) = (Spec.rowAcc X0 X1 i 8).close Spec.ε :=
  (close_apply z a t m n p).trans (congrArg (fun st : RowLaw.Acc => st.close Spec.ε) h)

end
end Cert.KernelIdeal.Blocks
-- ==== Proof.IdealAccValue.lean ====
/-
  The accumulators after every grid point are the specification's. Point t lies in row block t / 8 and column block
  t % 8. By induction on the point: at a first column block the reset values are the empty accumulator and one block is
  folded in; at any later column block the accumulators the point before left are, by the induction hypothesis, the
  specification's accumulator of the same row after t % 8 blocks, and folding this point's block in gives the one after
  t % 8 + 1 blocks. At a last column block the output block is the closing value of the accumulator after all eight.
-/
import proofs.«178212_j23381801959424_1_alg».proof.Proof.IdealBodyAcc
import proofs.«178212_j23381801959424_1_alg».proof.Proof.IdealPieces
import proofs.«178212_j23381801959424_1_alg».proof.Proof.KernelBlocks

namespace Cert.KernelIdeal.AccValue
open Cert Cert.KernelIdeal Cert.KernelIdeal.Gen Cert.KernelIdeal.Body Cert.KernelIdeal.StepRead Cert.KernelIdeal.Blocks
open Idealize.ShloMosaic Idealize.ShloMosaic.TcCoe Idealize.ShloMosaic.ValueIdx
noncomputable section
set_option maxRecDepth 16384

/-! ## Grid points

Point `t` of the 64 is row block `t / 8`, column block `t % 8`. -/

/-- The row block of grid point `t`. -/
abbrev rowBlk (t : Fin cfg0.N) : Fin 8 := ⟨t.val / 8, by have h := t.isLt; have e : cfg0.N = 64 := N_0; omega⟩
/-- The column block of grid point `t`. -/
abbrev colBlk (t : Fin cfg0.N) : Fin 8 := ⟨t.val % 8, Nat.mod_lt _ (by norm_num)⟩

/-- The grid's coordinates of point `t` are its row block and its column block. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- Row `p` of five accumulators, as the streamed form's state. -/
abbrev accRow (A : Acc5 Ideal) (p : Fin 512) : RowLaw.Acc :=
  ⟨A.1 (ix2 p (0 : Fin 1)), A.2.1 (ix2 p (0 : Fin 1)), A.2.2.1 (ix2 p (0 : Fin 1)), A.2.2.2.1 (ix2 p (0 : Fin 1)),
    A.2.2.2.2 (ix2 p (0 : Fin 1))⟩

section
variable (V : (c : Dev nD) → (b : Ref sig .tc) → Buf (Elt Ideal) ((c : Thread nD τ).loc b)) (c : Dev nD)
  (X0 : Spec.Feat) (X1 : Spec.Lab)
  (hV2 : ∀ (i : Fin 4096) (d : Fin 256), V c main_v2 (ix2 i d) = Spec.feat X0 i d)
  (hV3 : ∀ (a : Fin 2048) (l : Fin 80), V c main_v3 (ix2 a l) = Spec.lab X1 a l)
  (hb0 : ∀ (t : Fin cfg0.N) (p : Fin 512) (d : Fin 256),
    (iblk V c 0 t : Vec Ideal S512x256 .bf16) (ix2 p d) = V c main_v2 (ix2 (Spec.colOf (rowBlk t) p) d))
  (hb1 : ∀ (t : Fin cfg0.N) (q : Fin 512) (d : Fin 256),
    (iblk V c 1 t : Vec Ideal S512x256 .bf16) (ix2 q d) = V c main_v2 (ix2 (Spec.colOf (colBlk t) q) d))
  (hb2 : ∀ (t : Fin cfg0.N) (p : Fin 512) (l : Fin 80),
    (iblk V c 2 t : Vec Ideal S512x80 .f32) (ix2 p l) = V c main_v3 (ix2 (Spec.sampleOf (Spec.colOf (rowBlk t) p)) l))
  (hb3 : ∀ (t : Fin cfg0.N) (q : Fin 512) (l : Fin 80),
    (iblk V c 3 t : Vec Ideal S512x80 .f32) (ix2 q l) = V c main_v3 (ix2 (Spec.sampleOf (Spec.colOf (colBlk t) q)) l))
include hV2 hV3 hb0 hb1 hb2 hb3

/-- From the reset values, a first column block leaves the row's state after one block. -/
theorem first_spec (t : Fin cfg0.N) (h0 : t.val % 8 = 0) (p : Fin 512) :
    accRow (accAt V c t.val t.isLt) p = Spec.rowAcc X0 X1 (Spec.colOf (rowBlk t) p) 1 := by
  have h1 : ¬t.val % 8 = 7 := by omega
  have hc := coords_val t
  have hr : ((grid0.coords t) 0 : Fin 8) = rowBlk t := Fin.ext hc.1
  have hcb : ((grid0.coords t) 1 : Fin 8) = colBlk t := Fin.ext hc.2
  have hx0 : ∀ (p : Fin 512) (d : Fin 256), (iblk V c 0 t : Vec Ideal S512x256 .bf16) (ix2 p d) = Spec.feat X0 (Spec.colOf ((grid0.coords t) 0 : Fin 8) p) d := by
    rw [hr]; exact fun p d => (hb0 t p d).trans (hV2 _ d)
  have hx1 : ∀ (q : Fin 512) (d : Fin 256), (iblk V c 1 t : Vec Ideal S512x256 .bf16) (ix2 q d) = Spec.feat X0 (Spec.colOf ((grid0.coords t) 1 : Fin 8) q) d := by
    rw [hcb]; exact fun q d => (hb1 t q d).trans (hV2 _ d)
  have hx2 : ∀ (p : Fin 512) (l : Fin 80), (iblk V c 2 t : Vec Ideal S512x80 .f32) (ix2 p l) = Spec.lab X1 (Spec.sampleOf (Spec.colOf ((grid0.coords t) 0 : Fin 8) p)) l := by
    rw [hr]; exact fun p l => (hb2 t p l).trans (hV3 _ l)
  have hx3 : ∀ (q : Fin 512) (l : Fin 80), (iblk V c 3 t : Vec Ideal S512x80 .f32) (ix2 q l) = Spec.lab X1 (Spec.sampleOf (Spec.colOf ((grid0.coords t) 1 : Fin 8) q)) l := by
    rw [hcb]; exact fun q l => (hb3 t q l).trans (hV3 _ l)
  rw [accAt_first V c t h0 h1]
  unfold stepFirst
  rw [accFirst_0_eq, accFirst_1_eq, accFirst_2_eq, accFirst_3_eq, accFirst_4_eq]
  exact (Blocks.start X0 X1 ((grid0.coords t) 0 : Fin 8) ((grid0.coords t) 1 : Fin 8) (iblk V c 0 t : Vec Ideal S512x256 .bf16) (iblk V c 1 t : Vec Ideal S512x256 .bf16) (iblk V c 2 t : Vec Ideal S512x80 .f32) (iblk V c 3 t : Vec Ideal S512x80 .f32) hx0 hx1 hx2 hx3 (hc.2.trans h0) p).trans
    (congrArg (fun r : Fin 8 => Spec.rowAcc X0 X1 (Spec.colOf r p) 1) hr)

/-- A later column block advances the row's state by one block, from what the point before left. -/
theorem next_spec (t : Fin cfg0.N) (h0 : ¬t.val % 8 = 0) (p : Fin 512)
    (ih : accRow (accAt V c (t.val - 1) (Nat.lt_of_le_of_lt (Nat.sub_le _ _) t.isLt)) p
      = Spec.rowAcc X0 X1 (Spec.colOf (rowBlk t) p) (t.val % 8)) :
    accRow (accAt V c t.val t.isLt) p = Spec.rowAcc X0 X1 (Spec.colOf (rowBlk t) p) (t.val % 8 + 1) := by
  have hc := coords_val t
  have hr : ((grid0.coords t) 0 : Fin 8) = rowBlk t := Fin.ext hc.1
  have hcb : ((grid0.coords t) 1 : Fin 8) = colBlk t := Fin.ext hc.2
  have hx0 : ∀ (p : Fin 512) (d : Fin 256), (iblk V c 0 t : Vec Ideal S512x256 .bf16) (ix2 p d) = Spec.feat X0 (Spec.colOf ((grid0.coords t) 0 : Fin 8) p) d := by
    rw [hr]; exact fun p d => (hb0 t p d).trans (hV2 _ d)
  have hx1 : ∀ (q : Fin 512) (d : Fin 256), (iblk V c 1 t : Vec Ideal S512x256 .bf16) (ix2 q d) = Spec.feat X0 (Spec.colOf ((grid0.coords t) 1 : Fin 8) q) d := by
    rw [hcb]; exact fun q d => (hb1 t q d).trans (hV2 _ d)
  have hx2 : ∀ (p : Fin 512) (l : Fin 80), (iblk V c 2 t : Vec Ideal S512x80 .f32) (ix2 p l) = Spec.lab X1 (Spec.sampleOf (Spec.colOf ((grid0.coords t) 0 : Fin 8) p)) l := by
    rw [hr]; exact fun p l => (hb2 t p l).trans (hV3 _ l)
  have hx3 : ∀ (q : Fin 512) (l : Fin 80), (iblk V c 3 t : Vec Ideal S512x80 .f32) (ix2 q l) = Spec.lab X1 (Spec.sampleOf (Spec.colOf ((grid0.coords t) 1 : Fin 8) q)) l := by
    rw [hcb]; exact fun q l => (hb3 t q l).trans (hV3 _ l)
  have hold := ih.trans (congrArg₂ (fun (r : Fin 8) (k : ℕ) => Spec.rowAcc X0 X1 (Spec.colOf r p) k) hr.symm hc.2.symm)
  have hnew := congrArg₂ (fun (r : Fin 8) (k : ℕ) => Spec.rowAcc X0 X1 (Spec.colOf r p) (k + 1)) hr hc.2
  by_cases h1 : t.val % 8 = 7
  · rw [accAt_last V c t h0 h1]
    unfold stepLast
    rw [accLast_0_eq, accLast_1_eq, accLast_2_eq, accLast_3_eq, accLast_4_eq]
    exact (Blocks.advance X0 X1 ((grid0.coords t) 0 : Fin 8) ((grid0.coords t) 1 : Fin 8) (iblk V c 0 t : Vec Ideal S512x256 .bf16) (iblk V c 1 t : Vec Ideal S512x256 .bf16) (iblk V c 2 t : Vec Ideal S512x80 .f32) (iblk V c 3 t : Vec Ideal S512x80 .f32) hx0 hx1 hx2 hx3 _ _ _ _ _ p hold).trans hnew
  · rw [accAt_mid V c t h0 h1]
    unfold stepMid
    rw [accMid_0_eq, accMid_1_eq, accMid_2_eq, accMid_3_eq, accMid_4_eq]
    exact (Blocks.advance X0 X1 ((grid0.coords t) 0 : Fin 8) ((grid0.coords t) 1 : Fin 8) (iblk V c 0 t : Vec Ideal S512x256 .bf16) (iblk V c 1 t : Vec Ideal S512x256 .bf16) (iblk V c 2 t : Vec Ideal S512x80 .f32) (iblk V c 3 t : Vec Ideal S512x80 .f32) hx0 hx1 hx2 hx3 _ _ _ _ _ p hold).trans hnew

/-- The accumulators after the body at position `n` hold, at each row, the row's state after `n % 8 + 1` column
    blocks. -/
theorem accAt_spec_aux (n : ℕ) : ∀ (hn : n < cfg0.N) (p : Fin 512),
    accRow (accAt V c n hn) p = Spec.rowAcc X0 X1 (Spec.colOf (rowBlk ⟨n, hn⟩) p) (n % 8 + 1) := by
  induction n with
  | zero =>
    intro hn p
    exact first_spec V c X0 X1 hV2 hV3 hb0 hb1 hb2 hb3 ⟨0, hn⟩ rfl p
  | succ m ih =>
    intro hn p
    by_cases h0 : (m + 1) % 8 = 0
    · exact (first_spec V c X0 X1 hV2 hV3 hb0 hb1 hb2 hb3 ⟨m + 1, hn⟩ h0 p).trans
        (congrArg (Spec.rowAcc X0 X1 (Spec.colOf (rowBlk ⟨m + 1, hn⟩) p)) (by omega))
    · have hm : m < cfg0.N := Nat.lt_of_succ_lt hn
      refine next_spec V c X0 X1 hV2 hV3 hb0 hb1 hb2 hb3 ⟨m + 1, hn⟩ h0 p ?_
      exact (ih hm p).trans (congrArg₂ (fun (r : Fin 8) (k : ℕ) => Spec.rowAcc X0 X1 (Spec.colOf r p) k)
        (Fin.ext (by show m / 8 = (m + 1) / 8; omega)) (by show m % 8 + 1 = (m + 1) % 8; omega))

/-- After grid point `t` the five accumulators hold, at row `p`, row `512 (t / 8) + p`'s state after `t % 8 + 1`
    column blocks. -/
theorem accAt_spec (t : Fin cfg0.N) (p : Fin 512) :
    (⟨(accAt V c t.val t.isLt).1 (ix2 p (0 : Fin 1)), (accAt V c t.val t.isLt).2.1 (ix2 p (0 : Fin 1)),
      (accAt V c t.val t.isLt).2.2.1 (ix2 p (0 : Fin 1)), (accAt V c t.val t.isLt).2.2.2.1 (ix2 p (0 : Fin 1)),
      (accAt V c t.val t.isLt).2.2.2.2 (ix2 p (0 : Fin 1))⟩ : RowLaw.Acc)
      = Spec.rowAcc X0 X1 (Spec.colOf (rowBlk t) p) (t.val % 8 + 1) :=
  accAt_spec_aux V c X0 X1 hV2 hV3 hb0 hb1 hb2 hb3 t.val t.isLt p

/-- At a last column block the output block holds, at row `p`, the closing value of the row's state after all eight
    column blocks. -/
theorem outAt_spec (t : Fin cfg0.N) (h7 : t.val % 8 = 7) (p : Fin 512) :
    outAt V c t (ix2 p (0 : Fin 1)) = (Spec.rowAcc X0 X1 (Spec.colOf (rowBlk t) p) 8).close Spec.ε := by
  have h0 : ¬t.val % 8 = 0 := by omega
  have hc := coords_val t
  have hr : ((grid0.coords t) 0 : Fin 8) = rowBlk t := Fin.ext hc.1
  have hcb : ((grid0.coords t) 1 : Fin 8) = colBlk t := Fin.ext hc.2
  have hx0 : ∀ (p : Fin 512) (d : Fin 256), (iblk V c 0 t : Vec Ideal S512x256 .bf16) (ix2 p d) = Spec.feat X0 (Spec.colOf ((grid0.coords t) 0 : Fin 8) p) d := by
    rw [hr]; exact fun p d => (hb0 t p d).trans (hV2 _ d)
  have hx1 : ∀ (q : Fin 512) (d : Fin 256), (iblk V c 1 t : Vec Ideal S512x256 .bf16) (ix2 q d) = Spec.feat X0 (Spec.colOf ((grid0.coords t) 1 : Fin 8) q) d := by
    rw [hcb]; exact fun q d => (hb1 t q d).trans (hV2 _ d)
  have hx2 : ∀ (p : Fin 512) (l : Fin 80), (iblk V c 2 t : Vec Ideal S512x80 .f32) (ix2 p l) = Spec.lab X1 (Spec.sampleOf (Spec.colOf ((grid0.coords t) 0 : Fin 8) p)) l := by
    rw [hr]; exact fun p l => (hb2 t p l).trans (hV3 _ l)
  have hx3 : ∀ (q : Fin 512) (l : Fin 80), (iblk V c 3 t : Vec Ideal S512x80 .f32) (ix2 q l) = Spec.lab X1 (Spec.sampleOf (Spec.colOf ((grid0.coords t) 1 : Fin 8) q)) l := by
    rw [hcb]; exact fun q l => (hb3 t q l).trans (hV3 _ l)
  have hlt : t.val - 1 < cfg0.N := Nat.lt_of_le_of_lt (Nat.sub_le _ _) t.isLt
  have hprev := accAt_spec_aux V c X0 X1 hV2 hV3 hb0 hb1 hb2 hb3 (t.val - 1) hlt p
  have hold := hprev.trans (congrArg₂ (fun (r : Fin 8) (k : ℕ) => Spec.rowAcc X0 X1 (Spec.colOf r p) k)
    (show rowBlk ⟨t.val - 1, hlt⟩ = ((grid0.coords t) 0 : Fin 8) from Fin.ext (by show (t.val - 1) / 8 = ((grid0.coords t) 0).val; rw [hc.1]; omega))
    (show (t.val - 1) % 8 + 1 = ((grid0.coords t) 1).val by rw [hc.2]; omega))
  have hnew := congrArg₂ (fun (r : Fin 8) (k : ℕ) => Spec.rowAcc X0 X1 (Spec.colOf r p) k) hr
    (show ((grid0.coords t) 1).val + 1 = 8 by rw [hc.2]; omega)
  rw [outAt_last V c t h0 h7]
  unfold outBlock
  rw [outLast_eq]
  exact Blocks.close_spec X0 X1 (Spec.colOf (rowBlk t) p) _ _ _ _ _ p
    ((Blocks.advance X0 X1 ((grid0.coords t) 0 : Fin 8) ((grid0.coords t) 1 : Fin 8) (iblk V c 0 t : Vec Ideal S512x256 .bf16) (iblk V c 1 t : Vec Ideal S512x256 .bf16) (iblk V c 2 t : Vec Ideal S512x80 .f32) (iblk V c 3 t : Vec Ideal S512x80 .f32) hx0 hx1 hx2 hx3 _ _ _ _ _ p hold).trans hnew)

end

end
end Cert.KernelIdeal.AccValue
-- ==== Proof.IdealValue.lean ====
/-
  The value of the kernel program's run. At the region's entry the stacked features and the converted labels are the
  one-function form's `feat` and `lab` of the two arguments; the region leaves, on every row, the whole-row value (the
  row block's last column block's point writes the streamed rows' closing value, which is the whole-row value when the
  features are real numbers); the host operations after it make the loss of it. Hence the run ends with the result buffer
  at the loss of the arguments as launched, and both arguments as launched.
-/
import proofs.«178212_j23381801959424_1_alg».proof.Proof.IdealFrame
import proofs.«178212_j23381801959424_1_alg».proof.Proof.IdealBlocksAt
import proofs.«178212_j23381801959424_1_alg».proof.Proof.KernelHostRead
import proofs.«178212_j23381801959424_1_alg».proof.Proof.SpecFacts
import proofs.«178212_j23381801959424_1_alg».proof.Proof.IdealAccValue

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## At the region's entry -/

/-- The stacked features at entry are the rows' coordinates of the first argument. -/
theorem entry_v2 (c : Dev nD) (i : Fin 4096) (d : Fin 256) :
    V1 m ρ c main_v2 (ix2 i d) = Spec.feat (m ((c.tc : Thread nD τ).loc main_arg0)) i d :=
  HostRead.stacked_apply (W0 m ρ c) i d

/-- The converted labels at entry are the second argument's, read exactly. -/
theorem entry_v3 (c : Dev nD) (a : Fin 2048) (l : Fin 80) :
    V1 m ρ c main_v3 (ix2 a l) = Spec.lab (m ((c.tc : Thread nD τ).loc main_arg1)) a l :=
  HostRead.labels_apply (W0 m ρ c) a l

/-! ## At the region's exit -/

/-- A row is column `i % 512` of row block `i / 512`. -/
theorem colOf_rowOf (i : Fin 4096) : Spec.colOf (AccValue.rowBlk (lastPt (rowOf i))) (inBlk i) = i := by
  have hi := i.isLt
  refine Fin.ext ?_
  show 512 * ((8 * (i.val / 512) + 7) / 8) + i.val % 512 = i.val
  omega

/-- The region leaves every row's whole-row value, when the features are real numbers. -/
theorem out_row (c : Dev nD) (hx : ∀ k, ∃ r : ℝ, m ((c.tc : Thread nD τ).loc main_arg0) k = (r : EReal)) (i : Fin 4096) :
    W2 m ρ c (Proc.devRef .tc main_v4) (ix2 i (0 : Fin 1))
      = Spec.row (m ((c.tc : Thread nD τ).loc main_arg0)) (m ((c.tc : Thread nD τ).loc main_arg1)) i := by
  rw [W2_out, arrAt_out,
    AccValue.outAt_spec (V1 m ρ) c (m ((c.tc : Thread nD τ).loc main_arg0)) (m ((c.tc : Thread nD τ).loc main_arg1))
      (entry_v2 m ρ c) (entry_v3 m ρ c) (iblk0_eq (V1 m ρ) c) (iblk1_eq (V1 m ρ) c) (iblk2_eq (V1 m ρ) c)
      (iblk3_eq (V1 m ρ) c) (lastPt (rowOf i)) (by show (8 * (i.val / 512) + 7) % 8 = 7; omega) (inBlk i),
    colOf_rowOf, ← Spec.row_eq_rowAcc _ _ hx i]

/-! ## The result -/

/-- After the last host operations the result buffer holds the loss of the two arguments. -/
theorem result (c : Dev nD) (hx : ∀ k, ∃ r : ℝ, m ((c.tc : Thread nD τ).loc main_arg0) k = (r : EReal)) :
    W3 m ρ c (Proc.devRef .tc main_v10)
      = fun _ => Spec.loss (m ((c.tc : Thread nD τ).loc main_arg0)) (m ((c.tc : Thread nD τ).loc main_arg1)) :=
  HostRead.result_eq_loss (W2 m ρ c) _ _ (out_row m ρ c hx)

/-- THE VALUE RUN: every weakly fair execution of @main terminates, nothing faulting, with the result buffer at the loss
    of the arguments as launched and both arguments as launched. -/
theorem run_value (m : (ℓ : Loc nD τ sig) → Buf (Elt Ideal) ℓ) (ρ : Dev nD → PrngReg)
    (hx : ∀ c : Dev nD, ∀ k, ∃ r : ℝ, m ((c.tc : Thread nD τ).loc main_arg0) k = (r : EReal)) :
    θ_run (defs (F := Ideal)) (onTc (τ := τ) (main (F := Ideal))) ⟨m, fun _ => 0, ρ⟩ (fun r => ∀ c : Dev nD,
      r.2.mem ((c.tc : Thread nD τ).loc main_v10)
          = (fun _ => Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v10 (by decide))).trans (result m ρ c (hx c)),
     (h c _ (mem_uc main_arg0 (by decide))).trans (W3_main_arg0 m ρ c),
     (h c _ (mem_uc main_arg1 (by decide))).trans (W3_main_arg1 m ρ c)⟩)
    (run_all m ρ)

end Cert.KernelIdeal.Body

end
-- ==== Proof.RefSide.lean ====
/-
  The reference program's result, read: each stage of its @main at an index is the corresponding quantity of the
  one-function form (label overlaps and counts, the Jaccard index, mask and weight; the tiled forms at a pair of rows;
  the similarity, the row maximum, the off-diagonal indicator), a row's stage is the whole-row value, and the last
  stage is the loss.
-/
import proofs.«178212_j23381801959424_1_alg».proof.Proof.RefRead
import proofs.«178212_j23381801959424_1_alg».proof.Proof.SpecFacts

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The features, as the reference's first argument. -/
abbrev X0 : Type := (⟨S2048x2x256, .f32⟩ : BufTy).Contents (Elt Ideal)
/-- The labels, as the reference's second argument. -/
abbrev X1 : Type := (⟨S2048x80, .i32⟩ : BufTy).Contents (Elt Ideal)

/-! ## A pair of samples -/

theorem v4_eq (x1 : X1) (a b : Fin 2048) : val_main_v4 (F := Ideal) x1 (ix2 a b) = Spec.inter x1 a b := by
  rw [val_main_v4_apply]
  unfold Spec.inter
  refine Finset.sum_congr rfl fun k _ => ?_
  rw [val_main_v3_apply]
  have e1 : lidx_main_v4 (ix2 a b) k = ix2 a k := by
    funext d; match d with | ⟨0, _⟩ => rfl | ⟨1, _⟩ => rfl
  have e2 : idx_main_v3 (ridx_main_v4 (ix2 a b) k) = ix2 b k := by
    funext d; match d with | ⟨0, _⟩ => rfl | ⟨1, _⟩ => rfl
  rw [e1, e2]
  rfl

theorem v5_eq (x1 : X1) (a : Fin 2048) : val_main_v5 (F := Ideal) x1 (ix1 a) = Spec.count x1 a := by
  rw [val_main_v5_apply, val_main_cst_apply, Ideal.ofBits_def, Ideal.ofBits_zero_f32, zero_add]
  unfold Spec.count
  refine Finset.sum_congr rfl fun k _ => ?_
  have e : idx_main_v5 (ix1 a) k = ix2 a k := by
    funext d; match d with | ⟨0, _⟩ => rfl | ⟨1, _⟩ => rfl
  rw [e]
  rfl

theorem v13_eq (x1 : X1) (a b : Fin 2048) :
    val_main_v13 (F := Ideal) x1 (ix2 a b) = Spec.count x1 a + Spec.count x1 b - Spec.inter x1 a b + Spec.ε := by
  rw [val_main_v13_apply, val_main_v11_apply, val_main_v10_apply, val_main_v8_apply, val_main_v9_apply,
    val_main_v7_apply, val_main_v6_apply, val_main_v6_apply, val_main_v12_apply, val_main_cst_0_apply, v4_eq]
  have e1 : idx_main_v6 (idx_main_v8 (ix2 a b)) = ix1 a := by
    funext d; match d with | ⟨0, _⟩ => rfl
  have e2 : idx_main_v6 (idx_main_v7 (idx_main_v9 (ix2 a b))) = ix1 b := by
    funext d; match d with | ⟨0, _⟩ => rfl
  rw [e1, e2, v5_eq, v5_eq]
  rfl

theorem v14_eq (x1 : X1) (a b : Fin 2048) : val_main_v14 (F := Ideal) x1 (ix2 a b) = Spec.jaccard x1 a b := by
  rw [val_main_v14_apply, v4_eq, v13_eq]
  rfl

theorem v17_eq (x1 : X1) (a b : Fin 2048) : val_main_v17 (F := Ideal) x1 (ix2 a b) = Spec.mask x1 a b := by
  rw [val_main_v17_apply, val_main_v16_apply, v14_eq, val_main_v15_apply, val_main_cst_1_apply]
  rfl

theorem v19_eq (x1 : X1) (a b : Fin 2048) : val_main_v19 (F := Ideal) x1 (ix2 a b) = Spec.weight x1 a b := by
  rw [val_main_v19_apply, v14_eq, val_main_v18_apply, val_main_cst_2_apply]
  rfl

/-! ## A pair of rows: the pair quantities, tiled over the two views -/

theorem tile_idx (i j : Fin 4096) :
    idx_main_v20 (idx_main_v21 (idx_main_v22 (ix2 i j))) = ix2 (Spec.sampleOf i) (Spec.sampleOf j) := by
  have hi := i.isLt
  have hj := j.isLt
  funext d
  match d with
  | ⟨0, _⟩ => exact Fin.ext (by
      show ((((0 : ℕ) * 2048 + (i.val * 4096 + j.val) / 4096 % 2048) * 1 + 0) * 2048
        + (i.val * 4096 + j.val) % 2048) / 2048 = i.val % 2048
      omega)
  | ⟨1, _⟩ => exact Fin.ext (by
      show ((((0 : ℕ) * 2048 + (i.val * 4096 + j.val) / 4096 % 2048) * 1 + 0) * 2048
        + (i.val * 4096 + j.val) % 2048) % 2048 = j.val % 2048
      omega)

theorem tile_idx' (i j : Fin 4096) :
    idx_main_v23 (idx_main_v24 (idx_main_v25 (ix2 i j))) = ix2 (Spec.sampleOf i) (Spec.sampleOf j) := by
  have hi := i.isLt
  have hj := j.isLt
  funext d
  match d with
  | ⟨0, _⟩ => exact Fin.ext (by
      show ((((0 : ℕ) * 2048 + (i.val * 4096 + j.val) / 4096 % 2048) * 1 + 0) * 2048
        + (i.val * 4096 + j.val) % 2048) / 2048 = i.val % 2048
      omega)
  | ⟨1, _⟩ => exact Fin.ext (by
      show ((((0 : ℕ) * 2048 + (i.val * 4096 + j.val) / 4096 % 2048) * 1 + 0) * 2048
        + (i.val * 4096 + j.val) % 2048) % 2048 = j.val % 2048
      omega)

theorem v22_eq (x1 : X1) (i j : Fin 4096) :
    val_main_v22 (F := Ideal) x1 (ix2 i j) = Spec.mask x1 (Spec.sampleOf i) (Spec.sampleOf j) := by
  rw [val_main_v22_apply, val_main_v21_apply, val_main_v20_apply, tile_idx, v17_eq]

theorem v25_eq (x1 : X1) (i j : Fin 4096) :
    val_main_v25 (F := Ideal) x1 (ix2 i j) = Spec.weight x1 (Spec.sampleOf i) (Spec.sampleOf j) := by
  rw [val_main_v25_apply, val_main_v24_apply, val_main_v23_apply, tile_idx', v19_eq]

/-! ## The similarity of two rows -/

theorem feat_idx (r : Fin 4096) (d : Fin 256) :
    idx_main_v0 (idx_main_v1 (ix2 r d)) = ix3 (Spec.sampleOf r) (Spec.viewOf r) d := by
  have hr := r.isLt
  have hd := d.isLt
  funext a
  match a with
  | ⟨0, _⟩ => exact Fin.ext (by show (r.val * 256 + d.val) / 256 % 2048 = r.val % 2048; omega)
  | ⟨1, _⟩ => exact Fin.ext (by show (r.val * 256 + d.val) / 524288 = r.val / 2048; omega)
  | ⟨2, _⟩ => exact Fin.ext (by show (r.val * 256 + d.val) % 256 = d.val; omega)

theorem v1_eq (x0 : X0) (r : Fin 4096) (d : Fin 256) : val_main_v1 (F := Ideal) x0 (ix2 r d) = Spec.feat x0 r d := by
  rw [val_main_v1_apply, val_main_v0_apply, feat_idx]
  rfl

theorem v29_eq (x0 : X0) (i j : Fin 4096) : val_main_v29 (F := Ideal) x0 (ix2 i j) = Spec.sim x0 i j := by
  rw [val_main_v29_apply, val_main_v27_apply, val_main_v28_apply, val_main_cst_3_apply]
  have e : ∀ k : Fin 256, val_main_v1 (F := Ideal) x0 (lidx_main_v27 (ix2 i j) k)
      * val_main_v26 (F := Ideal) x0 (ridx_main_v27 (ix2 i j) k) = Spec.feat x0 i k * Spec.feat x0 j k := by
    intro k
    rw [val_main_v26_apply]
    have e1 : lidx_main_v27 (ix2 i j) k = ix2 i k := by
      funext d; match d with | ⟨0, _⟩ => rfl | ⟨1, _⟩ => rfl
    have e2 : idx_main_v26 (ridx_main_v27 (ix2 i j) k) = ix2 j k := by
      funext d; match d with | ⟨0, _⟩ => rfl | ⟨1, _⟩ => rfl
    rw [e1, e2, v1_eq, v1_eq]
  simp only [e]
  rfl

/-! ## The row maximum -/

theorem v30_eq (x0 : X0) (i : Fin 4096) :
    val_main_v30 (F := Ideal) x0 (ix1 i) = Finset.univ.fold max ⊥ (fun j : Fin 4096 => Spec.sim x0 i j) := by
  have h : S4096x4096.Reduces [1] S4096 := by decide
  unfold val_main_v30
  rw [Host.reduce_eq_fold_single FloatOps.maximumf _ _ reducesTo_S4096x4096_S4096_d1 h h_S_,
    val_main_cst_4_apply, Ideal.ofBits_def, Spec.negInf_val]
  have e : (val_main_v29 (F := Ideal) x0 ∘ h.lift (ix1 i)) = fun j : Fin 4096 => Spec.sim x0 i j := by
    refine funext fun (k : Fin 4096) => ?_
    have e1 : h.lift (ix1 i) k = ix2 i k := by
      funext d; match d with | ⟨0, _⟩ => rfl | ⟨1, _⟩ => rfl
    show val_main_v29 (F := Ideal) x0 (h.lift (ix1 i) k) = _
    rw [e1, v29_eq]
  rw [e]
  rfl

/-! ## Off the diagonal -/

theorem v41_eq (i j : Fin 4096) : val_main_v41 (F := Ideal) (ix2 i j) = Spec.offDiag i j := by
  rw [val_main_v41_apply, val_main_v40_apply, val_main_cst_5_apply, val_main_v39_apply, val_main_v38_apply,
    val_main_v37_apply, val_main_v34_apply, val_main_v36_apply, val_main_c_apply, val_main_v35_apply,
    Ideal.ofBits_def, Spec.one_val]
  show (1 : EReal)
      - (((IntOp.cmpi .eq (IntOp.addi (BitVec.ofNat 32 i.val) 0#32) (BitVec.ofNat 32 j.val)).toNat : ℝ) : EReal)
    = Spec.offDiag i j
  unfold Spec.offDiag
  by_cases h : i = j
  · subst h
    have hc : IntOp.cmpi .eq (IntOp.addi (BitVec.ofNat 32 i.val) 0#32) (BitVec.ofNat 32 i.val) = 1#1 :=
      IntOp.cmpi_eq.2 (by simp [IntOp.addi])
    rw [hc, if_pos rfl]
    have h11 : (1 : EReal) - 1 = 0 := by rw [← EReal.coe_one, ← EReal.coe_sub, sub_self, EReal.coe_zero]
    simpa using h11
  · have hc : IntOp.cmpi .eq (IntOp.addi (BitVec.ofNat 32 i.val) 0#32) (BitVec.ofNat 32 j.val) = 0#1 := by
      refine eq_zero_of_ne_one fun h1 => h (Fin.ext ?_)
      have h2 := congrArg BitVec.toNat (IntOp.cmpi_eq.1 h1)
      have hi := i.isLt
      have hj := j.isLt
      simp [IntOp.addi] at h2
      omega
    rw [hc, if_neg h]
    simp

/-! ## A row -/

theorem v33_eq (x0 : X0) (i j : Fin 4096) :
    val_main_v33 (F := Ideal) x0 (ix2 i j) = Spec.sim x0 i j - Finset.univ.fold max ⊥ (fun k : Fin 4096 => Spec.sim x0 i k) := by
  rw [val_main_v33_apply, v29_eq, val_main_v32_apply, val_main_v31_apply]
  have e : idx_main_v31 (idx_main_v32 (ix2 i j)) = ix1 i := by
    funext d; match d with | ⟨0, _⟩ => rfl
  rw [e, v30_eq]
  rfl

theorem v44_eq (x0 : X0) (i j : Fin 4096) :
    val_main_v44 (F := Ideal) x0 (ix2 i j)
      = Ideal.exp (Spec.sim x0 i j - Finset.univ.fold max ⊥ (fun k : Fin 4096 => Spec.sim x0 i k)) * Spec.offDiag i j := by
  rw [val_main_v44_apply, val_main_v43_apply, v33_eq, v41_eq]
  rfl

theorem v45_eq (x0 : X0) (i : Fin 4096) :
    val_main_v45 (F := Ideal) x0 (ix1 i)
      = 0 + ∑ j : Fin 4096,
          Ideal.exp (Spec.sim x0 i j - Finset.univ.fold max ⊥ (fun k : Fin 4096 => Spec.sim x0 i k)) * Spec.offDiag i j := by
  rw [val_main_v45_apply, val_main_cst_6_apply, Ideal.ofBits_def, Ideal.ofBits_zero_f32]
  refine congrArg (0 + ·) (Finset.sum_congr rfl fun k _ => ?_)
  have e : idx_main_v45 (ix1 i) k = ix2 i k := by
    funext d; match d with | ⟨0, _⟩ => rfl | ⟨1, _⟩ => rfl
  rw [e, v44_eq]

theorem v50_eq (x0 : X0) (i j : Fin 4096) :
    val_main_v50 (F := Ideal) x0 (ix2 i j)
      = Ideal.log (0 + ∑ j : Fin 4096,
          Ideal.exp (Spec.sim x0 i j - Finset.univ.fold max ⊥ (fun k : Fin 4096 => Spec.sim x0 i k)) * Spec.offDiag i j + Spec.ε) := by
  rw [val_main_v50_apply, val_main_v49_apply, val_main_v48_apply, val_main_v46_apply, val_main_v47_apply,
    val_main_cst_7_apply]
  have e : idx_main_v46 (idx_main_v50 (ix2 i j)) = ix1 i := by
    funext d; match d with | ⟨0, _⟩ => rfl
  rw [e, v45_eq]
  rfl

theorem v42_eq (x1 : X1) (i j : Fin 4096) :
    val_main_v42 (F := Ideal) x1 (ix2 i j) = Spec.mask x1 (Spec.sampleOf i) (Spec.sampleOf j) * Spec.offDiag i j := by
  rw [val_main_v42_apply, v22_eq, v41_eq]
  rfl

theorem v53_eq (x0 : X0) (x1 : X1) (i j : Fin 4096) :
    val_main_v53 (F := Ideal) x0 x1 (ix2 i j)
      = Spec.mask x1 (Spec.sampleOf i) (Spec.sampleOf j) * Spec.offDiag i j
          * (Spec.sim x0 i j - Finset.univ.fold max ⊥ (fun k : Fin 4096 => Spec.sim x0 i k)
              - Ideal.log (0 + ∑ j : Fin 4096,
                  Ideal.exp (Spec.sim x0 i j - Finset.univ.fold max ⊥ (fun k : Fin 4096 => Spec.sim x0 i k)) * Spec.offDiag i j + Spec.ε))
          * Spec.weight x1 (Spec.sampleOf i) (Spec.sampleOf j) := by
  rw [val_main_v53_apply, val_main_v52_apply, v42_eq, val_main_v51_apply, v33_eq, v50_eq, v25_eq]
  rfl

/-- The reference's row stage is the whole-row value. -/
theorem v58_eq (x0 : X0) (x1 : X1) (i : Fin 4096) : val_main_v58 (F := Ideal) x0 x1 (ix1 i) = Spec.row x0 x1 i := by
  rw [val_main_v58_apply, val_main_v54_apply, val_main_v57_apply, val_main_v55_apply, val_main_v56_apply,
    val_main_cst_8_apply, val_main_cst_9_apply, val_main_cst_10_apply, Ideal.ofBits_def, Ideal.ofBits_def,
    Ideal.ofBits_zero_f32]
  have e1 : ∀ k : Fin 4096, idx_main_v54 (ix1 i) k = ix2 i k := fun k => by
    funext d; match d with | ⟨0, _⟩ => rfl | ⟨1, _⟩ => rfl
  have e2 : ∀ k : Fin 4096, idx_main_v55 (ix1 i) k = ix2 i k := fun k => by
    funext d; match d with | ⟨0, _⟩ => rfl | ⟨1, _⟩ => rfl
  simp only [e1, e2, v53_eq, v42_eq, Spec.row, RowLaw.whole, Ideal.hostDivf_def, Ideal.addf_def]
  rfl

/-! ## The loss -/

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

theorem v63_eq (x0 : X0) (x1 : X1) (idx : S_.Idx) : val_main_v63 (F := Ideal) x0 x1 idx = Spec.loss x0 x1 := by
  rw [val_main_v63_apply, val_main_v62_apply, val_main_v61_apply, val_main_cst_12_apply, val_main_cst_13_apply,
    Ideal.ofBits_def, Ideal.ofBits_def, Ideal.ofBits_zero_f32, sum_idx1]
  have e : ∀ a : Fin 4096, val_main_v60 (F := Ideal) x0 x1 (ix1 a) = Spec.τ * Spec.row x0 x1 a := by
    intro a
    rw [val_main_v60_apply, val_main_v59_apply, val_main_cst_11_apply, v58_eq]
    rfl
  simp only [e]
  rfl

/-- The reference's result is the loss of its two arguments. -/
theorem result_eq (m : (ℓ : Loc nD τ sig) → Buf (Elt Ideal) ℓ) (c : Dev nD) :
    Cert.ReferenceIdeal.Value.res_main_v63 (F := Ideal) m c
      = fun _ => Spec.loss (m ((c.tc : Thread nD τ).loc main_arg0)) (m ((c.tc : Thread nD τ).loc main_arg1)) := by
  rw [val_main_v63_eq]
  funext idx
  exact v63_eq _ _ idx

end Cert.ReferenceIdeal.RefValue

end
-- ==== Proof.Finite.lean ====
/-
  The stated precondition, read back: if every feature's absolute value compares below `+∞` (the printed `finite_inputs`
  returns true), then every feature is a real number: `|⊥| = |⊤| = ⊤` is not below `⊤`.
-/
import proofs.«178212_j23381801959424_1_alg».proof.Pre_finite_inputs
import Idealize.ShloMosaic.Lib.ReduceAll
import Idealize.ShloMosaic.PureOps.Ideal.Laws
import Idealize.ShloMosaic.Lib.ValueIdx

noncomputable section

namespace Cert.Finite

open Idealize.ShloMosaic

/-- The rank-0 shape has one index. -/
instance : Subsingleton Cert.Pre_finite_inputs.S_.Idx := ⟨fun a b => funext fun d => d.elim0⟩

/-- The f32 word `0x7F800000` is `+∞`. -/
theorem posInf_val : Ideal.ofBits .f32 0x7F800000#32 = ⊤ := by simp [Ideal.ofBits, Ideal.ieee]

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  rw [posInf_val] at h
  induction x using EReal.rec with
  | bot => simp [Ideal.cmp] at h
  | coe r => exact ⟨r, rfl⟩
  | top => simp [Ideal.cmp] at h

/-- Under the precondition every feature is a real number. -/
theorem features_real [Cert.Pre_finite_inputs.Facts] (x0 : FVec Ideal Cert.Pre_finite_inputs.S2048x2x256 .f32)
    (x1 : IVec Cert.Pre_finite_inputs.S2048x80 32)
    (h : Cert.Pre_finite_inputs.fn (F := Ideal) x0 x1 = fun _ => 1#1) : ∀ k, ∃ r : ℝ, x0 k = (r : EReal) := by
  intro k
  have h0 := congrFun h ValueIdx.ix0
  dsimp only [Cert.Pre_finite_inputs.fn] at h0
  have hk := Host.reduce_andi_all _ _ _ _ _ h0 k
  exact real_of_abs_lt_top (x0 k) hk

end Cert.Finite

end
-- ==== Proof.lean ====
/-
  The certificate: the kernel and its reference compute the same supervised-contrastive loss over the extended reals.

  Both programs stack the two views of the features, form every pair of rows' similarity divided by the temperature,
  exclude the diagonal, take a log-softmax along each row, and average it over the row's positive pairs (label overlap of
  Jaccard ratio at least 0.3) with the Jaccard ratio as weight; the loss is minus the temperature times the mean over rows.
  The reference does this on whole 4096 x 4096 tables. The kernel visits the table in 512 x 512 tiles, row block by row
  block, and keeps five numbers per row between column blocks: the running maximum, the partition sum relative to it
  (rescaled whenever the maximum moves) and three sums that do not depend on the maximum; after the last column block it
  closes the row as (a - t * (m + log (z + eps))) / (n + eps). The two agree because exp (s - m1) * exp (m1 - m2) =
  exp (s - m2) carries the partition sum across a move of the maximum, and because the closing formula is the whole-row
  one with the sum distributed, which is real arithmetic once every feature is a real number (the precondition): the
  similarities are then reals, and the Jaccard ratios are reals for any integer labels since their denominators are an
  integer plus a number strictly between 0 and 1.
  The kernel multiplies by its folded reciprocal of the temperature where the reference divides by the temperature; the
  certificate's table names that constant as the exact reciprocal of the reference's divisor, and the first conjunct
  about the two kernel programs records that naming.

  The frames: each program runs to the end, faults nowhere and leaves both arguments as launched. For the two kernel
  programs this is the run of the whole program through its one kernel region (two of whose arrays are each read through
  two windows, so they are held in two half shares inside the region), stated once for any float instance; for the
  reference it is its run with the result dropped.
-/
import proofs.«178212_j23381801959424_1_alg».proof.Defs
import proofs.«178212_j23381801959424_1_alg».proof.Proof.Gen.Kernel
import proofs.«178212_j23381801959424_1_alg».proof.Proof.Gen.Kernel.Skeleton
import proofs.«178212_j23381801959424_1_alg».proof.Proof.Gen.Kernel.Launch
import proofs.«178212_j23381801959424_1_alg».proof.Proof.Gen.Kernel.Points
import proofs.«178212_j23381801959424_1_alg».proof.Proof.Gen.KernelIdeal
import proofs.«178212_j23381801959424_1_alg».proof.Proof.Gen.KernelIdeal.Skeleton
import proofs.«178212_j23381801959424_1_alg».proof.Proof.Gen.KernelIdeal.Launch
import proofs.«178212_j23381801959424_1_alg».proof.Proof.Gen.KernelIdeal.Points
import proofs.«178212_j23381801959424_1_alg».proof.Proof.Gen.ReferenceIdeal
import proofs.«178212_j23381801959424_1_alg».proof.Proof.RefRun
import proofs.«178212_j23381801959424_1_alg».proof.Proof.RefRead
import proofs.«178212_j23381801959424_1_alg».proof.Proof.Gen.Pre_finite_inputs
import proofs.«178212_j23381801959424_1_alg».proof.Proof.WordFrame
import proofs.«178212_j23381801959424_1_alg».proof.Proof.IdealFrame
import proofs.«178212_j23381801959424_1_alg».proof.Proof.IdealValue
import proofs.«178212_j23381801959424_1_alg».proof.Proof.RefSide
import proofs.«178212_j23381801959424_1_alg».proof.Proof.Finite
import Idealize.ShloMosaic.Adequacy
import Idealize.ShloMosaic.Init

noncomputable section

namespace Cert.Proof

open Idealize.ShloMosaic Idealize.SL.Sem

/-- The word-level kernel program runs to the end, faults nowhere, and leaves both arguments as launched. -/
theorem frame_kernel : Cert.frame_Kernel := fun m ρ _ => Cert.Kernel.Body.frame m ρ
/-- So does its idealization. -/
theorem frame_kernelIdeal : Cert.frame_KernelIdeal := fun m ρ _ => Cert.KernelIdeal.Body.frame m ρ
/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one constant the idealization names: the kernel's folded reciprocal of the temperature reads as the exact
    reciprocal of the reference's divisor. -/
theorem preserves : Cert.preserves_Kernel_KernelIdeal :=
  IdealRules.named_const.statement Cert.KernelIdeal.κ "inv_temperature" .f32 0x41649249#32 ((134217728 / 9395241 : ℝ) : EReal) rfl

/-- At the ideal instance, from memories that agree on the two arguments, both programs end with the same loss: the kernel's
    run ends with the specification's loss of its arguments (every feature being a real number, by the precondition), the
    reference's run ends with its composed term, which is the same loss, and the arguments agree. -/
theorem algebraic : Cert.algebraic_KernelIdeal_ReferenceIdeal := by
  intro m ρ m' ρ' hpre hagree
  have hx : ∀ c : Dev Cert.KernelIdeal.nD, ∀ k, ∃ r : ℝ,
      m ((c.tc : Thread Cert.KernelIdeal.nD Cert.KernelIdeal.τ).loc Cert.KernelIdeal.main_arg0) k = (r : EReal) :=
    fun c => Cert.Finite.features_real _ _ (hpre c)
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run_value m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
